-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v105) = v2 c
          ∧ r.2.mem ((c.tc : Thread Cert.ReferenceIdeal.nD Cert.ReferenceIdeal.τ).loc Cert.ReferenceIdeal.main_v141) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  main_v3
-- ==== Kernel.lean ====
abbrev S64x3x512x512 : Shape := ⟨4, ![64, 3, 512, 512]⟩
abbrev S192x512x512 : Shape := ⟨3, ![192, 512, 512]⟩
abbrev S192x4x256x256 : Shape := ⟨4, ![192, 4, 256, 256]⟩
abbrev S4x512x512 : Shape := ⟨3, ![4, 512, 512]⟩
abbrev S4x4x256x256 : Shape := ⟨4, ![4, 4, 256, 256]⟩
abbrev S4x256x2x256x2 : Shape := ⟨5, ![4, 256, 2, 256, 2]⟩
abbrev S4x256x1x256x1 : Shape := ⟨5, ![4, 256, 1, 256, 1]⟩
abbrev S4x256x256 : Shape := ⟨3, ![4, 256, 256]⟩
abbrev S4x1x256x256 : Shape := ⟨4, ![4, 1, 256, 256]⟩
abbrev S64x3x4x256x256 : Shape := ⟨5, ![64, 3, 4, 256, 256]⟩
abbrev S192x1x256x256 : Shape := ⟨4, ![192, 1, 256, 256]⟩
abbrev S192x256x256 : Shape := ⟨3, ![192, 256, 256]⟩
abbrev S192x4x128x128 : Shape := ⟨4, ![192, 4, 128, 128]⟩
abbrev S16x256x256 : Shape := ⟨3, ![16, 256, 256]⟩
abbrev S16x4x128x128 : Shape := ⟨4, ![16, 4, 128, 128]⟩
abbrev S16x128x2x128x2 : Shape := ⟨5, ![16, 128, 2, 128, 2]⟩
abbrev S16x128x1x128x1 : Shape := ⟨5, ![16, 128, 1, 128, 1]⟩
abbrev S16x128x128 : Shape := ⟨3, ![16, 128, 128]⟩
abbrev S16x1x128x128 : Shape := ⟨4, ![16, 1, 128, 128]⟩
abbrev S64x3x4x128x128 : Shape := ⟨5, ![64, 3, 4, 128, 128]⟩
abbrev S192x1x128x128 : Shape := ⟨4, ![192, 1, 128, 128]⟩
abbrev S192x128x128 : Shape := ⟨3, ![192, 128, 128]⟩
abbrev S192x4x64x64 : Shape := ⟨4, ![192, 4, 64, 64]⟩
abbrev S64x128x128 : Shape := ⟨3, ![64, 128, 128]⟩
abbrev S64x4x64x64 : Shape := ⟨4, ![64, 4, 64, 64]⟩
abbrev S64x64x2x64x2 : Shape := ⟨5, ![64, 64, 2, 64, 2]⟩
abbrev S64x64x1x64x1 : Shape := ⟨5, ![64, 64, 1, 64, 1]⟩
abbrev S64x64x64 : Shape := ⟨3, ![64, 64, 64]⟩
abbrev S64x1x64x64 : Shape := ⟨4, ![64, 1, 64, 64]⟩
abbrev S64x3x4x64x64 : Shape := ⟨5, ![64, 3, 4, 64, 64]⟩
abbrev S192x1x64x64 : Shape := ⟨4, ![192, 1, 64, 64]⟩
abbrev S192x64x64 : Shape := ⟨3, ![192, 64, 64]⟩
abbrev S192x4x32x32 : Shape := ⟨4, ![192, 4, 32, 32]⟩
abbrev S192x32x2x32x2 : Shape := ⟨5, ![192, 32, 2, 32, 2]⟩
abbrev S192x32x1x32x1 : Shape := ⟨5, ![192, 32, 1, 32, 1]⟩
abbrev S192x32x32 : Shape := ⟨3, ![192, 32, 32]⟩
abbrev S192x1x32x32 : Shape := ⟨4, ![192, 1, 32, 32]⟩
abbrev S64x3x4x32x32 : Shape := ⟨5, ![64, 3, 4, 32, 32]⟩

abbrev nBuf : Space → Nat
  | .hbm => 18
  | .vmem => 14
  | .smem => 0
  | _ => 0

abbrev bufTy : (tb : Table) → Fin (tcTables nBuf tb) → BufTy
  | .hbm, ⟨0, _⟩ => ⟨S64x3x512x512, .f32⟩
  | .hbm, ⟨1, _⟩ => ⟨S192x512x512, .f32⟩
  | .hbm, ⟨2, _⟩ => ⟨S192x4x256x256, .f32⟩
  | .hbm, ⟨3, _⟩ => ⟨S64x3x4x256x256, .f32⟩
  | .hbm, ⟨4, _⟩ => ⟨S192x1x256x256, .f32⟩
  | .hbm, ⟨5, _⟩ => ⟨S192x256x256, .f32⟩
  | .hbm, ⟨6, _⟩ => ⟨S192x4x128x128, .f32⟩
  | .hbm, ⟨7, _⟩ => ⟨S64x3x4x128x128, .f32⟩
  | .hbm, ⟨8, _⟩ => ⟨S192x1x128x128, .f32⟩
  | .hbm, ⟨9, _⟩ => ⟨S192x128x128, .f32⟩
  | .hbm, ⟨10, _⟩ => ⟨S192x4x64x64, .f32⟩
  | .hbm, ⟨11, _⟩ => ⟨S64x3x4x64x64, .f32⟩
  | .hbm, ⟨12, _⟩ => ⟨S192x1x64x64, .f32⟩
  | .hbm, ⟨13, _⟩ => ⟨S192x64x64, .f32⟩
  | .hbm, ⟨14, _⟩ => ⟨S192x4x32x32, .f32⟩
  | .hbm, ⟨15, _⟩ => ⟨S64x3x4x32x32, .f32⟩
  | .hbm, ⟨16, _⟩ => ⟨S192x1x32x32, .f32⟩
  | .hbm, ⟨17, _⟩ => ⟨S192x32x32, .f32⟩
  | .local _ .vmem, ⟨0, _⟩ => ⟨S4x512x512, .f32⟩
  | .local _ .vmem, ⟨1, _⟩ => ⟨S4x512x512, .f32⟩
  | .local _ .vmem, ⟨2, _⟩ => ⟨S4x4x256x256, .f32⟩
  | .local _ .vmem, ⟨3, _⟩ => ⟨S4x4x256x256, .f32⟩
  | .local _ .vmem, ⟨4, _⟩ => ⟨S16x256x256, .f32⟩
  | .local _ .vmem, ⟨5, _⟩ => ⟨S16x256x256, .f32⟩
  | .local _ .vmem, ⟨6, _⟩ => ⟨S16x4x128x128, .f32⟩
  | .local _ .vmem, ⟨7, _⟩ => ⟨S16x4x128x128, .f32⟩
  | .local _ .vmem, ⟨8, _⟩ => ⟨S64x128x128, .f32⟩
  | .local _ .vmem, ⟨9, _⟩ => ⟨S64x128x128, .f32⟩
  | .local _ .vmem, ⟨10, _⟩ => ⟨S64x4x64x64, .f32⟩
  | .local _ .vmem, ⟨11, _⟩ => ⟨S64x4x64x64, .f32⟩
  | .local _ .vmem, ⟨12, _⟩ => ⟨S192x64x64, .f32⟩
  | .local _ .vmem, ⟨13, _⟩ => ⟨S192x4x32x32, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg1_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem1_0 : DmaSem sig := 13

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![12], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S16x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x4x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![3], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S64x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x4x64x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![1], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 1 → Memref sig .tc .vmem S192x64x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S192x4x32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

class Facts₀ : Prop where
  shapeCasts_S64x3x512x512_S192x512x512 : S64x3x512x512.ShapeCasts S192x512x512
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  shapeCasts_S4x512x512_S4x256x2x256x2 : S4x512x512.ShapeCasts S4x256x2x256x2
  slices_S4x256x2x256x2_o0_0_0_0_0_S4x256x1x256x1 : S4x256x2x256x2.Slices ![0, 0, 0, 0, 0] S4x256x1x256x1
  shapeCasts_S4x256x1x256x1_S4x256x256 : S4x256x1x256x1.ShapeCasts S4x256x256
  slices_S4x256x2x256x2_o0_0_0_0_1_S4x256x1x256x1 : S4x256x2x256x2.Slices ![0, 0, 0, 0, 1] S4x256x1x256x1
  slices_S4x256x2x256x2_o0_0_1_0_0_S4x256x1x256x1 : S4x256x2x256x2.Slices ![0, 0, 1, 0, 0] S4x256x1x256x1
  slices_S4x256x2x256x2_o0_0_1_0_1_S4x256x1x256x1 : S4x256x2x256x2.Slices ![0, 0, 1, 0, 1] S4x256x1x256x1
  shapeCasts_S4x256x256_S4x1x256x256 : S4x256x256.ShapeCasts S4x1x256x256
  concatenates_S4x1x256x256_S4x1x256x256_S4x1x256x256_S4x1x256x256_S4x4x256x256_d1 : Shape.Concatenates [S4x1x256x256, S4x1x256x256, S4x1x256x256, S4x1x256x256] S4x4x256x256 1
  inb_S4x4x256x256_S4x4x256x256_0_0_0_0 : ∀ a, (![0, 0, 0, 0] : Fin 4 → Nat) a + S4x4x256x256.size a ≤ S4x4x256x256.size a
  h_S4x4x256x256 : 0 < S4x4x256x256.numel
  shapeCasts_S192x4x256x256_S64x3x4x256x256 : S192x4x256x256.ShapeCasts S64x3x4x256x256
  slices_S192x4x256x256_S192x1x256x256_0_0_0_0 : S192x4x256x256.Slices ![0, 0, 0, 0] S192x1x256x256
  shapeCasts_S192x1x256x256_S192x256x256 : S192x1x256x256.ShapeCasts S192x256x256
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  shapeCasts_S16x256x256_S16x128x2x128x2 : S16x256x256.ShapeCasts S16x128x2x128x2
  slices_S16x128x2x128x2_o0_0_0_0_0_S16x128x1x128x1 : S16x128x2x128x2.Slices ![0, 0, 0, 0, 0] S16x128x1x128x1
  shapeCasts_S16x128x1x128x1_S16x128x128 : S16x128x1x128x1.ShapeCasts S16x128x128
  slices_S16x128x2x128x2_o0_0_0_0_1_S16x128x1x128x1 : S16x128x2x128x2.Slices ![0, 0, 0, 0, 1] S16x128x1x128x1
  slices_S16x128x2x128x2_o0_0_1_0_0_S16x128x1x128x1 : S16x128x2x128x2.Slices ![0, 0, 1, 0, 0] S16x128x1x128x1
  slices_S16x128x2x128x2_o0_0_1_0_1_S16x128x1x128x1 : S16x128x2x128x2.Slices ![0, 0, 1, 0, 1] S16x128x1x128x1
  shapeCasts_S16x128x128_S16x1x128x128 : S16x128x128.ShapeCasts S16x1x128x128
  concatenates_S16x1x128x128_S16x1x128x128_S16x1x128x128_S16x1x128x128_S16x4x128x128_d1 : Shape.Concatenates [S16x1x128x128, S16x1x128x128, S16x1x128x128, S16x1x128x128] S16x4x128x128 1
  inb_S16x4x128x128_S16x4x128x128_0_0_0_0 : ∀ a, (![0, 0, 0, 0] : Fin 4 → Nat) a + S16x4x128x128.size a ≤ S16x4x128x128.size a
  h_S16x4x128x128 : 0 < S16x4x128x128.numel
  shapeCasts_S192x4x128x128_S64x3x4x128x128 : S192x4x128x128.ShapeCasts S64x3x4x128x128
  slices_S192x4x128x128_S192x1x128x128_0_0_0_0 : S192x4x128x128.Slices ![0, 0, 0, 0] S192x1x128x128
  shapeCasts_S192x1x128x128_S192x128x128 : S192x1x128x128.ShapeCasts S192x128x128
  inb_S64x128x128_S64x128x128_0_0_0 : ∀ a, (![0, 0, 0] : Fin 3 → Nat) a + S64x128x128.size a ≤ S64x128x128.size a
  h_S64x128x128 : 0 < S64x128x128.numel
  shapeCasts_S64x128x128_S64x128x128 : S64x128x128.ShapeCasts S64x128x128
  shapeCasts_S64x128x128_S64x64x2x64x2 : S64x128x128.ShapeCasts S64x64x2x64x2
  slices_S64x64x2x64x2_o0_0_0_0_0_S64x64x1x64x1 : S64x64x2x64x2.Slices ![0, 0, 0, 0, 0] S64x64x1x64x1
  shapeCasts_S64x64x1x64x1_S64x64x64 : S64x64x1x64x1.ShapeCasts S64x64x64
  slices_S64x64x2x64x2_o0_0_0_0_1_S64x64x1x64x1 : S64x64x2x64x2.Slices ![0, 0, 0, 0, 1] S64x64x1x64x1
  slices_S64x64x2x64x2_o0_0_1_0_0_S64x64x1x64x1 : S64x64x2x64x2.Slices ![0, 0, 1, 0, 0] S64x64x1x64x1
  slices_S64x64x2x64x2_o0_0_1_0_1_S64x64x1x64x1 : S64x64x2x64x2.Slices ![0, 0, 1, 0, 1] S64x64x1x64x1
  shapeCasts_S64x64x64_S64x1x64x64 : S64x64x64.ShapeCasts S64x1x64x64
  concatenates_S64x1x64x64_S64x1x64x64_S64x1x64x64_S64x1x64x64_S64x4x64x64_d1 : Shape.Concatenates [S64x1x64x64, S64x1x64x64, S64x1x64x64, S64x1x64x64] S64x4x64x64 1
  inb_S64x4x64x64_S64x4x64x64_0_0_0_0 : ∀ a, (![0, 0, 0, 0] : Fin 4 → Nat) a + S64x4x64x64.size a ≤ S64x4x64x64.size a
  h_S64x4x64x64 : 0 < S64x4x64x64.numel
  shapeCasts_S192x4x64x64_S64x3x4x64x64 : S192x4x64x64.ShapeCasts S64x3x4x64x64
  slices_S192x4x64x64_S192x1x64x64_0_0_0_0 : S192x4x64x64.Slices ![0, 0, 0, 0] S192x1x64x64
  shapeCasts_S192x1x64x64_S192x64x64 : S192x1x64x64.ShapeCasts S192x64x64
  inb_S192x64x64_S192x64x64_0_0_0 : ∀ a, (![0, 0, 0] : Fin 3 → Nat) a + S192x64x64.size a ≤ S192x64x64.size a
  h_S192x64x64 : 0 < S192x64x64.numel
  shapeCasts_S192x64x64_S192x64x64 : S192x64x64.ShapeCasts S192x64x64
  shapeCasts_S192x64x64_S192x32x2x32x2 : S192x64x64.ShapeCasts S192x32x2x32x2
  slices_S192x32x2x32x2_o0_0_0_0_0_S192x32x1x32x1 : S192x32x2x32x2.Slices ![0, 0, 0, 0, 0] S192x32x1x32x1
  shapeCasts_S192x32x1x32x1_S192x32x32 : S192x32x1x32x1.ShapeCasts S192x32x32
  slices_S192x32x2x32x2_o0_0_0_0_1_S192x32x1x32x1 : S192x32x2x32x2.Slices ![0, 0, 0, 0, 1] S192x32x1x32x1
  slices_S192x32x2x32x2_o0_0_1_0_0_S192x32x1x32x1 : S192x32x2x32x2.Slices ![0, 0, 1, 0, 0] S192x32x1x32x1
  slices_S192x32x2x32x2_o0_0_1_0_1_S192x32x1x32x1 : S192x32x2x32x2.Slices ![0, 0, 1, 0, 1] S192x32x1x32x1
  shapeCasts_S192x32x32_S192x1x32x32 : S192x32x32.ShapeCasts S192x1x32x32
  concatenates_S192x1x32x32_S192x1x32x32_S192x1x32x32_S192x1x32x32_S192x4x32x32_d1 : Shape.Concatenates [S192x1x32x32, S192x1x32x32, S192x1x32x32, S192x1x32x32] S192x4x32x32 1
  inb_S192x4x32x32_S192x4x32x32_0_0_0_0 : ∀ a, (![0, 0, 0, 0] : Fin 4 → Nat) a + S192x4x32x32.size a ≤ S192x4x32x32.size a
  h_S192x4x32x32 : 0 < S192x4x32x32.numel
  shapeCasts_S192x4x32x32_S64x3x4x32x32 : S192x4x32x32.ShapeCasts S64x3x4x32x32
  slices_S192x4x32x32_S192x1x32x32_0_0_0_0 : S192x4x32x32.Slices ![0, 0, 0, 0] S192x1x32x32
  shapeCasts_S192x1x32x32_S192x32x32 : S192x1x32x32.ShapeCasts S192x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S192x512x512.size a
  hwx0_0 : ∀ i : grid0.Coords, EltTy.bits .f32 = 32 ∨ (Rect.block (s := S192x512x512) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x4x256x256.size a ≤ S192x4x256x256.size a
  hwx0_1 : ∀ i : grid0.Coords, EltTy.bits .f32 = 32 ∨ (Rect.block (s := S192x4x256x256) S4x4x256x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256x256.size a ≤ S192x256x256.size a
  hwx1_0 : ∀ i : grid1.Coords, EltTy.bits .f32 = 32 ∨ (Rect.block (s := S192x256x256) S16x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x4x128x128.size a ≤ S192x4x128x128.size a
  hwx1_1 : ∀ i : grid1.Coords, EltTy.bits .f32 = 32 ∨ (Rect.block (s := S192x4x128x128) S16x4x128x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x128x128.size a ≤ S192x128x128.size a
  hwx2_0 : ∀ i : grid2.Coords, EltTy.bits .f32 = 32 ∨ (Rect.block (s := S192x128x128) S64x128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x4x64x64.size a ≤ S192x4x64x64.size a
  hwx2_1 : ∀ i : grid2.Coords, EltTy.bits .f32 = 32 ∨ (Rect.block (s := S192x4x64x64) S64x4x64x64.size (cc2_transform_1 i) (hinb2_1 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S192x64x64.size a ≤ S192x64x64.size a
  hwx3_0 : ∀ i : grid3.Coords, EltTy.bits .f32 = 32 ∨ (Rect.block (s := S192x64x64) S192x64x64.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S192x4x32x32.size a ≤ S192x4x32x32.size a
  hwx3_1 : ∀ i : grid3.Coords, EltTy.bits .f32 = 32 ∨ (Rect.block (s := S192x4x32x32) S192x4x32x32.size (cc3_transform_1 i) (hinb3_1 i)).WholeWords (EltTy.packing .f32)

variable [Facts₀]

abbrev win0_0 : Pipeline.Window sig grid0 :=
  Pipeline.Window.ofSpec (Memref.whole main_v0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x4x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v4) S16x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S16x4x128x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v8) S64x128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S64x4x64x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v12) S192x64x64.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v13) S192x4x32x32.size cc3_transform_1 reads3_1 true false 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S64x3x512x512 : Shape := ⟨4, ![64, 3, 512, 512]⟩
abbrev S64x3x256x2x256x2 : Shape := ⟨6, ![64, 3, 256, 2, 256, 2]⟩
abbrev S64x3x256x1x256x1 : Shape := ⟨6, ![64, 3, 256, 1, 256, 1]⟩
abbrev S64x3x256x256 : Shape := ⟨4, ![64, 3, 256, 256]⟩
abbrev S_ : Shape := ⟨0, ![]⟩
abbrev S64x3x1x256x256 : Shape := ⟨5, ![64, 3, 1, 256, 256]⟩
abbrev S64x3x4x256x256 : Shape := ⟨5, ![64, 3, 4, 256, 256]⟩
abbrev S64x3x128x2x128x2 : Shape := ⟨6, ![64, 3, 128, 2, 128, 2]⟩
abbrev S64x3x128x1x128x1 : Shape := ⟨6, ![64, 3, 128, 1, 128, 1]⟩
abbrev S64x3x128x128 : Shape := ⟨4, ![64, 3, 128, 128]⟩
abbrev S64x3x1x128x128 : Shape := ⟨5, ![64, 3, 1, 128, 128]⟩
abbrev S64x3x4x128x128 : Shape := ⟨5, ![64, 3, 4, 128, 128]⟩
abbrev S64x3x64x2x64x2 : Shape := ⟨6, ![64, 3, 64, 2, 64, 2]⟩
abbrev S64x3x64x1x64x1 : Shape := ⟨6, ![64, 3, 64, 1, 64, 1]⟩
abbrev S64x3x64x64 : Shape := ⟨4, ![64, 3, 64, 64]⟩
abbrev S64x3x1x64x64 : Shape := ⟨5, ![64, 3, 1, 64, 64]⟩
abbrev S64x3x4x64x64 : Shape := ⟨5, ![64, 3, 4, 64, 64]⟩
abbrev S64x3x32x2x32x2 : Shape := ⟨6, ![64, 3, 32, 2, 32, 2]⟩
abbrev S64x3x32x1x32x1 : Shape := ⟨6, ![64, 3, 32, 1, 32, 1]⟩
abbrev S64x3x32x32 : Shape := ⟨4, ![64, 3, 32, 32]⟩
abbrev S64x3x1x32x32 : Shape := ⟨5, ![64, 3, 1, 32, 32]⟩
abbrev S64x3x4x32x32 : Shape := ⟨5, ![64, 3, 4, 32, 32]⟩

abbrev nBuf : Space → Nat
  | .hbm => 161
  | .vmem => 0
  | .smem => 0
  | _ => 0

abbrev hbmTy0_0 (i : Nat) : BufTy := match i % 128 with
  | 0 => ⟨S64x3x512x512, .f32⟩
  | 1 => ⟨S64x3x256x2x256x2, .f32⟩
  | 2 => ⟨S64x3x256x1x256x1, .f32⟩
  | 3 => ⟨S64x3x256x256, .f32⟩
  | 4 => ⟨S64x3x256x1x256x1, .f32⟩
  | 5 => ⟨S64x3x256x256, .f32⟩
  | 6 => ⟨S64x3x256x1x256x1, .f32⟩
  | 7 => ⟨S64x3x256x256, .f32⟩
  | 8 => ⟨S64x3x256x1x256x1, .f32⟩
  | 9 => ⟨S64x3x256x256, .f32⟩
  | 10 => ⟨S64x3x256x256, .f32⟩
  | 11 => ⟨S64x3x256x256, .f32⟩
  | 12 => ⟨S64x3x256x256, .f32⟩
  | 13 => ⟨S_, .f32⟩
  | 14 => ⟨S64x3x256x256, .f32⟩
  | 15 => ⟨S64x3x256x256, .f32⟩
  | 16 => ⟨S64x3x256x256, .f32⟩
  | 17 => ⟨S64x3x256x256, .f32⟩
  | 18 => ⟨S64x3x256x256, .f32⟩
  | 19 => ⟨S_, .f32⟩
  | 20 => ⟨S64x3x256x256, .f32⟩
  | 21 => ⟨S64x3x256x256, .f32⟩
  | 22 => ⟨S64x3x256x256, .f32⟩
  | 23 => ⟨S64x3x256x256, .f32⟩
  | 24 => ⟨S64x3x256x256, .f32⟩
  | 25 => ⟨S_, .f32⟩
  | 26 => ⟨S64x3x256x256, .f32⟩
  | 27 => ⟨S64x3x256x256, .f32⟩
  | 28 => ⟨S64x3x256x256, .f32⟩
  | 29 => ⟨S64x3x256x256, .f32⟩
  | 30 => ⟨S64x3x256x256, .f32⟩
  | 31 => ⟨S_, .f32⟩
  | 32 => ⟨S64x3x256x256, .f32⟩
  | 33 => ⟨S64x3x256x256, .f32⟩
  | 34 => ⟨S64x3x1x256x256, .f32⟩
  | 35 => ⟨S64x3x1x256x256, .f32⟩
  | 36 => ⟨S64x3x1x256x256, .f32⟩
  | 37 => ⟨S64x3x1x256x256, .f32⟩
  | 38 => ⟨S64x3x4x256x256, .f32⟩
  | 39 => ⟨S64x3x1x256x256, .f32⟩
  | 40 => ⟨S64x3x256x256, .f32⟩
  | 41 => ⟨S64x3x128x2x128x2, .f32⟩
  | 42 => ⟨S64x3x128x1x128x1, .f32⟩
  | 43 => ⟨S64x3x128x128, .f32⟩
  | 44 => ⟨S64x3x128x1x128x1, .f32⟩
  | 45 => ⟨S64x3x128x128, .f32⟩
  | 46 => ⟨S64x3x128x1x128x1, .f32⟩
  | 47 => ⟨S64x3x128x128, .f32⟩
  | 48 => ⟨S64x3x128x1x128x1, .f32⟩
  | 49 => ⟨S64x3x128x128, .f32⟩
  | 50 => ⟨S64x3x128x128, .f32⟩
  | 51 => ⟨S64x3x128x128, .f32⟩
  | 52 => ⟨S64x3x128x128, .f32⟩
  | 53 => ⟨S_, .f32⟩
  | 54 => ⟨S64x3x128x128, .f32⟩
  | 55 => ⟨S64x3x128x128, .f32⟩
  | 56 => ⟨S64x3x128x128, .f32⟩
  | 57 => ⟨S64x3x128x128, .f32⟩
  | 58 => ⟨S64x3x128x128, .f32⟩
  | 59 => ⟨S_, .f32⟩
  | 60 => ⟨S64x3x128x128, .f32⟩
  | 61 => ⟨S64x3x128x128, .f32⟩
  | 62 => ⟨S64x3x128x128, .f32⟩
  | 63 => ⟨S64x3x128x128, .f32⟩
  | 64 => ⟨S64x3x128x128, .f32⟩
  | 65 => ⟨S_, .f32⟩
  | 66 => ⟨S64x3x128x128, .f32⟩
  | 67 => ⟨S64x3x128x128, .f32⟩
  | 68 => ⟨S64x3x128x128, .f32⟩
  | 69 => ⟨S64x3x128x128, .f32⟩
  | 70 => ⟨S64x3x128x128, .f32⟩
  | 71 => ⟨S_, .f32⟩
  | 72 => ⟨S64x3x128x128, .f32⟩
  | 73 => ⟨S64x3x128x128, .f32⟩
  | 74 => ⟨S64x3x1x128x128, .f32⟩
  | 75 => ⟨S64x3x1x128x128, .f32⟩
  | 76 => ⟨S64x3x1x128x128, .f32⟩
  | 77 => ⟨S64x3x1x128x128, .f32⟩
  | 78 => ⟨S64x3x4x128x128, .f32⟩
  | 79 => ⟨S64x3x1x128x128, .f32⟩
  | 80 => ⟨S64x3x128x128, .f32⟩
  | 81 => ⟨S64x3x64x2x64x2, .f32⟩
  | 82 => ⟨S64x3x64x1x64x1, .f32⟩
  | 83 => ⟨S64x3x64x64, .f32⟩
  | 84 => ⟨S64x3x64x1x64x1, .f32⟩
  | 85 => ⟨S64x3x64x64, .f32⟩
  | 86 => ⟨S64x3x64x1x64x1, .f32⟩
  | 87 => ⟨S64x3x64x64, .f32⟩
  | 88 => ⟨S64x3x64x1x64x1, .f32⟩
  | 89 => ⟨S64x3x64x64, .f32⟩
  | 90 => ⟨S64x3x64x64, .f32⟩
  | 91 => ⟨S64x3x64x64, .f32⟩
  | 92 => ⟨S64x3x64x64, .f32⟩
  | 93 => ⟨S_, .f32⟩
  | 94 => ⟨S64x3x64x64, .f32⟩
  | 95 => ⟨S64x3x64x64, .f32⟩
  | 96 => ⟨S64x3x64x64, .f32⟩
  | 97 => ⟨S64x3x64x64, .f32⟩
  | 98 => ⟨S64x3x64x64, .f32⟩
  | 99 => ⟨S_, .f32⟩
  | 100 => ⟨S64x3x64x64, .f32⟩
  | 101 => ⟨S64x3x64x64, .f32⟩
  | 102 => ⟨S64x3x64x64, .f32⟩
  | 103 => ⟨S64x3x64x64, .f32⟩
  | 104 => ⟨S64x3x64x64, .f32⟩
  | 105 => ⟨S_, .f32⟩
  | 106 => ⟨S64x3x64x64, .f32⟩
  | 107 => ⟨S64x3x64x64, .f32⟩
  | 108 => ⟨S64x3x64x64, .f32⟩
  | 109 => ⟨S64x3x64x64, .f32⟩
  | 110 => ⟨S64x3x64x64, .f32⟩
  | 111 => ⟨S_, .f32⟩
  | 112 => ⟨S64x3x64x64, .f32⟩
  | 113 => ⟨S64x3x64x64, .f32⟩
  | 114 => ⟨S64x3x1x64x64, .f32⟩
  | 115 => ⟨S64x3x1x64x64, .f32⟩
  | 116 => ⟨S64x3x1x64x64, .f32⟩
  | 117 => ⟨S64x3x1x64x64, .f32⟩
  | 118 => ⟨S64x3x4x64x64, .f32⟩
  | 119 => ⟨S64x3x1x64x64, .f32⟩
  | 120 => ⟨S64x3x64x64, .f32⟩
  | 121 => ⟨S64x3x32x2x32x2, .f32⟩
  | 122 => ⟨S64x3x32x1x32x1, .f32⟩
  | 123 => ⟨S64x3x32x32, .f32⟩
  | 124 => ⟨S64x3x32x1x32x1, .f32⟩
  | 125 => ⟨S64x3x32x32, .f32⟩
  | 126 => ⟨S64x3x32x1x32x1, .f32⟩
  | 127 => ⟨S64x3x32x32, .f32⟩
  | _ => ⟨S64x3x512x512, .f32⟩

abbrev hbmTy0_1 (i : Nat) : BufTy := match i % 128 with
  | 0 => ⟨S64x3x32x1x32x1, .f32⟩
  | 1 => ⟨S64x3x32x32, .f32⟩
  | 2 => ⟨S64x3x32x32, .f32⟩
  | 3 => ⟨S64x3x32x32, .f32⟩
  | 4 => ⟨S64x3x32x32, .f32⟩
  | 5 => ⟨S_, .f32⟩
  | 6 => ⟨S64x3x32x32, .f32⟩
  | 7 => ⟨S64x3x32x32, .f32⟩
  | 8 => ⟨S64x3x32x32, .f32⟩
  | 9 => ⟨S64x3x32x32, .f32⟩
  | 10 => ⟨S64x3x32x32, .f32⟩
  | 11 => ⟨S_, .f32⟩
  | 12 => ⟨S64x3x32x32, .f32⟩
  | 13 => ⟨S64x3x32x32, .f32⟩
  | 14 => ⟨S64x3x32x32, .f32⟩
  | 15 => ⟨S64x3x32x32, .f32⟩
  | 16 => ⟨S64x3x32x32, .f32⟩
  | 17 => ⟨S_, .f32⟩
  | 18 => ⟨S64x3x32x32, .f32⟩
  | 19 => ⟨S64x3x32x32, .f32⟩
  | 20 => ⟨S64x3x32x32, .f32⟩
  | 21 => ⟨S64x3x32x32, .f32⟩
  | 22 => ⟨S64x3x32x32, .f32⟩
  | 23 => ⟨S_, .f32⟩
  | 24 => ⟨S64x3x32x32, .f32⟩
  | 25 => ⟨S64x3x32x32, .f32⟩
  | 26 => ⟨S64x3x1x32x32, .f32⟩
  | 27 => ⟨S64x3x1x32x32, .f32⟩
  | 28 => ⟨S64x3x1x32x32, .f32⟩
  | 29 => ⟨S64x3x1x32x32, .f32⟩
  | 30 => ⟨S64x3x4x32x32, .f32⟩
  | 31 => ⟨S64x3x1x32x32, .f32⟩
  | 32 => ⟨S64x3x32x32, .f32⟩
  | _ => ⟨S64x3x512x512, .f32⟩

abbrev hbmTy (i : Nat) : BufTy := match i / 128 with
  | 0 => hbmTy0_0 i
  | 1 => hbmTy0_1 i
  | _ => ⟨S64x3x512x512, .f32⟩

abbrev bufTy : (tb : Table) → Fin (tcTables nBuf tb) → BufTy
  | .hbm, ⟨i, _⟩ => hbmTy i
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_2 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_cst_3 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_cst_4 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_cst_5 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_cst_6 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_cst_7 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_cst_8 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_cst_9 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_cst_10 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_cst_11 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_cst_12 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_cst_13 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_cst_14 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩

abbrev nD : Nat := 1
abbrev τ : Topo := Topo.v7x

variable {F : FTy → Type} [FloatOps F]

class Facts₀ : Prop where
  shapeCasts_S64x3x512x512_S64x3x256x2x256x2 : S64x3x512x512.ShapeCasts S64x3x256x2x256x2
  slices_S64x3x256x2x256x2_S64x3x256x1x256x1_0_0_0_0_0_0 : S64x3x256x2x256x2.Slices ![0, 0, 0, 0, 0, 0] S64x3x256x1x256x1
  shapeCasts_S64x3x256x1x256x1_S64x3x256x256 : S64x3x256x1x256x1.ShapeCasts S64x3x256x256
  slices_S64x3x256x2x256x2_S64x3x256x1x256x1_0_0_0_0_0_1 : S64x3x256x2x256x2.Slices ![0, 0, 0, 0, 0, 1] S64x3x256x1x256x1
  slices_S64x3x256x2x256x2_S64x3x256x1x256x1_0_0_0_1_0_0 : S64x3x256x2x256x2.Slices ![0, 0, 0, 1, 0, 0] S64x3x256x1x256x1
  slices_S64x3x256x2x256x2_S64x3x256x1x256x1_0_0_0_1_0_1 : S64x3x256x2x256x2.Slices ![0, 0, 0, 1, 0, 1] S64x3x256x1x256x1
  bcast_S_S64x3x256x256 : S_.BroadcastsInDim S64x3x256x256 (![] : Fin 0 → Fin S64x3x256x256.rank)
  bcast_S64x3x256x256_S64x3x1x256x256_0_1_3_4 : S64x3x256x256.BroadcastsInDim S64x3x1x256x256 (![0, 1, 3, 4] : Fin 4 → Fin S64x3x1x256x256.rank)
  concatenates_S64x3x1x256x256_S64x3x1x256x256_S64x3x1x256x256_S64x3x1x256x256_S64x3x4x256x256_d2 : Shape.Concatenates [S64x3x1x256x256, S64x3x1x256x256, S64x3x1x256x256, S64x3x1x256x256] S64x3x4x256x256 2
  slices_S64x3x4x256x256_S64x3x1x256x256_0_0_0_0_0 : S64x3x4x256x256.Slices ![0, 0, 0, 0, 0] S64x3x1x256x256
  shapeCasts_S64x3x1x256x256_S64x3x256x256 : S64x3x1x256x256.ShapeCasts S64x3x256x256
  shapeCasts_S64x3x256x256_S64x3x128x2x128x2 : S64x3x256x256.ShapeCasts S64x3x128x2x128x2
  slices_S64x3x128x2x128x2_S64x3x128x1x128x1_0_0_0_0_0_0 : S64x3x128x2x128x2.Slices ![0, 0, 0, 0, 0, 0] S64x3x128x1x128x1
  shapeCasts_S64x3x128x1x128x1_S64x3x128x128 : S64x3x128x1x128x1.ShapeCasts S64x3x128x128
  slices_S64x3x128x2x128x2_S64x3x128x1x128x1_0_0_0_0_0_1 : S64x3x128x2x128x2.Slices ![0, 0, 0, 0, 0, 1] S64x3x128x1x128x1
  slices_S64x3x128x2x128x2_S64x3x128x1x128x1_0_0_0_1_0_0 : S64x3x128x2x128x2.Slices ![0, 0, 0, 1, 0, 0] S64x3x128x1x128x1
  slices_S64x3x128x2x128x2_S64x3x128x1x128x1_0_0_0_1_0_1 : S64x3x128x2x128x2.Slices ![0, 0, 0, 1, 0, 1] S64x3x128x1x128x1
  bcast_S_S64x3x128x128 : S_.BroadcastsInDim S64x3x128x128 (![] : Fin 0 → Fin S64x3x128x128.rank)
  bcast_S64x3x128x128_S64x3x1x128x128_0_1_3_4 : S64x3x128x128.BroadcastsInDim S64x3x1x128x128 (![0, 1, 3, 4] : Fin 4 → Fin S64x3x1x128x128.rank)
  concatenates_S64x3x1x128x128_S64x3x1x128x128_S64x3x1x128x128_S64x3x1x128x128_S64x3x4x128x128_d2 : Shape.Concatenates [S64x3x1x128x128, S64x3x1x128x128, S64x3x1x128x128, S64x3x1x128x128] S64x3x4x128x128 2
  slices_S64x3x4x128x128_S64x3x1x128x128_0_0_0_0_0 : S64x3x4x128x128.Slices ![0, 0, 0, 0, 0] S64x3x1x128x128
  shapeCasts_S64x3x1x128x128_S64x3x128x128 : S64x3x1x128x128.ShapeCasts S64x3x128x128
  shapeCasts_S64x3x128x128_S64x3x64x2x64x2 : S64x3x128x128.ShapeCasts S64x3x64x2x64x2
  slices_S64x3x64x2x64x2_S64x3x64x1x64x1_0_0_0_0_0_0 : S64x3x64x2x64x2.Slices ![0, 0, 0, 0, 0, 0] S64x3x64x1x64x1
  shapeCasts_S64x3x64x1x64x1_S64x3x64x64 : S64x3x64x1x64x1.ShapeCasts S64x3x64x64
  slices_S64x3x64x2x64x2_S64x3x64x1x64x1_0_0_0_0_0_1 : S64x3x64x2x64x2.Slices ![0, 0, 0, 0, 0, 1] S64x3x64x1x64x1
  slices_S64x3x64x2x64x2_S64x3x64x1x64x1_0_0_0_1_0_0 : S64x3x64x2x64x2.Slices ![0, 0, 0, 1, 0, 0] S64x3x64x1x64x1
  slices_S64x3x64x2x64x2_S64x3x64x1x64x1_0_0_0_1_0_1 : S64x3x64x2x64x2.Slices ![0, 0, 0, 1, 0, 1] S64x3x64x1x64x1
  bcast_S_S64x3x64x64 : S_.BroadcastsInDim S64x3x64x64 (![] : Fin 0 → Fin S64x3x64x64.rank)
  bcast_S64x3x64x64_S64x3x1x64x64_0_1_3_4 : S64x3x64x64.BroadcastsInDim S64x3x1x64x64 (![0, 1, 3, 4] : Fin 4 → Fin S64x3x1x64x64.rank)
  concatenates_S64x3x1x64x64_S64x3x1x64x64_S64x3x1x64x64_S64x3x1x64x64_S64x3x4x64x64_d2 : Shape.Concatenates [S64x3x1x64x64, S64x3x1x64x64, S64x3x1x64x64, S64x3x1x64x64] S64x3x4x64x64 2
  slices_S64x3x4x64x64_S64x3x1x64x64_0_0_0_0_0 : S64x3x4x64x64.Slices ![0, 0, 0, 0, 0] S64x3x1x64x64
  shapeCasts_S64x3x1x64x64_S64x3x64x64 : S64x3x1x64x64.ShapeCasts S64x3x64x64
  shapeCasts_S64x3x64x64_S64x3x32x2x32x2 : S64x3x64x64.ShapeCasts S64x3x32x2x32x2
  slices_S64x3x32x2x32x2_S64x3x32x1x32x1_0_0_0_0_0_0 : S64x3x32x2x32x2.Slices ![0, 0, 0, 0, 0, 0] S64x3x32x1x32x1
  shapeCasts_S64x3x32x1x32x1_S64x3x32x32 : S64x3x32x1x32x1.ShapeCasts S64x3x32x32
  slices_S64x3x32x2x32x2_S64x3x32x1x32x1_0_0_0_0_0_1 : S64x3x32x2x32x2.Slices ![0, 0, 0, 0, 0, 1] S64x3x32x1x32x1
  slices_S64x3x32x2x32x2_S64x3x32x1x32x1_0_0_0_1_0_0 : S64x3x32x2x32x2.Slices ![0, 0, 0, 1, 0, 0] S64x3x32x1x32x1
  slices_S64x3x32x2x32x2_S64x3x32x1x32x1_0_0_0_1_0_1 : S64x3x32x2x32x2.Slices ![0, 0, 0, 1, 0, 1] S64x3x32x1x32x1
  bcast_S_S64x3x32x32 : S_.BroadcastsInDim S64x3x32x32 (![] : Fin 0 → Fin S64x3x32x32.rank)
  bcast_S64x3x32x32_S64x3x1x32x32_0_1_3_4 : S64x3x32x32.BroadcastsInDim S64x3x1x32x32 (![0, 1, 3, 4] : Fin 4 → Fin S64x3x1x32x32.rank)
  concatenates_S64x3x1x32x32_S64x3x1x32x32_S64x3x1x32x32_S64x3x1x32x32_S64x3x4x32x32_d2 : Shape.Concatenates [S64x3x1x32x32, S64x3x1x32x32, S64x3x1x32x32, S64x3x1x32x32] S64x3x4x32x32 2
  slices_S64x3x4x32x32_S64x3x1x32x32_0_0_0_0_0 : S64x3x4x32x32.Slices ![0, 0, 0, 0, 0] S64x3x1x32x32
  shapeCasts_S64x3x1x32x32_S64x3x32x32 : S64x3x1x32x32.ShapeCasts S64x3x32x32

variable [Facts₀]

class Facts : Prop extends Facts₀ where

variable [Facts]
-- ==== Proof.KernelRun.lean ====
/-
  The device program's run with its results named. The program is nine segments: a host reshape, then four times
  a pipelined call followed by three host operations (a reshape of the call's result into the returned layout, the
  cut of plane 0 and its reshape into the next call's input). Each segment takes every unscoped buffer from one
  valuation to the next (`Gen.W0` … `Gen.W9`), so after the run every buffer holds what the last valuation says:
  in particular the four returned arrays, and the argument, which nothing writes.
-/
import proofs.«113170_j5841155522677_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and in its final state each returned array holds what the last
    valuation `Gen.W9` holds there, the argument what it held at launch. -/
theorem run : θ_run defs (onTc (τ := τ) (main (F := F))) ⟨m, fun _ => 0, ρ⟩ (fun r => ∀ c : Dev nD,
      r.2.mem ((c.tc : Thread nD τ).loc main_v2) = W9 m ρ c (Proc.devRef .tc main_v2)
      ∧ r.2.mem ((c.tc : Thread nD τ).loc main_v6) = W9 m ρ c (Proc.devRef .tc main_v6)
      ∧ r.2.mem ((c.tc : Thread nD τ).loc main_v10) = W9 m ρ c (Proc.devRef .tc main_v10)
      ∧ r.2.mem ((c.tc : Thread nD τ).loc main_v14) = W9 m ρ c (Proc.devRef .tc main_v14)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v2 (by decide)), h c _ (mem_uc main_v6 (by decide)), h c _ (mem_uc main_v10 (by decide)),
       h c _ (mem_uc main_v14 (by decide)), (h c _ (mem_uc main_arg0 (by decide))).trans (W9_main_arg0 m ρ c)⟩)

end Cert.KernelIdeal.Results

end
-- ==== Proof.LibHaar.lean ====
/-
  One level of the two-dimensional Haar transform, read at an index.

  A level takes an image stack and cuts every image into 2×2 patches. With a, b the two entries of a patch's upper
  row and c, d those of its lower row, the level's four planes hold

      (a + b + c + d)·½,   (a + b − c − d)·½,   (a − b + c − d)·½,   (a − b − c + d)·½

  (`coef`). Two spellings of a level are read here, each for ANY extents with H = 2h and W = 2w:

  * `stackLevel`: on a stack [n, H, W], the patches taken by viewing the stack as [n, h, 2, w, 2] and picking the
    four unit-stride corners, the planes laid side by side on a new axis 1, result [n, 4, h, w];
  * `batchLevel`: on a batch [B, C, H, W], the same through the view [B, C, h, 2, w, 2], the planes stretched onto
    a new axis 2 and laid side by side there, result [B, C, 4, h, w].

  `stackLevel_apply` and `batchLevel_apply` say that either one, at plane k of patch (i, j), is `coef k` of that
  patch's four entries. Two consequences are what a multi-level transform needs: flattening the batch to a stack
  of N = B·C images commutes with a level (`level_flatten`), and taking plane 0 out of a level's result — the
  input of the next level — commutes with the same flattening (`plane0_flatten`). A row-block of a stack's level
  is the level of the row-block (`stackLevel_rows`).
-/
import Idealize.ShloMosaic.PureOps.Ideal
import Idealize.ShloMosaic.Lib.ValueIdx
import Idealize.ShloMosaic.Lib.ValueIdxRank6
import Idealize.ShloMosaic.Lib.Pipeline.Value
import Idealize.ShloMosaic.Lib.IdealHost

noncomputable section

namespace Haar

open Idealize.ShloMosaic Idealize.ShloMosaic.ValueIdx

/-- The scaling factor ½ as the programs write it: the binary32 word of 0.5. -/
abbrev half : Ideal .f32 := Scalar.ofBits .f32 0x3F000000#32

/-- Plane `k` of a patch with upper row `a b` and lower row `c d`. -/
def coef (k : ℕ) (a b c d : EReal) : EReal :=
  match k with
  | 0 => (a + b + c + d) * half
  | 1 => (a + b - c - d) * half
  | 2 => (a - b + c - d) * half
  | _ => (a - b - c + d) * half

/-! ## A level on a stack of images -/

section Stack

variable (n H W h w : ℕ)

abbrev SIn : Shape := ⟨3, ![n, H, W]⟩
abbrev SSplit : Shape := ⟨5, ![n, h, 2, w, 2]⟩
abbrev SPick : Shape := ⟨5, ![n, h, 1, w, 1]⟩
abbrev SQ : Shape := ⟨3, ![n, h, w]⟩
abbrev SQ1 : Shape := ⟨4, ![n, 1, h, w]⟩
abbrev SOut : Shape := ⟨4, ![n, 4, h, w]⟩

/-- The side conditions of the level's layout operations. -/
structure StackFacts : Prop where
  same : (SIn n H W).ShapeCasts (SIn n H W)
  split : (SIn n H W).ShapeCasts (SSplit n h w)
  p00 : (SSplit n h w).Slices ![0, 0, 0, 0, 0] (SPick n h w)
  p01 : (SSplit n h w).Slices ![0, 0, 0, 0, 1] (SPick n h w)
  p10 : (SSplit n h w).Slices ![0, 0, 1, 0, 0] (SPick n h w)
  p11 : (SSplit n h w).Slices ![0, 0, 1, 0, 1] (SPick n h w)
  drop : (SPick n h w).ShapeCasts (SQ n h w)
  lift : (SQ n h w).ShapeCasts (SQ1 n h w)
  cat : Shape.Concatenates [SQ1 n h w, SQ1 n h w, SQ1 n h w, SQ1 n h w] (SOut n h w) 1

variable {n H W h w}

/-- One level on a stack: the four corners of every patch picked out of the view [n, h, 2, w, 2], combined, and
    the four planes laid side by side on axis 1. -/
def stackLevel (hf : StackFacts n H W h w) (v0 : FVec Ideal (SIn n H W) .f32) : FVec Ideal (SOut n h w) .f32 :=
  have v2 : FVec Ideal (SSplit n h w) .f32 := shapeCast (SSplit n h w) (shapeCast (SIn n H W) v0 hf.same) hf.split
  have a : FVec Ideal (SQ n h w) .f32 := shapeCast (SQ n h w) (extractStridedSlice (SPick n h w) ![0, 0, 0, 0, 0] v2 hf.p00) hf.drop
  have b : FVec Ideal (SQ n h w) .f32 := shapeCast (SQ n h w) (extractStridedSlice (SPick n h w) ![0, 0, 0, 0, 1] v2 hf.p01) hf.drop
  have c : FVec Ideal (SQ n h w) .f32 := shapeCast (SQ n h w) (extractStridedSlice (SPick n h w) ![0, 0, 1, 0, 0] v2 hf.p10) hf.drop
  have d : FVec Ideal (SQ n h w) .f32 := shapeCast (SQ n h w) (extractStridedSlice (SPick n h w) ![0, 0, 1, 0, 1] v2 hf.p11) hf.drop
  have s : FVec Ideal (SQ n h w) .f32 := broadcast (SQ n h w) half
  concatenate (SOut n h w) 1
    [⟨SQ1 n h w, shapeCast (SQ1 n h w) (mulf (addf (addf (addf a b) c) d) s) hf.lift⟩,
     ⟨SQ1 n h w, shapeCast (SQ1 n h w) (mulf (subf (subf (addf a b) c) d) s) hf.lift⟩,
     ⟨SQ1 n h w, shapeCast (SQ1 n h w) (mulf (subf (addf (subf a b) c) d) s) hf.lift⟩,
     ⟨SQ1 n h w, shapeCast (SQ1 n h w) (mulf (addf (subf (subf a b) c) d) s) hf.lift⟩] hf.cat

/-- Entry (α, β) of patch (i, j) of image `p`. -/
def entry (hH : H = 2 * h) (hW : W = 2 * w) (x : (SIn n H W).Idx → EReal) (p : Fin n) (i : Fin h) (j : Fin w) (α β : Fin 2) : EReal :=
  x (ix3 p ⟨2 * i.val + α.val, by have := i.isLt; have := α.isLt; omega⟩ ⟨2 * j.val + β.val, by have := j.isLt; have := β.isLt; omega⟩)

/-- A corner of the view [n, h, 2, w, 2], with its unit axes dropped, holds that corner's entry of each patch. -/
theorem pick_apply (hH : H = 2 * h) (hW : W = 2 * w) (x : (SIn n H W).Idx → EReal)
    (hs : (SIn n H W).ShapeCasts (SSplit n h w)) (α β : Fin 2)
    (hp : (SSplit n h w).Slices ![0, 0, α.val, 0, β.val] (SPick n h w)) (hd : (SPick n h w).ShapeCasts (SQ n h w))
    (p : Fin n) (i : Fin h) (j : Fin w) :
    shapeCast (SQ n h w) (extractStridedSlice (SPick n h w) ![0, 0, α.val, 0, β.val] (shapeCast (SSplit n h w) x hs) hp) hd (ix3 p i j)
      = entry hH hW x p i j α β := by
  refine (shapeCast_apply _ hd (ix3 p i j) (ix5 p i ⟨0, by omega⟩ j ⟨0, by omega⟩) ?_).trans ?_
  · rw [Shape.rowMajor_val_five, Shape.rowMajor_val_three]
    show (((p.val * h + i.val) * 1 + 0) * w + j.val) * 1 + 0 = (p.val * h + i.val) * w + j.val
    ring
  refine (extractStridedSlice_apply _ _ hp _ (ix5 p i α j β) ?_).trans ?_
  · intro a
    match a with
    | ⟨0, _⟩ => show p.val = 0 + p.val; omega
    | ⟨1, _⟩ => show i.val = 0 + i.val; omega
    | ⟨2, _⟩ => show α.val = α.val + 0; omega
    | ⟨3, _⟩ => show j.val = 0 + j.val; omega
    | ⟨4, _⟩ => show β.val = β.val + 0; omega
  refine shapeCast_apply x hs _ _ ?_
  rw [Shape.rowMajor_val_three, Shape.rowMajor_val_five]
  show (p.val * H + (2 * i.val + α.val)) * W + (2 * j.val + β.val) = (((p.val * h + i.val) * 2 + α.val) * w + j.val) * 2 + β.val
  subst hH hW
  ring

/-- Four pieces of unit extent laid side by side on axis 1: plane `k` is piece `k`. -/
theorem cat4_apply (hc : Shape.Concatenates [SQ1 n h w, SQ1 n h w, SQ1 n h w, SQ1 n h w] (SOut n h w) 1)
    (y0 y1 y2 y3 : (SQ1 n h w).Idx → EReal) (p : Fin n) (k : Fin 4) (i : Fin h) (j : Fin w) :
    concatenate (SOut n h w) 1 [⟨SQ1 n h w, y0⟩, ⟨SQ1 n h w, y1⟩, ⟨SQ1 n h w, y2⟩, ⟨SQ1 n h w, y3⟩] hc (ix4 p k i j)
      = (match k.val with | 0 => y0 | 1 => y1 | 2 => y2 | _ => y3) (ix4 p (0 : Fin 1) i j) := by
  have hoff : ∀ (q : Fin 4) (b : Fin (SQ1 n h w).rank), Fin.cast (rfl : (SQ1 n h w).rank = (SOut n h w).rank) b ≠ (1 : Fin 4) →
      ((ix4 p (0 : Fin 1) i j : (SQ1 n h w).Idx) b).val = ((ix4 p q i j : (SOut n h w).Idx) (Fin.cast rfl b)).val := by
    intro q b hb
    match b with
    | ⟨0, _⟩ => rfl
    | ⟨1, _⟩ => exact absurd rfl hb
    | ⟨2, _⟩ => rfl
    | ⟨3, _⟩ => rfl
  match k with
  | ⟨0, hk⟩ =>
    exact concatenate_apply_piece (t := SOut n h w) (1 : Fin 4) [⟨SQ1 n h w, y0⟩, ⟨SQ1 n h w, y1⟩, ⟨SQ1 n h w, y2⟩, ⟨SQ1 n h w, y3⟩] hc
      (ix4 p ⟨0, hk⟩ i j) 0 (by simp) (SQ1 n h w) y0 rfl rfl 0 rfl (ix4 p (0 : Fin 1) i j) (hoff _) rfl
  | ⟨1, hk⟩ =>
    exact concatenate_apply_piece (t := SOut n h w) (1 : Fin 4) [⟨SQ1 n h w, y0⟩, ⟨SQ1 n h w, y1⟩, ⟨SQ1 n h w, y2⟩, ⟨SQ1 n h w, y3⟩] hc
      (ix4 p ⟨1, hk⟩ i j) 1 (by simp) (SQ1 n h w) y1 rfl rfl 1 rfl (ix4 p (0 : Fin 1) i j) (hoff _) rfl
  | ⟨2, hk⟩ =>
    exact concatenate_apply_piece (t := SOut n h w) (1 : Fin 4) [⟨SQ1 n h w, y0⟩, ⟨SQ1 n h w, y1⟩, ⟨SQ1 n h w, y2⟩, ⟨SQ1 n h w, y3⟩] hc
      (ix4 p ⟨2, hk⟩ i j) 2 (by simp) (SQ1 n h w) y2 rfl rfl 2 rfl (ix4 p (0 : Fin 1) i j) (hoff _) rfl
  | ⟨3, hk⟩ =>
    exact concatenate_apply_piece (t := SOut n h w) (1 : Fin 4) [⟨SQ1 n h w, y0⟩, ⟨SQ1 n h w, y1⟩, ⟨SQ1 n h w, y2⟩, ⟨SQ1 n h w, y3⟩] hc
      (ix4 p ⟨3, hk⟩ i j) 3 (by simp) (SQ1 n h w) y3 rfl rfl 3 rfl (ix4 p (0 : Fin 1) i j) (hoff _) rfl

/-- A level on a stack, at plane `k` of patch (i, j) of image `p`. -/
theorem stackLevel_apply (hH : H = 2 * h) (hW : W = 2 * w) (hf : StackFacts n H W h w) (x : FVec Ideal (SIn n H W) .f32)
    (p : Fin n) (k : Fin 4) (i : Fin h) (j : Fin w) :
    stackLevel hf x (ix4 p k i j)
      = coef k.val (entry hH hW x p i j 0 0) (entry hH hW x p i j 0 1) (entry hH hW x p i j 1 0) (entry hH hW x p i j 1 1) := by
  have ea : shapeCast (SQ n h w) (extractStridedSlice (SPick n h w) ![0, 0, 0, 0, 0] (shapeCast (SSplit n h w) x hf.split) hf.p00) hf.drop (ix3 p i j)
      = entry hH hW x p i j 0 0 := pick_apply hH hW x hf.split 0 0 hf.p00 hf.drop p i j
  have eb : shapeCast (SQ n h w) (extractStridedSlice (SPick n h w) ![0, 0, 0, 0, 1] (shapeCast (SSplit n h w) x hf.split) hf.p01) hf.drop (ix3 p i j)
      = entry hH hW x p i j 0 1 := pick_apply hH hW x hf.split 0 1 hf.p01 hf.drop p i j
  have ec : shapeCast (SQ n h w) (extractStridedSlice (SPick n h w) ![0, 0, 1, 0, 0] (shapeCast (SSplit n h w) x hf.split) hf.p10) hf.drop (ix3 p i j)
      = entry hH hW x p i j 1 0 := pick_apply hH hW x hf.split 1 0 hf.p10 hf.drop p i j
  have ed : shapeCast (SQ n h w) (extractStridedSlice (SPick n h w) ![0, 0, 1, 0, 1] (shapeCast (SSplit n h w) x hf.split) hf.p11) hf.drop (ix3 p i j)
      = entry hH hW x p i j 1 1 := pick_apply hH hW x hf.split 1 1 hf.p11 hf.drop p i j
  have hl : ∀ (y : FVec Ideal (SQ n h w) .f32), shapeCast (SQ1 n h w) y hf.lift (ix4 p (0 : Fin 1) i j) = y (ix3 p i j) := fun y => by
    refine shapeCast_apply y hf.lift _ _ ?_
    rw [Shape.rowMajor_val_three, Shape.rowMajor_val_four]
    show (p.val * h + i.val) * w + j.val = ((p.val * 1 + 0) * h + i.val) * w + j.val
    ring
  unfold stackLevel
  rw [shapeCast_self _ hf.same]
  refine (cat4_apply hf.cat _ _ _ _ p k i j).trans ?_
  match k with
  | ⟨0, _⟩ =>
    show shapeCast (SQ1 n h w) _ hf.lift (ix4 p (0 : Fin 1) i j) = _
    rw [hl]
    simp only [mulf_apply, addf_apply, subf_apply, broadcast_apply]
    rw [ea, eb, ec, ed]
    rfl
  | ⟨1, _⟩ =>
    show shapeCast (SQ1 n h w) _ hf.lift (ix4 p (0 : Fin 1) i j) = _
    rw [hl]
    simp only [mulf_apply, addf_apply, subf_apply, broadcast_apply]
    rw [ea, eb, ec, ed]
    rfl
  | ⟨2, _⟩ =>
    show shapeCast (SQ1 n h w) _ hf.lift (ix4 p (0 : Fin 1) i j) = _
    rw [hl]
    simp only [mulf_apply, addf_apply, subf_apply, broadcast_apply]
    rw [ea, eb, ec, ed]
    rfl
  | ⟨3, _⟩ =>
    show shapeCast (SQ1 n h w) _ hf.lift (ix4 p (0 : Fin 1) i j) = _
    rw [hl]
    simp only [mulf_apply, addf_apply, subf_apply, broadcast_apply]
    rw [ea, eb, ec, ed]
    rfl

end Stack

/-- A row-block of a stack's level is the level of the row-block: if the block `xb` holds images `o, o+1, …` of the
    stack `A`, the block's level holds the same images of `A`'s level. -/
theorem stackLevel_rows {n N H W h w : ℕ} (hH : H = 2 * h) (hW : W = 2 * w) (hfn : StackFacts n H W h w) (hfN : StackFacts N H W h w)
    (xb : FVec Ideal (SIn n H W) .f32) (A : FVec Ideal (SIn N H W) .f32) (o : ℕ) (ho : o + n ≤ N)
    (hx : ∀ (q : Fin n) (r : Fin H) (s : Fin W), xb (ix3 q r s) = A (ix3 ⟨o + q.val, by have := q.isLt; omega⟩ r s))
    (q : Fin n) (k : Fin 4) (i : Fin h) (j : Fin w) :
    stackLevel hfn xb (ix4 q k i j) = stackLevel hfN A (ix4 ⟨o + q.val, by have := q.isLt; omega⟩ k i j) := by
  rw [stackLevel_apply hH hW hfn, stackLevel_apply hH hW hfN]
  unfold entry
  rw [hx, hx, hx, hx]

/-! ## A level on a batch of image stacks -/

section Batch

variable (B C H W h w : ℕ)

abbrev BIn : Shape := ⟨4, ![B, C, H, W]⟩
abbrev BSplit : Shape := ⟨6, ![B, C, h, 2, w, 2]⟩
abbrev BPick : Shape := ⟨6, ![B, C, h, 1, w, 1]⟩
abbrev BQ : Shape := ⟨4, ![B, C, h, w]⟩
abbrev BQ1 : Shape := ⟨5, ![B, C, 1, h, w]⟩
abbrev BOut : Shape := ⟨5, ![B, C, 4, h, w]⟩
abbrev SScalar : Shape := ⟨0, ![]⟩

/-- The side conditions of the level's layout operations. -/
structure BatchFacts : Prop where
  split : (BIn B C H W).ShapeCasts (BSplit B C h w)
  p00 : (BSplit B C h w).Slices ![0, 0, 0, 0, 0, 0] (BPick B C h w)
  p01 : (BSplit B C h w).Slices ![0, 0, 0, 0, 0, 1] (BPick B C h w)
  p10 : (BSplit B C h w).Slices ![0, 0, 0, 1, 0, 0] (BPick B C h w)
  p11 : (BSplit B C h w).Slices ![0, 0, 0, 1, 0, 1] (BPick B C h w)
  drop : (BPick B C h w).ShapeCasts (BQ B C h w)
  splat : SScalar.BroadcastsInDim (BQ B C h w) ![]
  lift : (BQ B C h w).BroadcastsInDim (BQ1 B C h w) ![0, 1, 3, 4]
  cat : Shape.Concatenates [BQ1 B C h w, BQ1 B C h w, BQ1 B C h w, BQ1 B C h w] (BOut B C h w) 2

variable {B C H W h w}

/-- A corner of the batch's view [B, C, h, 2, w, 2], its unit axes dropped. -/
def batchPick (X : FVec Ideal (BIn B C H W) .f32) (hs : (BIn B C H W).ShapeCasts (BSplit B C h w)) (off : Fin 6 → ℕ)
    (hp : (BSplit B C h w).Slices off (BPick B C h w)) (hd : (BPick B C h w).ShapeCasts (BQ B C h w)) : FVec Ideal (BQ B C h w) .f32 :=
  shapeCast (BQ B C h w) (extractStridedSlice (BPick B C h w) off (shapeCast (BSplit B C h w) X hs) hp) hd

/-- One level on a batch: the four corners of every patch, combined, each plane stretched onto a new axis 2 and the
    four laid side by side there. -/
def batchLevel (hf : BatchFacts B C H W h w) (X : FVec Ideal (BIn B C H W) .f32) : FVec Ideal (BOut B C h w) .f32 :=
  have a : FVec Ideal (BQ B C h w) .f32 := batchPick X hf.split ![0, 0, 0, 0, 0, 0] hf.p00 hf.drop
  have b : FVec Ideal (BQ B C h w) .f32 := batchPick X hf.split ![0, 0, 0, 0, 0, 1] hf.p01 hf.drop
  have c : FVec Ideal (BQ B C h w) .f32 := batchPick X hf.split ![0, 0, 0, 1, 0, 0] hf.p10 hf.drop
  have d : FVec Ideal (BQ B C h w) .f32 := batchPick X hf.split ![0, 0, 0, 1, 0, 1] hf.p11 hf.drop
  have s : FVec Ideal (BQ B C h w) .f32 := broadcastInDim (BQ B C h w) ![] hf.splat (constant SScalar .f32 0x3F000000#32)
  concatenate (BOut B C h w) 2
    [⟨BQ1 B C h w, broadcastInDim (BQ1 B C h w) ![0, 1, 3, 4] hf.lift (mulf (addf (addf (addf a b) c) d) s)⟩,
     ⟨BQ1 B C h w, broadcastInDim (BQ1 B C h w) ![0, 1, 3, 4] hf.lift (mulf (subf (subf (addf a b) c) d) s)⟩,
     ⟨BQ1 B C h w, broadcastInDim (BQ1 B C h w) ![0, 1, 3, 4] hf.lift (mulf (subf (addf (subf a b) c) d) s)⟩,
     ⟨BQ1 B C h w, broadcastInDim (BQ1 B C h w) ![0, 1, 3, 4] hf.lift (mulf (addf (subf (subf a b) c) d) s)⟩] hf.cat

/-- Entry (α, β) of patch (i, j) of image (b, c). -/
def bentry (hH : H = 2 * h) (hW : W = 2 * w) (X : (BIn B C H W).Idx → EReal) (b : Fin B) (c : Fin C) (i : Fin h) (j : Fin w) (α β : Fin 2) : EReal :=
  X (ix4 b c ⟨2 * i.val + α.val, by have := i.isLt; have := α.isLt; omega⟩ ⟨2 * j.val + β.val, by have := j.isLt; have := β.isLt; omega⟩)

theorem batchPick_apply (hH : H = 2 * h) (hW : W = 2 * w) (X : FVec Ideal (BIn B C H W) .f32)
    (hs : (BIn B C H W).ShapeCasts (BSplit B C h w)) (α β : Fin 2)
    (hp : (BSplit B C h w).Slices ![0, 0, 0, α.val, 0, β.val] (BPick B C h w)) (hd : (BPick B C h w).ShapeCasts (BQ B C h w))
    (b : Fin B) (c : Fin C) (i : Fin h) (j : Fin w) :
    batchPick X hs ![0, 0, 0, α.val, 0, β.val] hp hd (ix4 b c i j) = bentry hH hW X b c i j α β := by
  unfold batchPick
  refine (shapeCast_apply _ hd (ix4 b c i j) (ix6 b c i ⟨0, by omega⟩ j ⟨0, by omega⟩) ?_).trans ?_
  · rw [Shape.rowMajor_val_six, Shape.rowMajor_val_four]
    show ((((b.val * C + c.val) * h + i.val) * 1 + 0) * w + j.val) * 1 + 0 = ((b.val * C + c.val) * h + i.val) * w + j.val
    ring
  refine (extractStridedSlice_apply _ _ hp _ (ix6 b c i α j β) ?_).trans ?_
  · intro a
    match a with
    | ⟨0, _⟩ => show b.val = 0 + b.val; omega
    | ⟨1, _⟩ => show c.val = 0 + c.val; omega
    | ⟨2, _⟩ => show i.val = 0 + i.val; omega
    | ⟨3, _⟩ => show α.val = α.val + 0; omega
    | ⟨4, _⟩ => show j.val = 0 + j.val; omega
    | ⟨5, _⟩ => show β.val = β.val + 0; omega
  refine shapeCast_apply X hs _ _ ?_
  rw [Shape.rowMajor_val_four, Shape.rowMajor_val_six]
  show ((b.val * C + c.val) * H + (2 * i.val + α.val)) * W + (2 * j.val + β.val)
    = ((((b.val * C + c.val) * h + i.val) * 2 + α.val) * w + j.val) * 2 + β.val
  subst hH hW
  ring

/-- Four pieces of unit extent laid side by side on axis 2: plane `k` is piece `k`. -/
theorem cat4b_apply (hc : Shape.Concatenates [BQ1 B C h w, BQ1 B C h w, BQ1 B C h w, BQ1 B C h w] (BOut B C h w) 2)
    (y0 y1 y2 y3 : (BQ1 B C h w).Idx → EReal) (b : Fin B) (c : Fin C) (k : Fin 4) (i : Fin h) (j : Fin w) :
    concatenate (BOut B C h w) 2 [⟨BQ1 B C h w, y0⟩, ⟨BQ1 B C h w, y1⟩, ⟨BQ1 B C h w, y2⟩, ⟨BQ1 B C h w, y3⟩] hc (ix5 b c k i j)
      = (match k.val with | 0 => y0 | 1 => y1 | 2 => y2 | _ => y3) (ix5 b c (0 : Fin 1) i j) := by
  have hoff : ∀ (q : Fin 4) (a : Fin (BQ1 B C h w).rank), Fin.cast (rfl : (BQ1 B C h w).rank = (BOut B C h w).rank) a ≠ (2 : Fin 5) →
      ((ix5 b c (0 : Fin 1) i j : (BQ1 B C h w).Idx) a).val = ((ix5 b c q i j : (BOut B C h w).Idx) (Fin.cast rfl a)).val := by
    intro q a ha
    match a with
    | ⟨0, _⟩ => rfl
    | ⟨1, _⟩ => rfl
    | ⟨2, _⟩ => exact absurd rfl ha
    | ⟨3, _⟩ => rfl
    | ⟨4, _⟩ => rfl
  match k with
  | ⟨0, hk⟩ =>
    exact concatenate_apply_piece (t := BOut B C h w) (2 : Fin 5) [⟨BQ1 B C h w, y0⟩, ⟨BQ1 B C h w, y1⟩, ⟨BQ1 B C h w, y2⟩, ⟨BQ1 B C h w, y3⟩] hc
      (ix5 b c ⟨0, hk⟩ i j) 0 (by simp) (BQ1 B C h w) y0 rfl rfl 0 rfl (ix5 b c (0 : Fin 1) i j) (hoff _) rfl
  | ⟨1, hk⟩ =>
    exact concatenate_apply_piece (t := BOut B C h w) (2 : Fin 5) [⟨BQ1 B C h w, y0⟩, ⟨BQ1 B C h w, y1⟩, ⟨BQ1 B C h w, y2⟩, ⟨BQ1 B C h w, y3⟩] hc
      (ix5 b c ⟨1, hk⟩ i j) 1 (by simp) (BQ1 B C h w) y1 rfl rfl 1 rfl (ix5 b c (0 : Fin 1) i j) (hoff _) rfl
  | ⟨2, hk⟩ =>
    exact concatenate_apply_piece (t := BOut B C h w) (2 : Fin 5) [⟨BQ1 B C h w, y0⟩, ⟨BQ1 B C h w, y1⟩, ⟨BQ1 B C h w, y2⟩, ⟨BQ1 B C h w, y3⟩] hc
      (ix5 b c ⟨2, hk⟩ i j) 2 (by simp) (BQ1 B C h w) y2 rfl rfl 2 rfl (ix5 b c (0 : Fin 1) i j) (hoff _) rfl
  | ⟨3, hk⟩ =>
    exact concatenate_apply_piece (t := BOut B C h w) (2 : Fin 5) [⟨BQ1 B C h w, y0⟩, ⟨BQ1 B C h w, y1⟩, ⟨BQ1 B C h w, y2⟩, ⟨BQ1 B C h w, y3⟩] hc
      (ix5 b c ⟨3, hk⟩ i j) 3 (by simp) (BQ1 B C h w) y3 rfl rfl 3 rfl (ix5 b c (0 : Fin 1) i j) (hoff _) rfl

/-- A level on a batch, at plane `k` of patch (i, j) of image (b, c). -/
theorem batchLevel_apply (hH : H = 2 * h) (hW : W = 2 * w) (hf : BatchFacts B C H W h w) (X : FVec Ideal (BIn B C H W) .f32)
    (b : Fin B) (c : Fin C) (k : Fin 4) (i : Fin h) (j : Fin w) :
    batchLevel hf X (ix5 b c k i j)
      = coef k.val (bentry hH hW X b c i j 0 0) (bentry hH hW X b c i j 0 1) (bentry hH hW X b c i j 1 0) (bentry hH hW X b c i j 1 1) := by
  have ea : batchPick X hf.split ![0, 0, 0, 0, 0, 0] hf.p00 hf.drop (ix4 b c i j) = bentry hH hW X b c i j 0 0 :=
    batchPick_apply hH hW X hf.split 0 0 hf.p00 hf.drop b c i j
  have eb : batchPick X hf.split ![0, 0, 0, 0, 0, 1] hf.p01 hf.drop (ix4 b c i j) = bentry hH hW X b c i j 0 1 :=
    batchPick_apply hH hW X hf.split 0 1 hf.p01 hf.drop b c i j
  have ec : batchPick X hf.split ![0, 0, 0, 1, 0, 0] hf.p10 hf.drop (ix4 b c i j) = bentry hH hW X b c i j 1 0 :=
    batchPick_apply hH hW X hf.split 1 0 hf.p10 hf.drop b c i j
  have ed : batchPick X hf.split ![0, 0, 0, 1, 0, 1] hf.p11 hf.drop (ix4 b c i j) = bentry hH hW X b c i j 1 1 :=
    batchPick_apply hH hW X hf.split 1 1 hf.p11 hf.drop b c i j
  have hl : ∀ (y : FVec Ideal (BQ B C h w) .f32),
      broadcastInDim (BQ1 B C h w) ![0, 1, 3, 4] hf.lift y (ix5 b c (0 : Fin 1) i j) = y (ix4 b c i j) := fun y => by
    refine broadcastInDim_apply _ hf.lift y _ _ ?_
    intro a
    match a with
    | ⟨0, _⟩ => show b.val = if B = 1 then 0 else b.val; split <;> [(have := b.isLt; omega); rfl]
    | ⟨1, _⟩ => show c.val = if C = 1 then 0 else c.val; split <;> [(have := c.isLt; omega); rfl]
    | ⟨2, _⟩ => show i.val = if h = 1 then 0 else i.val; split <;> [(have := i.isLt; omega); rfl]
    | ⟨3, _⟩ => show j.val = if w = 1 then 0 else j.val; split <;> [(have := j.isLt; omega); rfl]
  have hs : broadcastInDim (BQ B C h w) ![] hf.splat (constant (F := Ideal) SScalar .f32 0x3F000000#32) (ix4 b c i j) = half :=
    (broadcastInDim_scalar_apply hf.splat _ _).trans rfl
  unfold batchLevel
  refine (cat4b_apply hf.cat _ _ _ _ b c k i j).trans ?_
  match k with
  | ⟨0, _⟩ =>
    refine (hl _).trans ?_
    simp only [mulf_apply, addf_apply, subf_apply]
    rw [ea, eb, ec, ed, hs]
    rfl
  | ⟨1, _⟩ =>
    refine (hl _).trans ?_
    simp only [mulf_apply, addf_apply, subf_apply]
    rw [ea, eb, ec, ed, hs]
    rfl
  | ⟨2, _⟩ =>
    refine (hl _).trans ?_
    simp only [mulf_apply, addf_apply, subf_apply]
    rw [ea, eb, ec, ed, hs]
    rfl
  | ⟨3, _⟩ =>
    refine (hl _).trans ?_
    simp only [mulf_apply, addf_apply, subf_apply]
    rw [ea, eb, ec, ed, hs]
    rfl

end Batch

/-! ## The batch flattened to a stack -/

section Flatten

variable {B C N H W h w : ℕ}

/-- Image (b, c) of a batch is image b·C + c of the flattened stack. -/
theorem flat_lt (hN : N = B * C) (b : Fin B) (c : Fin C) : b.val * C + c.val < N := by
  have hb := b.isLt; have hc := c.isLt
  subst hN
  calc b.val * C + c.val < b.val * C + C := by omega
    _ = (b.val + 1) * C := by ring
    _ ≤ B * C := Nat.mul_le_mul_right C hb

/-- A level commutes with flattening the batch: the level of the flattened stack, unflattened, is the batch's level. -/
theorem level_flatten (hN : N = B * C) (hH : H = 2 * h) (hW : W = 2 * w)
    (hs : StackFacts N H W h w) (hb : BatchFacts B C H W h w)
    (hflat : (BIn B C H W).ShapeCasts (SIn N H W)) (hun : (SOut N h w).ShapeCasts (BOut B C h w))
    (X : FVec Ideal (BIn B C H W) .f32) :
    shapeCast (BOut B C h w) (stackLevel hs (shapeCast (SIn N H W) X hflat)) hun = batchLevel hb X := by
  funext J
  obtain ⟨b, c, k, i, j, rfl⟩ : ∃ (b : Fin B) (c : Fin C) (k : Fin 4) (i : Fin h) (j : Fin w), J = ix5 b c k i j :=
    ⟨J 0, J 1, J 2, J 3, J 4, eq_ix5 J⟩
  have hflat_apply : ∀ (r : Fin H) (s : Fin W),
      shapeCast (SIn N H W) X hflat (ix3 ⟨b.val * C + c.val, flat_lt hN b c⟩ r s) = X (ix4 b c r s) := fun r s => by
    refine shapeCast_apply X hflat _ _ ?_
    rw [Shape.rowMajor_val_four, Shape.rowMajor_val_three]
    rfl
  refine (shapeCast_apply _ hun (ix5 b c k i j) (ix4 ⟨b.val * C + c.val, flat_lt hN b c⟩ k i j) ?_).trans ?_
  · rw [Shape.rowMajor_val_four, Shape.rowMajor_val_five]
    rfl
  rw [stackLevel_apply hH hW hs, batchLevel_apply hH hW hb]
  unfold entry bentry
  rw [hflat_apply, hflat_apply, hflat_apply, hflat_apply]

/-- Plane 0 of a stack's level, as a stack. -/
def stackPlane0 (hsl : (SOut N h w).Slices ![0, 0, 0, 0] (SQ1 N h w)) (hd : (SQ1 N h w).ShapeCasts (SIn N h w))
    (K : FVec Ideal (SOut N h w) .f32) : FVec Ideal (SIn N h w) .f32 :=
  shapeCast (SIn N h w) (extractStridedSlice (SQ1 N h w) ![0, 0, 0, 0] K hsl) hd

/-- Plane 0 of a batch's level, as a batch. -/
def batchPlane0 (hsl : (BOut B C h w).Slices ![0, 0, 0, 0, 0] (BQ1 B C h w)) (hd : (BQ1 B C h w).ShapeCasts (BIn B C h w))
    (Y : FVec Ideal (BOut B C h w) .f32) : FVec Ideal (BIn B C h w) .f32 :=
  shapeCast (BIn B C h w) (extractStridedSlice (BQ1 B C h w) ![0, 0, 0, 0, 0] Y hsl) hd

/-- Taking plane 0 commutes with flattening. -/
theorem plane0_flatten (hN : N = B * C)
    (hsl : (SOut N h w).Slices ![0, 0, 0, 0] (SQ1 N h w)) (hd : (SQ1 N h w).ShapeCasts (SIn N h w))
    (hsl' : (BOut B C h w).Slices ![0, 0, 0, 0, 0] (BQ1 B C h w)) (hd' : (BQ1 B C h w).ShapeCasts (BIn B C h w))
    (hun : (SOut N h w).ShapeCasts (BOut B C h w)) (hun' : (SIn N h w).ShapeCasts (BIn B C h w))
    (K : FVec Ideal (SOut N h w) .f32) :
    shapeCast (BIn B C h w) (stackPlane0 hsl hd K) hun' = batchPlane0 hsl' hd' (shapeCast (BOut B C h w) K hun) := by
  funext J
  obtain ⟨b, c, i, j, rfl⟩ : ∃ (b : Fin B) (c : Fin C) (i : Fin h) (j : Fin w), J = ix4 b c i j :=
    ⟨J 0, J 1, J 2, J 3, eq_ix4 J⟩
  have hL : shapeCast (BIn B C h w) (stackPlane0 hsl hd K) hun' (ix4 b c i j)
      = K (ix4 ⟨b.val * C + c.val, flat_lt hN b c⟩ (0 : Fin 4) i j) := by
    refine (shapeCast_apply _ hun' (ix4 b c i j) (ix3 ⟨b.val * C + c.val, flat_lt hN b c⟩ i j) ?_).trans ?_
    · rw [Shape.rowMajor_val_four, Shape.rowMajor_val_three]; rfl
    unfold stackPlane0
    refine (shapeCast_apply _ hd _ (ix4 ⟨b.val * C + c.val, flat_lt hN b c⟩ (0 : Fin 1) i j) ?_).trans ?_
    · rw [Shape.rowMajor_val_four, Shape.rowMajor_val_three]
      show (((b.val * C + c.val) * 1 + 0) * h + i.val) * w + j.val = ((b.val * C + c.val) * h + i.val) * w + j.val
      ring
    refine extractStridedSlice_apply _ K hsl _ _ ?_
    intro a
    match a with
    | ⟨0, _⟩ => show b.val * C + c.val = 0 + (b.val * C + c.val); omega
    | ⟨1, _⟩ => show 0 = 0 + 0; rfl
    | ⟨2, _⟩ => show i.val = 0 + i.val; omega
    | ⟨3, _⟩ => show j.val = 0 + j.val; omega
  have hR : batchPlane0 hsl' hd' (shapeCast (BOut B C h w) K hun) (ix4 b c i j)
      = K (ix4 ⟨b.val * C + c.val, flat_lt hN b c⟩ (0 : Fin 4) i j) := by
    unfold batchPlane0
    refine (shapeCast_apply _ hd' _ (ix5 b c (0 : Fin 1) i j) ?_).trans ?_
    · rw [Shape.rowMajor_val_five, Shape.rowMajor_val_four]
      show (((b.val * C + c.val) * 1 + 0) * h + i.val) * w + j.val = ((b.val * C + c.val) * h + i.val) * w + j.val
      ring
    refine (extractStridedSlice_apply _ _ hsl' _ (ix5 b c (0 : Fin 4) i j) ?_).trans ?_
    · intro a
      match a with
      | ⟨0, _⟩ => show b.val = 0 + b.val; omega
      | ⟨1, _⟩ => show c.val = 0 + c.val; omega
      | ⟨2, _⟩ => show 0 = 0 + 0; rfl
      | ⟨3, _⟩ => show i.val = 0 + i.val; omega
      | ⟨4, _⟩ => show j.val = 0 + j.val; omega
    refine shapeCast_apply K hun _ _ ?_
    rw [Shape.rowMajor_val_four, Shape.rowMajor_val_five]
    rfl
  rw [hL, hR]

/-- THE STEP from one level to the next. If a stack's level `K`, unflattened, is the batch's level `Y`, then the next
    level of the stack (a level of `K`'s plane 0), unflattened, is the next level of the batch (a level of `Y`'s
    plane 0). -/
theorem next_level {h' w' : ℕ} (hN : N = B * C) (hH : h = 2 * h') (hW : w = 2 * w')
    (hs : StackFacts N h w h' w') (hb : BatchFacts B C h w h' w')
    (hsl : (SOut N h w).Slices ![0, 0, 0, 0] (SQ1 N h w)) (hd : (SQ1 N h w).ShapeCasts (SIn N h w))
    (hsl' : (BOut B C h w).Slices ![0, 0, 0, 0, 0] (BQ1 B C h w)) (hd' : (BQ1 B C h w).ShapeCasts (BIn B C h w))
    (hun : (SOut N h w).ShapeCasts (BOut B C h w)) (hun' : (SIn N h w).ShapeCasts (BIn B C h w))
    (hflat : (BIn B C h w).ShapeCasts (SIn N h w)) (hunOut : (SOut N h' w').ShapeCasts (BOut B C h' w'))
    (K : FVec Ideal (SOut N h w) .f32) (Y : FVec Ideal (BOut B C h w) .f32) (hKY : shapeCast (BOut B C h w) K hun = Y) :
    shapeCast (BOut B C h' w') (stackLevel hs (stackPlane0 hsl hd K)) hunOut = batchLevel hb (batchPlane0 hsl' hd' Y) := by
  subst hKY
  rw [← plane0_flatten hN hsl hd hsl' hd' hun hun' K,
    ← level_flatten hN hH hW hs hb hflat hunOut (shapeCast (BIn B C h w) (stackPlane0 hsl hd K) hun'),
    shapeCast_shapeCast]

end Flatten

end Haar
-- ==== Proof.Level0.lean ====
/-
  Level 1 of the transform on the device: the pipelined call cuts the stack of 192 images [192, 512, 512] into
  48 blocks of 4 images, and at every block the body computes one Haar level of the block. A level acts on
  each image by itself, so the level of a block of images is that block of the level of the whole stack; the
  blocks tile the stack, hence the call leaves in its result array [192, 4, 256, 256] the Haar level of the whole
  input array, whatever the array held when the call was entered.
-/
import proofs.«113170_j5841155522677_1_alg».proof.Proof.Gen.KernelIdeal.Frame
import proofs.«113170_j5841155522677_1_alg».proof.Proof.LibHaar
import Idealize.ShloMosaic.Lib.Pipeline.Value

set_option maxRecDepth 16384

noncomputable section

namespace Cert.KernelIdeal.Level0

open Cert.KernelIdeal Cert.KernelIdeal.Gen Idealize.ShloMosaic Idealize.ShloMosaic.TcCoe Idealize.SL.Sem
open Idealize.ShloMosaic.ValueIdx
open Idealize.ShloMosaic.Pipeline (Dat)

/-- The layout side conditions of a level on a block of 4 images … -/
theorem blockFacts : Haar.StackFacts 4 512 512 256 256 :=
  ⟨by decide, by decide, by decide, by decide, by decide, by decide, by decide, by decide, by decide⟩
/-- … and on the whole stack of 192. -/
theorem stackFacts : Haar.StackFacts 192 512 512 256 256 :=
  ⟨by decide, by decide, by decide, by decide, by decide, by decide, by decide, by decide, by decide⟩

/-- What the body stores is one Haar level of the block it loaded. -/
theorem payload_eq (x0 : Vec Ideal S4x512x512 .f32) : k0_pay1 (F := Ideal) x0 = Haar.stackLevel blockFacts x0 := rfl

/-- A block of 4 images that holds images `o, o + 1, …` of a stack: what the body stores at an index is the
    stack's level at the index `o` images further on. -/
theorem block_level (xb : Vec Ideal S4x512x512 .f32) (A : FVec Ideal S192x512x512 .f32) (o : ℕ) (ho : o + 4 ≤ 192)
    (hx : ∀ (q : Fin 4) (r : Fin 512) (s : Fin 512), xb (ix3 q r s) = A (ix3 ⟨o + q.val, by have := q.isLt; omega⟩ r s))
    (y : S4x4x256x256.Idx) (z : S192x4x256x256.Idx)
    (h0 : (z 0).val = o + (y 0).val) (h1 : (z 1).val = (y 1).val) (h2 : (z 2).val = (y 2).val) (h3 : (z 3).val = (y 3).val) :
    k0_pay1 (F := Ideal) xb y = Haar.stackLevel stackFacts A z := by
  have hy0 : (y 0).val < 4 := (y 0).isLt
  have hz : z = ix4 (⟨o + (y 0).val, by omega⟩ : Fin 192) (y 1 : Fin 4) (y 2 : Fin 256) (y 3 : Fin 256) := by
    funext a; apply Fin.ext
    match a with
    | ⟨0, _⟩ => exact h0
    | ⟨1, _⟩ => exact h1
    | ⟨2, _⟩ => exact h2
    | ⟨3, _⟩ => exact h3
  have e := Haar.stackLevel_rows rfl rfl blockFacts stackFacts xb A o ho hx (y 0 : Fin 4) (y 1 : Fin 4) (y 2 : Fin 256) (y 3 : Fin 256)
  exact ((congrFun (payload_eq xb) y).trans (congrArg (Haar.stackLevel blockFacts xb) (eq_ix4 y))).trans
    (e.trans (congrArg (Haar.stackLevel stackFacts A) hz.symm))

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The printed index maps over the grid: point `t` takes block `t` of the images and everything of the other axes. -/
theorem index_facts : ∀ t : Fin cfg0.N, win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

variable (V : (c : Dev nD) → (b : Ref sig .tc) → Buf (Elt Ideal) ((c : Thread nD τ).loc b))

/-- The input block at point `t` holds images 4·t, 4·t + 1, … of the input array. -/
theorem inblock_apply (c : Dev nD) (t : Fin cfg0.N) (q : Fin 4) (r : Fin 512) (s : Fin 512) :
    iblk0 V c 0 t (ix3 q r s)
      = V c main_v0 (ix3 ⟨t.val * 4 + q.val, by have ht : t.val < 48 := t.isLt; have := q.isLt; omega⟩ r s) := by
  obtain ⟨e0, e1, e2, -⟩ := index_facts t
  show V c main_v0 (((cfg0.win 0).blk t).view.emb (ix3 q r s)) = _
  refine congrArg (V c main_v0) ?_
  funext a; apply Fin.ext
  match a with
  | ⟨0, _⟩ => show win0_0.index t (0 : Fin 3) * 4 + 1 * q.val = t.val * 4 + q.val; omega
  | ⟨1, _⟩ => show win0_0.index t (1 : Fin 3) * 512 + 1 * r.val = r.val; omega
  | ⟨2, _⟩ => show win0_0.index t (2 : Fin 3) * 512 + 1 * s.val = s.val; omega

/-- WHAT POINT `t` WRITES BACK is block `t` of the Haar level of the whole input array. -/
theorem flushed_eq (c : Dev nD) (t : Fin cfg0.N) :
    (dat0 V c).flushed 1 t = ((cfg0.win 1).blk t).view.read (Elt Ideal) (Haar.stackLevel stackFacts (V c main_v0)) := by
  show (cfg0.win 1).cut (grid0.coords t) ((dat0 V c).after 1 t) = _
  rw [after0_1]
  unfold out0_1
  rw [View.canon_unit_zero zero4]
  simp only [View.ld_unit_zero (S := S4x512x512) zero3]
  have ht : t.val < 48 := t.isLt
  obtain ⟨-, -, -, e0, e1, e2, e3⟩ := index_facts t
  funext y
  show k0_pay1 (F := Ideal) (iblk0 V c 0 t) y = Haar.stackLevel stackFacts (V c main_v0) (((cfg0.win 1).blk t).view.emb y)
  refine block_level (iblk0 V c 0 t) (V c main_v0) (t.val * 4) (by omega) (fun q r s => inblock_apply V c t q r s) y
    (((cfg0.win 1).blk t).view.emb y) ?_ ?_ ?_ ?_
  · show win0_1.index t (0 : Fin 4) * 4 + 1 * (y 0).val = t.val * 4 + (y 0).val; omega
  · show win0_1.index t (1 : Fin 4) * 4 + 1 * (y 1).val = (y 1).val; omega
  · show win0_1.index t (2 : Fin 4) * 256 + 1 * (y 2).val = (y 2).val; omega
  · show win0_1.index t (3 : Fin 4) * 256 + 1 * (y 3).val = (y 3).val; omega

/-- An index of the result array is in point `t`'s block iff each coordinate is in the block's range on its axis. -/
theorem mem_block (t : Fin cfg0.N) (i : S192x4x256x256.Idx) :
    i ∈ ((cfg0.win 1).blk t).view.set ↔ ∀ a : Fin 4, win0_1.index t a * S4x4x256x256.size a ≤ (i a).val
      ∧ (i a).val < win0_1.index t a * S4x4x256x256.size a + S4x4x256x256.size a := by
  show i ∈ ((View.whole main_v1).slice (win0_1.rect t)).set ↔ _
  rw [View.set_slice_whole, Rect.mem_set_unit]
  exact Iff.rfl

/-- The blocks tile the result array: image `r` lies in the block of point `r / 4`. -/
theorem covered (i : S192x4x256x256.Idx) :
    ∃ t : Fin cfg0.N, (cfg0.win 1).flush t = true ∧ i ∈ ((cfg0.win 1).blk t).view.set := by
  have h0 : (i 0).val < 192 := (i 0).isLt
  have h1 : (i 1).val < 4 := (i 1).isLt
  have h2 : (i 2).val < 256 := (i 2).isLt
  have h3 : (i 3).val < 256 := (i 3).isLt
  have hq : (i 0).val / 4 < 48 := by omega
  obtain ⟨-, -, -, e0, e1, e2, e3⟩ := index_facts ⟨(i 0).val / 4, hq⟩
  refine ⟨⟨(i 0).val / 4, hq⟩, flush0_1 _, ?_⟩
  rw [mem_block]
  intro a
  match a with
  | ⟨0, _⟩ =>
    show win0_1.index ⟨(i 0).val / 4, hq⟩ (0 : Fin 4) * 4 ≤ (i 0).val
      ∧ (i 0).val < win0_1.index ⟨(i 0).val / 4, hq⟩ (0 : Fin 4) * 4 + 4
    rw [e0]; show (i 0).val / 4 * 4 ≤ (i 0).val ∧ (i 0).val < (i 0).val / 4 * 4 + 4; omega
  | ⟨1, _⟩ =>
    show win0_1.index ⟨(i 0).val / 4, hq⟩ (1 : Fin 4) * 4 ≤ (i 1).val
      ∧ (i 1).val < win0_1.index ⟨(i 0).val / 4, hq⟩ (1 : Fin 4) * 4 + 4
    omega
  | ⟨2, _⟩ =>
    show win0_1.index ⟨(i 0).val / 4, hq⟩ (2 : Fin 4) * 256 ≤ (i 2).val
      ∧ (i 2).val < win0_1.index ⟨(i 0).val / 4, hq⟩ (2 : Fin 4) * 256 + 256
    omega
  | ⟨3, _⟩ =>
    show win0_1.index ⟨(i 0).val / 4, hq⟩ (3 : Fin 4) * 256 ≤ (i 3).val
      ∧ (i 3).val < win0_1.index ⟨(i 0).val / 4, hq⟩ (3 : Fin 4) * 256 + 256
    omega

/-- THE RESULT ARRAY after the call: the Haar level of the input array as the call found it. -/
theorem result (c : Dev nD) : (dat0 V c).arrAt 1 cfg0.N = Haar.stackLevel stackFacts (V c main_v0) :=
  (dat0 V c).arrAt_eq_of_cover 1 (Haar.stackLevel stackFacts (V c main_v0)) (fun t _ => flushed_eq V c t) covered

end Cert.KernelIdeal.Level0

end
-- ==== Proof.Level1.lean ====
/-
  Level 2 of the transform on the device: the pipelined call cuts the stack of 192 images [192, 256, 256] into
  12 blocks of 16 images, and at every block the body computes one Haar level of the block. A level acts on
  each image by itself, so the level of a block of images is that block of the level of the whole stack; the
  blocks tile the stack, hence the call leaves in its result array [192, 4, 128, 128] the Haar level of the whole
  input array, whatever the array held when the call was entered.
-/
import proofs.«113170_j5841155522677_1_alg».proof.Proof.Gen.KernelIdeal.Frame
import proofs.«113170_j5841155522677_1_alg».proof.Proof.LibHaar
import Idealize.ShloMosaic.Lib.Pipeline.Value

set_option maxRecDepth 16384

noncomputable section

namespace Cert.KernelIdeal.Level1

open Cert.KernelIdeal Cert.KernelIdeal.Gen Idealize.ShloMosaic Idealize.ShloMosaic.TcCoe Idealize.SL.Sem
open Idealize.ShloMosaic.ValueIdx
open Idealize.ShloMosaic.Pipeline (Dat)

/-- The layout side conditions of a level on a block of 16 images … -/
theorem blockFacts : Haar.StackFacts 16 256 256 128 128 :=
  ⟨by decide, by decide, by decide, by decide, by decide, by decide, by decide, by decide, by decide⟩
/-- … and on the whole stack of 192. -/
theorem stackFacts : Haar.StackFacts 192 256 256 128 128 :=
  ⟨by decide, by decide, by decide, by decide, by decide, by decide, by decide, by decide, by decide⟩

/-- What the body stores is one Haar level of the block it loaded. -/
theorem payload_eq (x0 : Vec Ideal S16x256x256 .f32) : k1_pay1 (F := Ideal) x0 = Haar.stackLevel blockFacts x0 := rfl

/-- A block of 16 images that holds images `o, o + 1, …` of a stack: what the body stores at an index is the
    stack's level at the index `o` images further on. -/
theorem block_level (xb : Vec Ideal S16x256x256 .f32) (A : FVec Ideal S192x256x256 .f32) (o : ℕ) (ho : o + 16 ≤ 192)
    (hx : ∀ (q : Fin 16) (r : Fin 256) (s : Fin 256), xb (ix3 q r s) = A (ix3 ⟨o + q.val, by have := q.isLt; omega⟩ r s))
    (y : S16x4x128x128.Idx) (z : S192x4x128x128.Idx)
    (h0 : (z 0).val = o + (y 0).val) (h1 : (z 1).val = (y 1).val) (h2 : (z 2).val = (y 2).val) (h3 : (z 3).val = (y 3).val) :
    k1_pay1 (F := Ideal) xb y = Haar.stackLevel stackFacts A z := by
  have hy0 : (y 0).val < 16 := (y 0).isLt
  have hz : z = ix4 (⟨o + (y 0).val, by omega⟩ : Fin 192) (y 1 : Fin 4) (y 2 : Fin 128) (y 3 : Fin 128) := by
    funext a; apply Fin.ext
    match a with
    | ⟨0, _⟩ => exact h0
    | ⟨1, _⟩ => exact h1
    | ⟨2, _⟩ => exact h2
    | ⟨3, _⟩ => exact h3
  have e := Haar.stackLevel_rows rfl rfl blockFacts stackFacts xb A o ho hx (y 0 : Fin 16) (y 1 : Fin 4) (y 2 : Fin 128) (y 3 : Fin 128)
  exact ((congrFun (payload_eq xb) y).trans (congrArg (Haar.stackLevel blockFacts xb) (eq_ix4 y))).trans
    (e.trans (congrArg (Haar.stackLevel stackFacts A) hz.symm))

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The printed index maps over the grid: point `t` takes block `t` of the images and everything of the other axes. -/
theorem index_facts : ∀ t : Fin cfg1.N, win1_0.index t (0 : Fin 3) = t.val ∧ win1_0.index t (1 : Fin 3) = 0 ∧ win1_0.index t (2 : Fin 3) = 0
    ∧ win1_1.index t (0 : Fin 4) = t.val ∧ win1_1.index t (1 : Fin 4) = 0 ∧ win1_1.index t (2 : Fin 4) = 0 ∧ win1_1.index t (3 : Fin 4) = 0 :=
  (by decide +kernel : ∀ t : Fin grid1.N, _)

variable (V : (c : Dev nD) → (b : Ref sig .tc) → Buf (Elt Ideal) ((c : Thread nD τ).loc b))

/-- The input block at point `t` holds images 16·t, 16·t + 1, … of the input array. -/
theorem inblock_apply (c : Dev nD) (t : Fin cfg1.N) (q : Fin 16) (r : Fin 256) (s : Fin 256) :
    iblk1 V c 0 t (ix3 q r s)
      = V c main_v4 (ix3 ⟨t.val * 16 + q.val, by have ht : t.val < 12 := t.isLt; have := q.isLt; omega⟩ r s) := by
  obtain ⟨e0, e1, e2, -⟩ := index_facts t
  show V c main_v4 (((cfg1.win 0).blk t).view.emb (ix3 q r s)) = _
  refine congrArg (V c main_v4) ?_
  funext a; apply Fin.ext
  match a with
  | ⟨0, _⟩ => show win1_0.index t (0 : Fin 3) * 16 + 1 * q.val = t.val * 16 + q.val; omega
  | ⟨1, _⟩ => show win1_0.index t (1 : Fin 3) * 256 + 1 * r.val = r.val; omega
  | ⟨2, _⟩ => show win1_0.index t (2 : Fin 3) * 256 + 1 * s.val = s.val; omega

/-- WHAT POINT `t` WRITES BACK is block `t` of the Haar level of the whole input array. -/
theorem flushed_eq (c : Dev nD) (t : Fin cfg1.N) :
    (dat1 V c).flushed 1 t = ((cfg1.win 1).blk t).view.read (Elt Ideal) (Haar.stackLevel stackFacts (V c main_v4)) := by
  show (cfg1.win 1).cut (grid1.coords t) ((dat1 V c).after 1 t) = _
  rw [after1_1]
  unfold out1_1
  rw [View.canon_unit_zero zero4]
  simp only [View.ld_unit_zero (S := S16x256x256) zero3]
  have ht : t.val < 12 := t.isLt
  obtain ⟨-, -, -, e0, e1, e2, e3⟩ := index_facts t
  funext y
  show k1_pay1 (F := Ideal) (iblk1 V c 0 t) y = Haar.stackLevel stackFacts (V c main_v4) (((cfg1.win 1).blk t).view.emb y)
  refine block_level (iblk1 V c 0 t) (V c main_v4) (t.val * 16) (by omega) (fun q r s => inblock_apply V c t q r s) y
    (((cfg1.win 1).blk t).view.emb y) ?_ ?_ ?_ ?_
  · show win1_1.index t (0 : Fin 4) * 16 + 1 * (y 0).val = t.val * 16 + (y 0).val; omega
  · show win1_1.index t (1 : Fin 4) * 4 + 1 * (y 1).val = (y 1).val; omega
  · show win1_1.index t (2 : Fin 4) * 128 + 1 * (y 2).val = (y 2).val; omega
  · show win1_1.index t (3 : Fin 4) * 128 + 1 * (y 3).val = (y 3).val; omega

/-- An index of the result array is in point `t`'s block iff each coordinate is in the block's range on its axis. -/
theorem mem_block (t : Fin cfg1.N) (i : S192x4x128x128.Idx) :
    i ∈ ((cfg1.win 1).blk t).view.set ↔ ∀ a : Fin 4, win1_1.index t a * S16x4x128x128.size a ≤ (i a).val
      ∧ (i a).val < win1_1.index t a * S16x4x128x128.size a + S16x4x128x128.size a := by
  show i ∈ ((View.whole main_v5).slice (win1_1.rect t)).set ↔ _
  rw [View.set_slice_whole, Rect.mem_set_unit]
  exact Iff.rfl

/-- The blocks tile the result array: image `r` lies in the block of point `r / 16`. -/
theorem covered (i : S192x4x128x128.Idx) :
    ∃ t : Fin cfg1.N, (cfg1.win 1).flush t = true ∧ i ∈ ((cfg1.win 1).blk t).view.set := by
  have h0 : (i 0).val < 192 := (i 0).isLt
  have h1 : (i 1).val < 4 := (i 1).isLt
  have h2 : (i 2).val < 128 := (i 2).isLt
  have h3 : (i 3).val < 128 := (i 3).isLt
  have hq : (i 0).val / 16 < 12 := by omega
  obtain ⟨-, -, -, e0, e1, e2, e3⟩ := index_facts ⟨(i 0).val / 16, hq⟩
  refine ⟨⟨(i 0).val / 16, hq⟩, flush1_1 _, ?_⟩
  rw [mem_block]
  intro a
  match a with
  | ⟨0, _⟩ =>
    show win1_1.index ⟨(i 0).val / 16, hq⟩ (0 : Fin 4) * 16 ≤ (i 0).val
      ∧ (i 0).val < win1_1.index ⟨(i 0).val / 16, hq⟩ (0 : Fin 4) * 16 + 16
    rw [e0]; show (i 0).val / 16 * 16 ≤ (i 0).val ∧ (i 0).val < (i 0).val / 16 * 16 + 16; omega
  | ⟨1, _⟩ =>
    show win1_1.index ⟨(i 0).val / 16, hq⟩ (1 : Fin 4) * 4 ≤ (i 1).val
      ∧ (i 1).val < win1_1.index ⟨(i 0).val / 16, hq⟩ (1 : Fin 4) * 4 + 4
    omega
  | ⟨2, _⟩ =>
    show win1_1.index ⟨(i 0).val / 16, hq⟩ (2 : Fin 4) * 128 ≤ (i 2).val
      ∧ (i 2).val < win1_1.index ⟨(i 0).val / 16, hq⟩ (2 : Fin 4) * 128 + 128
    omega
  | ⟨3, _⟩ =>
    show win1_1.index ⟨(i 0).val / 16, hq⟩ (3 : Fin 4) * 128 ≤ (i 3).val
      ∧ (i 3).val < win1_1.index ⟨(i 0).val / 16, hq⟩ (3 : Fin 4) * 128 + 128
    omega

/-- THE RESULT ARRAY after the call: the Haar level of the input array as the call found it. -/
theorem result (c : Dev nD) : (dat1 V c).arrAt 1 cfg1.N = Haar.stackLevel stackFacts (V c main_v4) :=
  (dat1 V c).arrAt_eq_of_cover 1 (Haar.stackLevel stackFacts (V c main_v4)) (fun t _ => flushed_eq V c t) covered

end Cert.KernelIdeal.Level1

end
-- ==== Proof.Level2.lean ====
/-
  Level 3 of the transform on the device: the pipelined call cuts the stack of 192 images [192, 128, 128] into
  3 blocks of 64 images, and at every block the body computes one Haar level of the block. A level acts on
  each image by itself, so the level of a block of images is that block of the level of the whole stack; the
  blocks tile the stack, hence the call leaves in its result array [192, 4, 64, 64] the Haar level of the whole
  input array, whatever the array held when the call was entered.
-/
import proofs.«113170_j5841155522677_1_alg».proof.Proof.Gen.KernelIdeal.Frame
import proofs.«113170_j5841155522677_1_alg».proof.Proof.LibHaar
import Idealize.ShloMosaic.Lib.Pipeline.Value

set_option maxRecDepth 16384

noncomputable section

namespace Cert.KernelIdeal.Level2

open Cert.KernelIdeal Cert.KernelIdeal.Gen Idealize.ShloMosaic Idealize.ShloMosaic.TcCoe Idealize.SL.Sem
open Idealize.ShloMosaic.ValueIdx
open Idealize.ShloMosaic.Pipeline (Dat)

/-- The layout side conditions of a level on a block of 64 images … -/
theorem blockFacts : Haar.StackFacts 64 128 128 64 64 :=
  ⟨by decide, by decide, by decide, by decide, by decide, by decide, by decide, by decide, by decide⟩
/-- … and on the whole stack of 192. -/
theorem stackFacts : Haar.StackFacts 192 128 128 64 64 :=
  ⟨by decide, by decide, by decide, by decide, by decide, by decide, by decide, by decide, by decide⟩

/-- What the body stores is one Haar level of the block it loaded. -/
theorem payload_eq (x0 : Vec Ideal S64x128x128 .f32) : k2_pay1 (F := Ideal) x0 = Haar.stackLevel blockFacts x0 := rfl

/-- A block of 64 images that holds images `o, o + 1, …` of a stack: what the body stores at an index is the
    stack's level at the index `o` images further on. -/
theorem block_level (xb : Vec Ideal S64x128x128 .f32) (A : FVec Ideal S192x128x128 .f32) (o : ℕ) (ho : o + 64 ≤ 192)
    (hx : ∀ (q : Fin 64) (r : Fin 128) (s : Fin 128), xb (ix3 q r s) = A (ix3 ⟨o + q.val, by have := q.isLt; omega⟩ r s))
    (y : S64x4x64x64.Idx) (z : S192x4x64x64.Idx)
    (h0 : (z 0).val = o + (y 0).val) (h1 : (z 1).val = (y 1).val) (h2 : (z 2).val = (y 2).val) (h3 : (z 3).val = (y 3).val) :
    k2_pay1 (F := Ideal) xb y = Haar.stackLevel stackFacts A z := by
  have hy0 : (y 0).val < 64 := (y 0).isLt
  have hz : z = ix4 (⟨o + (y 0).val, by omega⟩ : Fin 192) (y 1 : Fin 4) (y 2 : Fin 64) (y 3 : Fin 64) := by
    funext a; apply Fin.ext
    match a with
    | ⟨0, _⟩ => exact h0
    | ⟨1, _⟩ => exact h1
    | ⟨2, _⟩ => exact h2
    | ⟨3, _⟩ => exact h3
  have e := Haar.stackLevel_rows rfl rfl blockFacts stackFacts xb A o ho hx (y 0 : Fin 64) (y 1 : Fin 4) (y 2 : Fin 64) (y 3 : Fin 64)
  exact ((congrFun (payload_eq xb) y).trans (congrArg (Haar.stackLevel blockFacts xb) (eq_ix4 y))).trans
    (e.trans (congrArg (Haar.stackLevel stackFacts A) hz.symm))

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The printed index maps over the grid: point `t` takes block `t` of the images and everything of the other axes. -/
theorem index_facts : ∀ t : Fin cfg2.N, win2_0.index t (0 : Fin 3) = t.val ∧ win2_0.index t (1 : Fin 3) = 0 ∧ win2_0.index t (2 : Fin 3) = 0
    ∧ win2_1.index t (0 : Fin 4) = t.val ∧ win2_1.index t (1 : Fin 4) = 0 ∧ win2_1.index t (2 : Fin 4) = 0 ∧ win2_1.index t (3 : Fin 4) = 0 :=
  (by decide +kernel : ∀ t : Fin grid2.N, _)

variable (V : (c : Dev nD) → (b : Ref sig .tc) → Buf (Elt Ideal) ((c : Thread nD τ).loc b))

/-- The input block at point `t` holds images 64·t, 64·t + 1, … of the input array. -/
theorem inblock_apply (c : Dev nD) (t : Fin cfg2.N) (q : Fin 64) (r : Fin 128) (s : Fin 128) :
    iblk2 V c 0 t (ix3 q r s)
      = V c main_v8 (ix3 ⟨t.val * 64 + q.val, by have ht : t.val < 3 := t.isLt; have := q.isLt; omega⟩ r s) := by
  obtain ⟨e0, e1, e2, -⟩ := index_facts t
  show V c main_v8 (((cfg2.win 0).blk t).view.emb (ix3 q r s)) = _
  refine congrArg (V c main_v8) ?_
  funext a; apply Fin.ext
  match a with
  | ⟨0, _⟩ => show win2_0.index t (0 : Fin 3) * 64 + 1 * q.val = t.val * 64 + q.val; omega
  | ⟨1, _⟩ => show win2_0.index t (1 : Fin 3) * 128 + 1 * r.val = r.val; omega
  | ⟨2, _⟩ => show win2_0.index t (2 : Fin 3) * 128 + 1 * s.val = s.val; omega

/-- WHAT POINT `t` WRITES BACK is block `t` of the Haar level of the whole input array. -/
theorem flushed_eq (c : Dev nD) (t : Fin cfg2.N) :
    (dat2 V c).flushed 1 t = ((cfg2.win 1).blk t).view.read (Elt Ideal) (Haar.stackLevel stackFacts (V c main_v8)) := by
  show (cfg2.win 1).cut (grid2.coords t) ((dat2 V c).after 1 t) = _
  rw [after2_1]
  unfold out2_1
  rw [View.canon_unit_zero zero4]
  simp only [View.ld_unit_zero (S := S64x128x128) zero3]
  have ht : t.val < 3 := t.isLt
  obtain ⟨-, -, -, e0, e1, e2, e3⟩ := index_facts t
  funext y
  show k2_pay1 (F := Ideal) (iblk2 V c 0 t) y = Haar.stackLevel stackFacts (V c main_v8) (((cfg2.win 1).blk t).view.emb y)
  refine block_level (iblk2 V c 0 t) (V c main_v8) (t.val * 64) (by omega) (fun q r s => inblock_apply V c t q r s) y
    (((cfg2.win 1).blk t).view.emb y) ?_ ?_ ?_ ?_
  · show win2_1.index t (0 : Fin 4) * 64 + 1 * (y 0).val = t.val * 64 + (y 0).val; omega
  · show win2_1.index t (1 : Fin 4) * 4 + 1 * (y 1).val = (y 1).val; omega
  · show win2_1.index t (2 : Fin 4) * 64 + 1 * (y 2).val = (y 2).val; omega
  · show win2_1.index t (3 : Fin 4) * 64 + 1 * (y 3).val = (y 3).val; omega

/-- An index of the result array is in point `t`'s block iff each coordinate is in the block's range on its axis. -/
theorem mem_block (t : Fin cfg2.N) (i : S192x4x64x64.Idx) :
    i ∈ ((cfg2.win 1).blk t).view.set ↔ ∀ a : Fin 4, win2_1.index t a * S64x4x64x64.size a ≤ (i a).val
      ∧ (i a).val < win2_1.index t a * S64x4x64x64.size a + S64x4x64x64.size a := by
  show i ∈ ((View.whole main_v9).slice (win2_1.rect t)).set ↔ _
  rw [View.set_slice_whole, Rect.mem_set_unit]
  exact Iff.rfl

/-- The blocks tile the result array: image `r` lies in the block of point `r / 64`. -/
theorem covered (i : S192x4x64x64.Idx) :
    ∃ t : Fin cfg2.N, (cfg2.win 1).flush t = true ∧ i ∈ ((cfg2.win 1).blk t).view.set := by
  have h0 : (i 0).val < 192 := (i 0).isLt
  have h1 : (i 1).val < 4 := (i 1).isLt
  have h2 : (i 2).val < 64 := (i 2).isLt
  have h3 : (i 3).val < 64 := (i 3).isLt
  have hq : (i 0).val / 64 < 3 := by omega
  obtain ⟨-, -, -, e0, e1, e2, e3⟩ := index_facts ⟨(i 0).val / 64, hq⟩
  refine ⟨⟨(i 0).val / 64, hq⟩, flush2_1 _, ?_⟩
  rw [mem_block]
  intro a
  match a with
  | ⟨0, _⟩ =>
    show win2_1.index ⟨(i 0).val / 64, hq⟩ (0 : Fin 4) * 64 ≤ (i 0).val
      ∧ (i 0).val < win2_1.index ⟨(i 0).val / 64, hq⟩ (0 : Fin 4) * 64 + 64
    rw [e0]; show (i 0).val / 64 * 64 ≤ (i 0).val ∧ (i 0).val < (i 0).val / 64 * 64 + 64; omega
  | ⟨1, _⟩ =>
    show win2_1.index ⟨(i 0).val / 64, hq⟩ (1 : Fin 4) * 4 ≤ (i 1).val
      ∧ (i 1).val < win2_1.index ⟨(i 0).val / 64, hq⟩ (1 : Fin 4) * 4 + 4
    omega
  | ⟨2, _⟩ =>
    show win2_1.index ⟨(i 0).val / 64, hq⟩ (2 : Fin 4) * 64 ≤ (i 2).val
      ∧ (i 2).val < win2_1.index ⟨(i 0).val / 64, hq⟩ (2 : Fin 4) * 64 + 64
    omega
  | ⟨3, _⟩ =>
    show win2_1.index ⟨(i 0).val / 64, hq⟩ (3 : Fin 4) * 64 ≤ (i 3).val
      ∧ (i 3).val < win2_1.index ⟨(i 0).val / 64, hq⟩ (3 : Fin 4) * 64 + 64
    omega

/-- THE RESULT ARRAY after the call: the Haar level of the input array as the call found it. -/
theorem result (c : Dev nD) : (dat2 V c).arrAt 1 cfg2.N = Haar.stackLevel stackFacts (V c main_v8) :=
  (dat2 V c).arrAt_eq_of_cover 1 (Haar.stackLevel stackFacts (V c main_v8)) (fun t _ => flushed_eq V c t) covered

end Cert.KernelIdeal.Level2

end
-- ==== Proof.Level3.lean ====
/-
  Level 4 of the transform on the device: the pipelined call cuts the stack of 192 images [192, 64, 64] into
  1 block of 192 images, and at every block the body computes one Haar level of the block. A level acts on
  each image by itself, so the level of a block of images is that block of the level of the whole stack; the
  blocks tile the stack, hence the call leaves in its result array [192, 4, 32, 32] the Haar level of the whole
  input array, whatever the array held when the call was entered.
-/
import proofs.«113170_j5841155522677_1_alg».proof.Proof.Gen.KernelIdeal.Frame
import proofs.«113170_j5841155522677_1_alg».proof.Proof.LibHaar
import Idealize.ShloMosaic.Lib.Pipeline.Value

set_option maxRecDepth 16384

noncomputable section

namespace Cert.KernelIdeal.Level3

open Cert.KernelIdeal Cert.KernelIdeal.Gen Idealize.ShloMosaic Idealize.ShloMosaic.TcCoe Idealize.SL.Sem
open Idealize.ShloMosaic.ValueIdx
open Idealize.ShloMosaic.Pipeline (Dat)

/-- The layout side conditions of a level on a block of 192 images … -/
theorem blockFacts : Haar.StackFacts 192 64 64 32 32 :=
  ⟨by decide, by decide, by decide, by decide, by decide, by decide, by decide, by decide, by decide⟩
/-- … and on the whole stack of 192. -/
theorem stackFacts : Haar.StackFacts 192 64 64 32 32 :=
  ⟨by decide, by decide, by decide, by decide, by decide, by decide, by decide, by decide, by decide⟩

/-- What the body stores is one Haar level of the block it loaded. -/
theorem payload_eq (x0 : Vec Ideal S192x64x64 .f32) : k3_pay1 (F := Ideal) x0 = Haar.stackLevel blockFacts x0 := rfl

/-- A block of 192 images that holds images `o, o + 1, …` of a stack: what the body stores at an index is the
    stack's level at the index `o` images further on. -/
theorem block_level (xb : Vec Ideal S192x64x64 .f32) (A : FVec Ideal S192x64x64 .f32) (o : ℕ) (ho : o + 192 ≤ 192)
    (hx : ∀ (q : Fin 192) (r : Fin 64) (s : Fin 64), xb (ix3 q r s) = A (ix3 ⟨o + q.val, by have := q.isLt; omega⟩ r s))
    (y : S192x4x32x32.Idx) (z : S192x4x32x32.Idx)
    (h0 : (z 0).val = o + (y 0).val) (h1 : (z 1).val = (y 1).val) (h2 : (z 2).val = (y 2).val) (h3 : (z 3).val = (y 3).val) :
    k3_pay1 (F := Ideal) xb y = Haar.stackLevel stackFacts A z := by
  have hy0 : (y 0).val < 192 := (y 0).isLt
  have hz : z = ix4 (⟨o + (y 0).val, by omega⟩ : Fin 192) (y 1 : Fin 4) (y 2 : Fin 32) (y 3 : Fin 32) := by
    funext a; apply Fin.ext
    match a with
    | ⟨0, _⟩ => exact h0
    | ⟨1, _⟩ => exact h1
    | ⟨2, _⟩ => exact h2
    | ⟨3, _⟩ => exact h3
  have e := Haar.stackLevel_rows rfl rfl blockFacts stackFacts xb A o ho hx (y 0 : Fin 192) (y 1 : Fin 4) (y 2 : Fin 32) (y 3 : Fin 32)
  exact ((congrFun (payload_eq xb) y).trans (congrArg (Haar.stackLevel blockFacts xb) (eq_ix4 y))).trans
    (e.trans (congrArg (Haar.stackLevel stackFacts A) hz.symm))

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The printed index maps over the grid: point `t` takes block `t` of the images and everything of the other axes. -/
theorem index_facts : ∀ t : Fin cfg3.N, win3_0.index t (0 : Fin 3) = t.val ∧ win3_0.index t (1 : Fin 3) = 0 ∧ win3_0.index t (2 : Fin 3) = 0
    ∧ win3_1.index t (0 : Fin 4) = t.val ∧ win3_1.index t (1 : Fin 4) = 0 ∧ win3_1.index t (2 : Fin 4) = 0 ∧ win3_1.index t (3 : Fin 4) = 0 :=
  (by decide +kernel : ∀ t : Fin grid3.N, _)

variable (V : (c : Dev nD) → (b : Ref sig .tc) → Buf (Elt Ideal) ((c : Thread nD τ).loc b))

/-- The input block at point `t` holds images 192·t, 192·t + 1, … of the input array. -/
theorem inblock_apply (c : Dev nD) (t : Fin cfg3.N) (q : Fin 192) (r : Fin 64) (s : Fin 64) :
    iblk3 V c 0 t (ix3 q r s)
      = V c main_v12 (ix3 ⟨t.val * 192 + q.val, by have ht : t.val < 1 := t.isLt; have := q.isLt; omega⟩ r s) := by
  obtain ⟨e0, e1, e2, -⟩ := index_facts t
  show V c main_v12 (((cfg3.win 0).blk t).view.emb (ix3 q r s)) = _
  refine congrArg (V c main_v12) ?_
  funext a; apply Fin.ext
  match a with
  | ⟨0, _⟩ => show win3_0.index t (0 : Fin 3) * 192 + 1 * q.val = t.val * 192 + q.val; omega
  | ⟨1, _⟩ => show win3_0.index t (1 : Fin 3) * 64 + 1 * r.val = r.val; omega
  | ⟨2, _⟩ => show win3_0.index t (2 : Fin 3) * 64 + 1 * s.val = s.val; omega

/-- WHAT POINT `t` WRITES BACK is block `t` of the Haar level of the whole input array. -/
theorem flushed_eq (c : Dev nD) (t : Fin cfg3.N) :
    (dat3 V c).flushed 1 t = ((cfg3.win 1).blk t).view.read (Elt Ideal) (Haar.stackLevel stackFacts (V c main_v12)) := by
  show (cfg3.win 1).cut (grid3.coords t) ((dat3 V c).after 1 t) = _
  rw [after3_1]
  unfold out3_1
  rw [View.canon_unit_zero zero4]
  simp only [View.ld_unit_zero (S := S192x64x64) zero3]
  have ht : t.val < 1 := t.isLt
  obtain ⟨-, -, -, e0, e1, e2, e3⟩ := index_facts t
  funext y
  show k3_pay1 (F := Ideal) (iblk3 V c 0 t) y = Haar.stackLevel stackFacts (V c main_v12) (((cfg3.win 1).blk t).view.emb y)
  refine block_level (iblk3 V c 0 t) (V c main_v12) (t.val * 192) (by omega) (fun q r s => inblock_apply V c t q r s) y
    (((cfg3.win 1).blk t).view.emb y) ?_ ?_ ?_ ?_
  · show win3_1.index t (0 : Fin 4) * 192 + 1 * (y 0).val = t.val * 192 + (y 0).val; omega
  · show win3_1.index t (1 : Fin 4) * 4 + 1 * (y 1).val = (y 1).val; omega
  · show win3_1.index t (2 : Fin 4) * 32 + 1 * (y 2).val = (y 2).val; omega
  · show win3_1.index t (3 : Fin 4) * 32 + 1 * (y 3).val = (y 3).val; omega

/-- An index of the result array is in point `t`'s block iff each coordinate is in the block's range on its axis. -/
theorem mem_block (t : Fin cfg3.N) (i : S192x4x32x32.Idx) :
    i ∈ ((cfg3.win 1).blk t).view.set ↔ ∀ a : Fin 4, win3_1.index t a * S192x4x32x32.size a ≤ (i a).val
      ∧ (i a).val < win3_1.index t a * S192x4x32x32.size a + S192x4x32x32.size a := by
  show i ∈ ((View.whole main_v13).slice (win3_1.rect t)).set ↔ _
  rw [View.set_slice_whole, Rect.mem_set_unit]
  exact Iff.rfl

/-- The blocks tile the result array: image `r` lies in the block of point `r / 192`. -/
theorem covered (i : S192x4x32x32.Idx) :
    ∃ t : Fin cfg3.N, (cfg3.win 1).flush t = true ∧ i ∈ ((cfg3.win 1).blk t).view.set := by
  have h0 : (i 0).val < 192 := (i 0).isLt
  have h1 : (i 1).val < 4 := (i 1).isLt
  have h2 : (i 2).val < 32 := (i 2).isLt
  have h3 : (i 3).val < 32 := (i 3).isLt
  have hq : (i 0).val / 192 < 1 := by omega
  obtain ⟨-, -, -, e0, e1, e2, e3⟩ := index_facts ⟨(i 0).val / 192, hq⟩
  refine ⟨⟨(i 0).val / 192, hq⟩, flush3_1 _, ?_⟩
  rw [mem_block]
  intro a
  match a with
  | ⟨0, _⟩ =>
    show win3_1.index ⟨(i 0).val / 192, hq⟩ (0 : Fin 4) * 192 ≤ (i 0).val
      ∧ (i 0).val < win3_1.index ⟨(i 0).val / 192, hq⟩ (0 : Fin 4) * 192 + 192
    rw [e0]; show (i 0).val / 192 * 192 ≤ (i 0).val ∧ (i 0).val < (i 0).val / 192 * 192 + 192; omega
  | ⟨1, _⟩ =>
    show win3_1.index ⟨(i 0).val / 192, hq⟩ (1 : Fin 4) * 4 ≤ (i 1).val
      ∧ (i 1).val < win3_1.index ⟨(i 0).val / 192, hq⟩ (1 : Fin 4) * 4 + 4
    omega
  | ⟨2, _⟩ =>
    show win3_1.index ⟨(i 0).val / 192, hq⟩ (2 : Fin 4) * 32 ≤ (i 2).val
      ∧ (i 2).val < win3_1.index ⟨(i 0).val / 192, hq⟩ (2 : Fin 4) * 32 + 32
    omega
  | ⟨3, _⟩ =>
    show win3_1.index ⟨(i 0).val / 192, hq⟩ (3 : Fin 4) * 32 ≤ (i 3).val
      ∧ (i 3).val < win3_1.index ⟨(i 0).val / 192, hq⟩ (3 : Fin 4) * 32 + 32
    omega

/-- THE RESULT ARRAY after the call: the Haar level of the input array as the call found it. -/
theorem result (c : Dev nD) : (dat3 V c).arrAt 1 cfg3.N = Haar.stackLevel stackFacts (V c main_v12) :=
  (dat3 V c).arrAt_eq_of_cover 1 (Haar.stackLevel stackFacts (V c main_v12)) (fun t _ => flushed_eq V c t) covered

end Cert.KernelIdeal.Level3

end
-- ==== Proof.Levels.lean ====
/-
  The four levels of the transform of a batch [64, 3, 512, 512]: level 1 is a Haar level of the batch, and each
  further level is a Haar level of plane 0 (the averages) of the level before. Level l has extents
  [64, 3, 4, 512 / 2^l, 512 / 2^l].
-/
import proofs.«113170_j5841155522677_1_alg».proof.Proof.LibHaar

noncomputable section

namespace Haar.Levels

open Idealize.ShloMosaic Idealize.ShloMosaic.ValueIdx

theorem batchFacts1 : BatchFacts 64 3 512 512 256 256 :=
  ⟨by decide, by decide, by decide, by decide, by decide, by decide, by decide, by decide, by decide⟩
theorem batchFacts2 : BatchFacts 64 3 256 256 128 128 :=
  ⟨by decide, by decide, by decide, by decide, by decide, by decide, by decide, by decide, by decide⟩
theorem batchFacts3 : BatchFacts 64 3 128 128 64 64 :=
  ⟨by decide, by decide, by decide, by decide, by decide, by decide, by decide, by decide, by decide⟩
theorem batchFacts4 : BatchFacts 64 3 64 64 32 32 :=
  ⟨by decide, by decide, by decide, by decide, by decide, by decide, by decide, by decide, by decide⟩

/-- Level 1 of the batch `X`. -/
def level1 (X : FVec Ideal (BIn 64 3 512 512) .f32) : FVec Ideal (BOut 64 3 256 256) .f32 := batchLevel batchFacts1 X
/-- Level 2: a level of level 1's averages. -/
def level2 (X : FVec Ideal (BIn 64 3 512 512) .f32) : FVec Ideal (BOut 64 3 128 128) .f32 :=
  batchLevel batchFacts2 (batchPlane0 (by decide) (by decide) (level1 X))
/-- Level 3. -/
def level3 (X : FVec Ideal (BIn 64 3 512 512) .f32) : FVec Ideal (BOut 64 3 64 64) .f32 :=
  batchLevel batchFacts3 (batchPlane0 (by decide) (by decide) (level2 X))
/-- Level 4. -/
def level4 (X : FVec Ideal (BIn 64 3 512 512) .f32) : FVec Ideal (BOut 64 3 32 32) .f32 :=
  batchLevel batchFacts4 (batchPlane0 (by decide) (by decide) (level3 X))

end Haar.Levels

end
-- ==== Proof.KernelChain.lean ====
/-
  What the device program returns, as a function of its argument. The argument [64, 3, 512, 512] is flattened
  to a stack of 192 images. Call 1 leaves one Haar level of that stack; plane 0 of a call's result, cut out and
  reshaped on the host, is the stack the next call takes; and each call's result, reshaped to [64, 3, 4, ·, ·], is
  one of the returned arrays, which nothing writes afterwards. So the four returned arrays are the reshapes of
  `stack1` … `stack4` below. Flattening commutes with a Haar level and with taking plane 0 (LibHaar's `level_flatten`
  and `next_level`), so they are the four levels of the batch transform of the argument.
-/
import proofs.«113170_j5841155522677_1_alg».proof.Proof.Gen.KernelIdeal.Frame
import proofs.«113170_j5841155522677_1_alg».proof.Proof.Level0
import proofs.«113170_j5841155522677_1_alg».proof.Proof.Level1
import proofs.«113170_j5841155522677_1_alg».proof.Proof.Level2
import proofs.«113170_j5841155522677_1_alg».proof.Proof.Level3
import proofs.«113170_j5841155522677_1_alg».proof.Proof.Levels

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

/-! ## The four stacks, as functions of the argument -/

/-- The result of call 1: a Haar level of the flattened argument. -/
def stack1 (X : FVec Ideal S64x3x512x512 .f32) : FVec Ideal S192x4x256x256 .f32 :=
  Haar.stackLevel Level0.stackFacts (shapeCast S192x512x512 X (by decide))
/-- The result of call 2: a Haar level of plane 0 of call 1's result. -/
def stack2 (X : FVec Ideal S64x3x512x512 .f32) : FVec Ideal S192x4x128x128 .f32 :=
  Haar.stackLevel Level1.stackFacts (Haar.stackPlane0 (by decide) (by decide) (stack1 X))
/-- The result of call 3. -/
def stack3 (X : FVec Ideal S64x3x512x512 .f32) : FVec Ideal S192x4x64x64 .f32 :=
  Haar.stackLevel Level2.stackFacts (Haar.stackPlane0 (by decide) (by decide) (stack2 X))
/-- The result of call 4. -/
def stack4 (X : FVec Ideal S64x3x512x512 .f32) : FVec Ideal S192x4x32x32 .f32 :=
  Haar.stackLevel Level3.stackFacts (Haar.stackPlane0 (by decide) (by decide) (stack3 X))

variable (m : (ℓ : Loc nD τ sig) → Buf (Elt Ideal) ℓ) (ρ : Dev nD → PrngReg)

/-! ## Each call's input and result along the run -/

/-- Call 1 is entered with the flattened argument in its input array. -/
theorem entry1 (c : Dev nD) :
    V1 m ρ c main_v0 = shapeCast S192x512x512 (m ((c.tc : Thread nD τ).loc main_arg0)) shapeCasts_S64x3x512x512_S192x512x512 := by
  show StableHlo.after hostOps0 (W0 m ρ c) (Proc.devRef .tc main_v0) = _
  dsimp only [hostOps0]; after_results <;> rfl

/-- Call 1 leaves `stack1` of the argument in its result array. -/
theorem call1 (c : Dev nD) : W2 m ρ c (Proc.devRef .tc main_v1) = stack1 (m ((c.tc : Thread nD τ).loc main_arg0)) :=
  (W2_arr m ρ c 1).trans ((Level0.result (V1 m ρ) c).trans (congrArg (Haar.stackLevel Level0.stackFacts) (entry1 m ρ c)))

/-- Call 2 is entered with plane 0 of call 1's result in its input array. -/
theorem entry2 (c : Dev nD) : V3 m ρ c main_v4 = Haar.stackPlane0 (by decide) (by decide) (stack1 (m ((c.tc : Thread nD τ).loc main_arg0))) := by
  show StableHlo.after hostOps1 (W2 m ρ c) (Proc.devRef .tc main_v4) = _
  dsimp only [hostOps1]; after_results
  rw [call1]; rfl

/-- Call 2 leaves `stack2` of the argument in its result array. -/
theorem call2 (c : Dev nD) : W4 m ρ c (Proc.devRef .tc main_v5) = stack2 (m ((c.tc : Thread nD τ).loc main_arg0)) :=
  (W4_arr m ρ c 1).trans ((Level1.result (V3 m ρ) c).trans (congrArg (Haar.stackLevel Level1.stackFacts) (entry2 m ρ c)))

/-- Call 3 is entered with plane 0 of call 2's result in its input array. -/
theorem entry3 (c : Dev nD) : V5 m ρ c main_v8 = Haar.stackPlane0 (by decide) (by decide) (stack2 (m ((c.tc : Thread nD τ).loc main_arg0))) := by
  show StableHlo.after hostOps2 (W4 m ρ c) (Proc.devRef .tc main_v8) = _
  dsimp only [hostOps2]; after_results
  rw [call2]; rfl

/-- Call 3 leaves `stack3` of the argument in its result array. -/
theorem call3 (c : Dev nD) : W6 m ρ c (Proc.devRef .tc main_v9) = stack3 (m ((c.tc : Thread nD τ).loc main_arg0)) :=
  (W6_arr m ρ c 1).trans ((Level2.result (V5 m ρ) c).trans (congrArg (Haar.stackLevel Level2.stackFacts) (entry3 m ρ c)))

/-- Call 4 is entered with plane 0 of call 3's result in its input array. -/
theorem entry4 (c : Dev nD) : V7 m ρ c main_v12 = Haar.stackPlane0 (by decide) (by decide) (stack3 (m ((c.tc : Thread nD τ).loc main_arg0))) := by
  show StableHlo.after hostOps3 (W6 m ρ c) (Proc.devRef .tc main_v12) = _
  dsimp only [hostOps3]; after_results
  rw [call3]; rfl

/-- Call 4 leaves `stack4` of the argument in its result array. -/
theorem call4 (c : Dev nD) : W8 m ρ c (Proc.devRef .tc main_v13) = stack4 (m ((c.tc : Thread nD τ).loc main_arg0)) :=
  (W8_arr m ρ c 1).trans ((Level3.result (V7 m ρ) c).trans (congrArg (Haar.stackLevel Level3.stackFacts) (entry4 m ρ c)))

/-! ## The returned arrays at the end of the run -/

/-- Returned array 1 is written once, by the reshape after call 1, and kept to the end. -/
theorem returned1 (c : Dev nD) : W9 m ρ c (Proc.devRef .tc main_v2)
    = shapeCast S64x3x4x256x256 (stack1 (m ((c.tc : Thread nD τ).loc main_arg0))) (by decide) :=
  calc W9 m ρ c (Proc.devRef .tc main_v2)
    _ = W8 m ρ c (Proc.devRef .tc main_v2) := by
          show StableHlo.after hostOps4 (W8 m ρ c) (Proc.devRef .tc main_v2) = _
          dsimp only [hostOps4]; after_results
    _ = W7 m ρ c (Proc.devRef .tc main_v2) := W8_of_ne m ρ c main_v2 (by decide)
    _ = W6 m ρ c (Proc.devRef .tc main_v2) := by
          show StableHlo.after hostOps3 (W6 m ρ c) (Proc.devRef .tc main_v2) = _
          dsimp only [hostOps3]; after_results
    _ = W5 m ρ c (Proc.devRef .tc main_v2) := W6_of_ne m ρ c main_v2 (by decide)
    _ = W4 m ρ c (Proc.devRef .tc main_v2) := by
          show StableHlo.after hostOps2 (W4 m ρ c) (Proc.devRef .tc main_v2) = _
          dsimp only [hostOps2]; after_results
    _ = W3 m ρ c (Proc.devRef .tc main_v2) := W4_of_ne m ρ c main_v2 (by decide)
    _ = shapeCast S64x3x4x256x256 (W2 m ρ c (Proc.devRef .tc main_v1)) (by decide) := by
          show StableHlo.after hostOps1 (W2 m ρ c) (Proc.devRef .tc main_v2) = _
          dsimp only [hostOps1]; after_results <;> rfl
    _ = shapeCast S64x3x4x256x256 (stack1 (m ((c.tc : Thread nD τ).loc main_arg0))) (by decide) := by rw [call1]

/-- Returned array 2 is written once, by the reshape after call 2, and kept to the end. -/
theorem returned2 (c : Dev nD) : W9 m ρ c (Proc.devRef .tc main_v6)
    = shapeCast S64x3x4x128x128 (stack2 (m ((c.tc : Thread nD τ).loc main_arg0))) (by decide) :=
  calc W9 m ρ c (Proc.devRef .tc main_v6)
    _ = W8 m ρ c (Proc.devRef .tc main_v6) := by
          show StableHlo.after hostOps4 (W8 m ρ c) (Proc.devRef .tc main_v6) = _
          dsimp only [hostOps4]; after_results
    _ = W7 m ρ c (Proc.devRef .tc main_v6) := W8_of_ne m ρ c main_v6 (by decide)
    _ = W6 m ρ c (Proc.devRef .tc main_v6) := by
          show StableHlo.after hostOps3 (W6 m ρ c) (Proc.devRef .tc main_v6) = _
          dsimp only [hostOps3]; after_results
    _ = W5 m ρ c (Proc.devRef .tc main_v6) := W6_of_ne m ρ c main_v6 (by decide)
    _ = shapeCast S64x3x4x128x128 (W4 m ρ c (Proc.devRef .tc main_v5)) (by decide) := by
          show StableHlo.after hostOps2 (W4 m ρ c) (Proc.devRef .tc main_v6) = _
          dsimp only [hostOps2]; after_results <;> rfl
    _ = shapeCast S64x3x4x128x128 (stack2 (m ((c.tc : Thread nD τ).loc main_arg0))) (by decide) := by rw [call2]

/-- Returned array 3 is written once, by the reshape after call 3, and kept to the end. -/
theorem returned3 (c : Dev nD) : W9 m ρ c (Proc.devRef .tc main_v10)
    = shapeCast S64x3x4x64x64 (stack3 (m ((c.tc : Thread nD τ).loc main_arg0))) (by decide) :=
  calc W9 m ρ c (Proc.devRef .tc main_v10)
    _ = W8 m ρ c (Proc.devRef .tc main_v10) := by
          show StableHlo.after hostOps4 (W8 m ρ c) (Proc.devRef .tc main_v10) = _
          dsimp only [hostOps4]; after_results
    _ = W7 m ρ c (Proc.devRef .tc main_v10) := W8_of_ne m ρ c main_v10 (by decide)
    _ = shapeCast S64x3x4x64x64 (W6 m ρ c (Proc.devRef .tc main_v9)) (by decide) := by
          show StableHlo.after hostOps3 (W6 m ρ c) (Proc.devRef .tc main_v10) = _
          dsimp only [hostOps3]; after_results <;> rfl
    _ = shapeCast S64x3x4x64x64 (stack3 (m ((c.tc : Thread nD τ).loc main_arg0))) (by decide) := by rw [call3]

/-- Returned array 4 is written once, by the reshape after call 4, and kept to the end. -/
theorem returned4 (c : Dev nD) : W9 m ρ c (Proc.devRef .tc main_v14)
    = shapeCast S64x3x4x32x32 (stack4 (m ((c.tc : Thread nD τ).loc main_arg0))) (by decide) :=
  calc W9 m ρ c (Proc.devRef .tc main_v14)
    _ = shapeCast S64x3x4x32x32 (W8 m ρ c (Proc.devRef .tc main_v13)) (by decide) := by
          show StableHlo.after hostOps4 (W8 m ρ c) (Proc.devRef .tc main_v14) = _
          dsimp only [hostOps4]; after_results <;> rfl
    _ = shapeCast S64x3x4x32x32 (stack4 (m ((c.tc : Thread nD τ).loc main_arg0))) (by decide) := by rw [call4]

/-! ## The stacks, unflattened, are the levels of the batch transform -/

theorem level1_eq (X : FVec Ideal S64x3x512x512 .f32) :
    shapeCast S64x3x4x256x256 (stack1 X) (by decide) = Haar.Levels.level1 X := by
  unfold stack1 Haar.Levels.level1
  exact Haar.level_flatten (B := 64) (C := 3) (N := 192) (H := 512) (W := 512) (h := 256) (w := 256) rfl rfl rfl
    Level0.stackFacts Haar.Levels.batchFacts1 _ _ X

theorem level2_eq (X : FVec Ideal S64x3x512x512 .f32) :
    shapeCast S64x3x4x128x128 (stack2 X) (by decide) = Haar.Levels.level2 X := by
  unfold stack2 Haar.Levels.level2
  exact Haar.next_level (B := 64) (C := 3) (N := 192) (h := 256) (w := 256) (h' := 128) (w' := 128) rfl rfl rfl
    Level1.stackFacts Haar.Levels.batchFacts2 _ _ _ _ (by decide) (by decide) (by decide) _
    (stack1 X) (Haar.Levels.level1 X) (level1_eq X)

theorem level3_eq (X : FVec Ideal S64x3x512x512 .f32) :
    shapeCast S64x3x4x64x64 (stack3 X) (by decide) = Haar.Levels.level3 X := by
  unfold stack3 Haar.Levels.level3
  exact Haar.next_level (B := 64) (C := 3) (N := 192) (h := 128) (w := 128) (h' := 64) (w' := 64) rfl rfl rfl
    Level2.stackFacts Haar.Levels.batchFacts3 _ _ _ _ (by decide) (by decide) (by decide) _
    (stack2 X) (Haar.Levels.level2 X) (level2_eq X)

theorem level4_eq (X : FVec Ideal S64x3x512x512 .f32) :
    shapeCast S64x3x4x32x32 (stack4 X) (by decide) = Haar.Levels.level4 X := by
  unfold stack4 Haar.Levels.level4
  exact Haar.next_level (B := 64) (C := 3) (N := 192) (h := 64) (w := 64) (h' := 32) (w' := 32) rfl rfl rfl
    Level3.stackFacts Haar.Levels.batchFacts4 _ _ _ _ (by decide) (by decide) (by decide) _
    (stack3 X) (Haar.Levels.level3 X) (level3_eq X)

/-- THE RETURNED ARRAYS are the four levels of the transform of the argument. -/
theorem returned (c : Dev nD) :
    W9 m ρ c (Proc.devRef .tc main_v2) = Haar.Levels.level1 (m ((c.tc : Thread nD τ).loc main_arg0))
    ∧ W9 m ρ c (Proc.devRef .tc main_v6) = Haar.Levels.level2 (m ((c.tc : Thread nD τ).loc main_arg0))
    ∧ W9 m ρ c (Proc.devRef .tc main_v10) = Haar.Levels.level3 (m ((c.tc : Thread nD τ).loc main_arg0))
    ∧ W9 m ρ c (Proc.devRef .tc main_v14) = Haar.Levels.level4 (m ((c.tc : Thread nD τ).loc main_arg0)) :=
  ⟨(returned1 m ρ c).trans (level1_eq _), (returned2 m ρ c).trans (level2_eq _),
   (returned3 m ρ c).trans (level3_eq _), (returned4 m ρ c).trans (level4_eq _)⟩

end Cert.KernelIdeal.Chain

end
-- ==== Proof.RefRun.lean ====
/-
  The reference's run. Its @main is 160 host operations in a line, forty per level: view the level's input as
  [64, 3, h, 2, w, 2], cut the four corners, combine them into the four planes, stretch each plane onto a new
  axis and lay the four side by side; then cut plane 0 out as the next level's input. The operations are listed
  level by level (`ops1` … `ops4`). Read from ANY contents `V` of the buffers, a level's operations leave in the
  level's result buffer one Haar level of what `V` holds in the level's input buffer (for level 1 the argument,
  after that plane 0 of the previous result), and they write neither the argument nor an earlier result. Folding
  the four levels gives the four results as `Haar.Levels.level1` … `level4` of the argument.
-/
import proofs.«113170_j5841155522677_1_alg».proof.Proof.Gen.ReferenceIdeal
import proofs.«113170_j5841155522677_1_alg».proof.Proof.Levels
import Idealize.ShloMosaic.Lib.StableHlo.Run

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Level 1's operations, in @main's order. -/
abbrev ops1 : List (HloOp τ sig (Elt F)) :=
  [ reshape main_arg0 main_v0 rfl shapeCasts_S64x3x512x512_S64x3x256x2x256x2,
    unary main_v0 main_v1 ((extractStridedSlice S64x3x256x1x256x1 ![0, 0, 0, 0, 0, 0] · slices_S64x3x256x2x256x2_S64x3x256x1x256x1_0_0_0_0_0_0) : (⟨S64x3x256x2x256x2, .f32⟩ : BufTy).Contents (Elt F) → (⟨S64x3x256x1x256x1, .f32⟩ : BufTy).Contents (Elt F)),
    reshape main_v1 main_v2 rfl shapeCasts_S64x3x256x1x256x1_S64x3x256x256,
    unary main_v0 main_v3 ((extractStridedSlice S64x3x256x1x256x1 ![0, 0, 0, 0, 0, 1] · slices_S64x3x256x2x256x2_S64x3x256x1x256x1_0_0_0_0_0_1) : (⟨S64x3x256x2x256x2, .f32⟩ : BufTy).Contents (Elt F) → (⟨S64x3x256x1x256x1, .f32⟩ : BufTy).Contents (Elt F)),
    reshape main_v3 main_v4 rfl shapeCasts_S64x3x256x1x256x1_S64x3x256x256,
    unary main_v0 main_v5 ((extractStridedSlice S64x3x256x1x256x1 ![0, 0, 0, 1, 0, 0] · slices_S64x3x256x2x256x2_S64x3x256x1x256x1_0_0_0_1_0_0) : (⟨S64x3x256x2x256x2, .f32⟩ : BufTy).Contents (Elt F) → (⟨S64x3x256x1x256x1, .f32⟩ : BufTy).Contents (Elt F)),
    reshape main_v5 main_v6 rfl shapeCasts_S64x3x256x1x256x1_S64x3x256x256,
    unary main_v0 main_v7 ((extractStridedSlice S64x3x256x1x256x1 ![0, 0, 0, 1, 0, 1] · slices_S64x3x256x2x256x2_S64x3x256x1x256x1_0_0_0_1_0_1) : (⟨S64x3x256x2x256x2, .f32⟩ : BufTy).Contents (Elt F) → (⟨S64x3x256x1x256x1, .f32⟩ : BufTy).Contents (Elt F)),
    reshape main_v7 main_v8 rfl shapeCasts_S64x3x256x1x256x1_S64x3x256x256,
    binary main_v2 main_v4 main_v9 (addf : (⟨S64x3x256x256, .f32⟩ : BufTy).Contents (Elt F) → (⟨S64x3x256x256, .f32⟩ : BufTy).Contents (Elt F) → (⟨S64x3x256x256, .f32⟩ : BufTy).Contents (Elt F)),
    binary main_v9 main_v6 main_v10 (addf : (⟨S64x3x256x256, .f32⟩ : BufTy).Contents (Elt F) → (⟨S64x3x256x256, .f32⟩ : BufTy).Contents (Elt F) → (⟨S64x3x256x256, .f32⟩ : BufTy).Contents (Elt F)),
    binary main_v10 main_v8 main_v11 (addf : (⟨S64x3x256x256, .f32⟩ : BufTy).Contents (Elt F) → (⟨S64x3x256x256, .f32⟩ : BufTy).Contents (Elt F) → (⟨S64x3x256x256, .f32⟩ : BufTy).Contents (Elt F)),
    nullary main_cst (constant S_ .f32 0x3F000000#32),
    unary main_cst main_v12 (broadcastInDim S64x3x256x256 ![] bcast_S_S64x3x256x256 : (⟨S_, .f32⟩ : BufTy).Contents (Elt F) → (⟨S64x3x256x256, .f32⟩ : BufTy).Contents (Elt F)),
    binary main_v11 main_v12 main_v13 (mulf : (⟨S64x3x256x256, .f32⟩ : BufTy).Contents (Elt F) → (⟨S64x3x256x256, .f32⟩ : BufTy).Contents (Elt F) → (⟨S64x3x256x256, .f32⟩ : BufTy).Contents (Elt F)),
    binary main_v2 main_v4 main_v14 (addf : (⟨S64x3x256x256, .f32⟩ : BufTy).Contents (Elt F) → (⟨S64x3x256x256, .f32⟩ : BufTy).Contents (Elt F) → (⟨S64x3x256x256, .f32⟩ : BufTy).Contents (Elt F)),
    binary main_v14 main_v6 main_v15 (subf : (⟨S64x3x256x256, .f32⟩ : BufTy).Contents (Elt F) → (⟨S64x3x256x256, .f32⟩ : BufTy).Contents (Elt F) → (⟨S64x3x256x256, .f32⟩ : BufTy).Contents (Elt F)),
    binary main_v15 main_v8 main_v16 (subf : (⟨S64x3x256x256, .f32⟩ : BufTy).Contents (Elt F) → (⟨S64x3x256x256, .f32⟩ : BufTy).Contents (Elt F) → (⟨S64x3x256x256, .f32⟩ : BufTy).Contents (Elt F)),
    nullary main_cst_0 (constant S_ .f32 0x3F000000#32),
    unary main_cst_0 main_v17 (broadcastInDim S64x3x256x256 ![] bcast_S_S64x3x256x256 : (⟨S_, .f32⟩ : BufTy).Contents (Elt F) → (⟨S64x3x256x256, .f32⟩ : BufTy).Contents (Elt F)),
    binary main_v16 main_v17 main_v18 (mulf : (⟨S64x3x256x256, .f32⟩ : BufTy).Contents (Elt F) → (⟨S64x3x256x256, .f32⟩ : BufTy).Contents (Elt F) → (⟨S64x3x256x256, .f32⟩ : BufTy).Contents (Elt F)),
    binary main_v2 main_v4 main_v19 (subf : (⟨S64x3x256x256, .f32⟩ : BufTy).Contents (Elt F) → (⟨S64x3x256x256, .f32⟩ : BufTy).Contents (Elt F) → (⟨S64x3x256x256, .f32⟩ : BufTy).Contents (Elt F)),
    binary main_v19 main_v6 main_v20 (addf : (⟨S64x3x256x256, .f32⟩ : BufTy).Contents (Elt F) → (⟨S64x3x256x256, .f32⟩ : BufTy).Contents (Elt F) → (⟨S64x3x256x256, .f32⟩ : BufTy).Contents (Elt F)),
    binary main_v20 main_v8 main_v21 (subf : (⟨S64x3x256x256, .f32⟩ : BufTy).Contents (Elt F) → (⟨S64x3x256x256, .f32⟩ : BufTy).Contents (Elt F) → (⟨S64x3x256x256, .f32⟩ : BufTy).Contents (Elt F)),
    nullary main_cst_1 (constant S_ .f32 0x3F000000#32),
    unary main_cst_1 main_v22 (broadcastInDim S64x3x256x256 ![] bcast_S_S64x3x256x256 : (⟨S_, .f32⟩ : BufTy).Contents (Elt F) → (⟨S64x3x256x256, .f32⟩ : BufTy).Contents (Elt F)),
    binary main_v21 main_v22 main_v23 (mulf : (⟨S64x3x256x256, .f32⟩ : BufTy).Contents (Elt F) → (⟨S64x3x256x256, .f32⟩ : BufTy).Contents (Elt F) → (⟨S64x3x256x256, .f32⟩ : BufTy).Contents (Elt F)),
    binary main_v2 main_v4 main_v24 (subf : (⟨S64x3x256x256, .f32⟩ : BufTy).Contents (Elt F) → (⟨S64x3x256x256, .f32⟩ : BufTy).Contents (Elt F) → (⟨S64x3x256x256, .f32⟩ : BufTy).Contents (Elt F)),
    binary main_v24 main_v6 main_v25 (subf : (⟨S64x3x256x256, .f32⟩ : BufTy).Contents (Elt F) → (⟨S64x3x256x256, .f32⟩ : BufTy).Contents (Elt F) → (⟨S64x3x256x256, .f32⟩ : BufTy).Contents (Elt F)),
    binary main_v25 main_v8 main_v26 (addf : (⟨S64x3x256x256, .f32⟩ : BufTy).Contents (Elt F) → (⟨S64x3x256x256, .f32⟩ : BufTy).Contents (Elt F) → (⟨S64x3x256x256, .f32⟩ : BufTy).Contents (Elt F)),
    nullary main_cst_2 (constant S_ .f32 0x3F000000#32),
    unary main_cst_2 main_v27 (broadcastInDim S64x3x256x256 ![] bcast_S_S64x3x256x256 : (⟨S_, .f32⟩ : BufTy).Contents (Elt F) → (⟨S64x3x256x256, .f32⟩ : BufTy).Contents (Elt F)),
    binary main_v26 main_v27 main_v28 (mulf : (⟨S64x3x256x256, .f32⟩ : BufTy).Contents (Elt F) → (⟨S64x3x256x256, .f32⟩ : BufTy).Contents (Elt F) → (⟨S64x3x256x256, .f32⟩ : BufTy).Contents (Elt F)),
    unary main_v13 main_v29 (broadcastInDim S64x3x1x256x256 ![0, 1, 3, 4] bcast_S64x3x256x256_S64x3x1x256x256_0_1_3_4 : (⟨S64x3x256x256, .f32⟩ : BufTy).Contents (Elt F) → (⟨S64x3x1x256x256, .f32⟩ : BufTy).Contents (Elt F)),
    unary main_v18 main_v30 (broadcastInDim S64x3x1x256x256 ![0, 1, 3, 4] bcast_S64x3x256x256_S64x3x1x256x256_0_1_3_4 : (⟨S64x3x256x256, .f32⟩ : BufTy).Contents (Elt F) → (⟨S64x3x1x256x256, .f32⟩ : BufTy).Contents (Elt F)),
    unary main_v23 main_v31 (broadcastInDim S64x3x1x256x256 ![0, 1, 3, 4] bcast_S64x3x256x256_S64x3x1x256x256_0_1_3_4 : (⟨S64x3x256x256, .f32⟩ : BufTy).Contents (Elt F) → (⟨S64x3x1x256x256, .f32⟩ : BufTy).Contents (Elt F)),
    unary main_v28 main_v32 (broadcastInDim S64x3x1x256x256 ![0, 1, 3, 4] bcast_S64x3x256x256_S64x3x1x256x256_0_1_3_4 : (⟨S64x3x256x256, .f32⟩ : BufTy).Contents (Elt F) → (⟨S64x3x1x256x256, .f32⟩ : BufTy).Contents (Elt F)),
    nary ![main_v29, main_v30, main_v31, main_v32] main_v33 (fun u => concatenate S64x3x4x256x256 2 [⟨S64x3x1x256x256, u 0⟩, ⟨S64x3x1x256x256, u 1⟩, ⟨S64x3x1x256x256, u 2⟩, ⟨S64x3x1x256x256, u 3⟩] concatenates_S64x3x1x256x256_S64x3x1x256x256_S64x3x1x256x256_S64x3x1x256x256_S64x3x4x256x256_d2) ]

/-- Level 2's operations, in @main's order. -/
abbrev ops2 : List (HloOp τ sig (Elt F)) :=
  [ unary main_v33 main_v34 ((extractStridedSlice S64x3x1x256x256 ![0, 0, 0, 0, 0] · slices_S64x3x4x256x256_S64x3x1x256x256_0_0_0_0_0) : (⟨S64x3x4x256x256, .f32⟩ : BufTy).Contents (Elt F) → (⟨S64x3x1x256x256, .f32⟩ : BufTy).Contents (Elt F)),
    reshape main_v34 main_v35 rfl shapeCasts_S64x3x1x256x256_S64x3x256x256,
    reshape main_v35 main_v36 rfl shapeCasts_S64x3x256x256_S64x3x128x2x128x2,
    unary main_v36 main_v37 ((extractStridedSlice S64x3x128x1x128x1 ![0, 0, 0, 0, 0, 0] · slices_S64x3x128x2x128x2_S64x3x128x1x128x1_0_0_0_0_0_0) : (⟨S64x3x128x2x128x2, .f32⟩ : BufTy).Contents (Elt F) → (⟨S64x3x128x1x128x1, .f32⟩ : BufTy).Contents (Elt F)),
    reshape main_v37 main_v38 rfl shapeCasts_S64x3x128x1x128x1_S64x3x128x128,
    unary main_v36 main_v39 ((extractStridedSlice S64x3x128x1x128x1 ![0, 0, 0, 0, 0, 1] · slices_S64x3x128x2x128x2_S64x3x128x1x128x1_0_0_0_0_0_1) : (⟨S64x3x128x2x128x2, .f32⟩ : BufTy).Contents (Elt F) → (⟨S64x3x128x1x128x1, .f32⟩ : BufTy).Contents (Elt F)),
    reshape main_v39 main_v40 rfl shapeCasts_S64x3x128x1x128x1_S64x3x128x128,
    unary main_v36 main_v41 ((extractStridedSlice S64x3x128x1x128x1 ![0, 0, 0, 1, 0, 0] · slices_S64x3x128x2x128x2_S64x3x128x1x128x1_0_0_0_1_0_0) : (⟨S64x3x128x2x128x2, .f32⟩ : BufTy).Contents (Elt F) → (⟨S64x3x128x1x128x1, .f32⟩ : BufTy).Contents (Elt F)),
    reshape main_v41 main_v42 rfl shapeCasts_S64x3x128x1x128x1_S64x3x128x128,
    unary main_v36 main_v43 ((extractStridedSlice S64x3x128x1x128x1 ![0, 0, 0, 1, 0, 1] · slices_S64x3x128x2x128x2_S64x3x128x1x128x1_0_0_0_1_0_1) : (⟨S64x3x128x2x128x2, .f32⟩ : BufTy).Contents (Elt F) → (⟨S64x3x128x1x128x1, .f32⟩ : BufTy).Contents (Elt F)),
    reshape main_v43 main_v44 rfl shapeCasts_S64x3x128x1x128x1_S64x3x128x128,
    binary main_v38 main_v40 main_v45 (addf : (⟨S64x3x128x128, .f32⟩ : BufTy).Contents (Elt F) → (⟨S64x3x128x128, .f32⟩ : BufTy).Contents (Elt F) → (⟨S64x3x128x128, .f32⟩ : BufTy).Contents (Elt F)),
    binary main_v45 main_v42 main_v46 (addf : (⟨S64x3x128x128, .f32⟩ : BufTy).Contents (Elt F) → (⟨S64x3x128x128, .f32⟩ : BufTy).Contents (Elt F) → (⟨S64x3x128x128, .f32⟩ : BufTy).Contents (Elt F)),
    binary main_v46 main_v44 main_v47 (addf : (⟨S64x3x128x128, .f32⟩ : BufTy).Contents (Elt F) → (⟨S64x3x128x128, .f32⟩ : BufTy).Contents (Elt F) → (⟨S64x3x128x128, .f32⟩ : BufTy).Contents (Elt F)),
    nullary main_cst_3 (constant S_ .f32 0x3F000000#32),
    unary main_cst_3 main_v48 (broadcastInDim S64x3x128x128 ![] bcast_S_S64x3x128x128 : (⟨S_, .f32⟩ : BufTy).Contents (Elt F) → (⟨S64x3x128x128, .f32⟩ : BufTy).Contents (Elt F)),
    binary main_v47 main_v48 main_v49 (mulf : (⟨S64x3x128x128, .f32⟩ : BufTy).Contents (Elt F) → (⟨S64x3x128x128, .f32⟩ : BufTy).Contents (Elt F) → (⟨S64x3x128x128, .f32⟩ : BufTy).Contents (Elt F)),
    binary main_v38 main_v40 main_v50 (addf : (⟨S64x3x128x128, .f32⟩ : BufTy).Contents (Elt F) → (⟨S64x3x128x128, .f32⟩ : BufTy).Contents (Elt F) → (⟨S64x3x128x128, .f32⟩ : BufTy).Contents (Elt F)),
    binary main_v50 main_v42 main_v51 (subf : (⟨S64x3x128x128, .f32⟩ : BufTy).Contents (Elt F) → (⟨S64x3x128x128, .f32⟩ : BufTy).Contents (Elt F) → (⟨S64x3x128x128, .f32⟩ : BufTy).Contents (Elt F)),
    binary main_v51 main_v44 main_v52 (subf : (⟨S64x3x128x128, .f32⟩ : BufTy).Contents (Elt F) → (⟨S64x3x128x128, .f32⟩ : BufTy).Contents (Elt F) → (⟨S64x3x128x128, .f32⟩ : BufTy).Contents (Elt F)),
    nullary main_cst_4 (constant S_ .f32 0x3F000000#32),
    unary main_cst_4 main_v53 (broadcastInDim S64x3x128x128 ![] bcast_S_S64x3x128x128 : (⟨S_, .f32⟩ : BufTy).Contents (Elt F) → (⟨S64x3x128x128, .f32⟩ : BufTy).Contents (Elt F)),
    binary main_v52 main_v53 main_v54 (mulf : (⟨S64x3x128x128, .f32⟩ : BufTy).Contents (Elt F) → (⟨S64x3x128x128, .f32⟩ : BufTy).Contents (Elt F) → (⟨S64x3x128x128, .f32⟩ : BufTy).Contents (Elt F)),
    binary main_v38 main_v40 main_v55 (subf : (⟨S64x3x128x128, .f32⟩ : BufTy).Contents (Elt F) → (⟨S64x3x128x128, .f32⟩ : BufTy).Contents (Elt F) → (⟨S64x3x128x128, .f32⟩ : BufTy).Contents (Elt F)),
    binary main_v55 main_v42 main_v56 (addf : (⟨S64x3x128x128, .f32⟩ : BufTy).Contents (Elt F) → (⟨S64x3x128x128, .f32⟩ : BufTy).Contents (Elt F) → (⟨S64x3x128x128, .f32⟩ : BufTy).Contents (Elt F)),
    binary main_v56 main_v44 main_v57 (subf : (⟨S64x3x128x128, .f32⟩ : BufTy).Contents (Elt F) → (⟨S64x3x128x128, .f32⟩ : BufTy).Contents (Elt F) → (⟨S64x3x128x128, .f32⟩ : BufTy).Contents (Elt F)),
    nullary main_cst_5 (constant S_ .f32 0x3F000000#32),
    unary main_cst_5 main_v58 (broadcastInDim S64x3x128x128 ![] bcast_S_S64x3x128x128 : (⟨S_, .f32⟩ : BufTy).Contents (Elt F) → (⟨S64x3x128x128, .f32⟩ : BufTy).Contents (Elt F)),
    binary main_v57 main_v58 main_v59 (mulf : (⟨S64x3x128x128, .f32⟩ : BufTy).Contents (Elt F) → (⟨S64x3x128x128, .f32⟩ : BufTy).Contents (Elt F) → (⟨S64x3x128x128, .f32⟩ : BufTy).Contents (Elt F)),
    binary main_v38 main_v40 main_v60 (subf : (⟨S64x3x128x128, .f32⟩ : BufTy).Contents (Elt F) → (⟨S64x3x128x128, .f32⟩ : BufTy).Contents (Elt F) → (⟨S64x3x128x128, .f32⟩ : BufTy).Contents (Elt F)),
    binary main_v60 main_v42 main_v61 (subf : (⟨S64x3x128x128, .f32⟩ : BufTy).Contents (Elt F) → (⟨S64x3x128x128, .f32⟩ : BufTy).Contents (Elt F) → (⟨S64x3x128x128, .f32⟩ : BufTy).Contents (Elt F)),
    binary main_v61 main_v44 main_v62 (addf : (⟨S64x3x128x128, .f32⟩ : BufTy).Contents (Elt F) → (⟨S64x3x128x128, .f32⟩ : BufTy).Contents (Elt F) → (⟨S64x3x128x128, .f32⟩ : BufTy).Contents (Elt F)),
    nullary main_cst_6 (constant S_ .f32 0x3F000000#32),
    unary main_cst_6 main_v63 (broadcastInDim S64x3x128x128 ![] bcast_S_S64x3x128x128 : (⟨S_, .f32⟩ : BufTy).Contents (Elt F) → (⟨S64x3x128x128, .f32⟩ : BufTy).Contents (Elt F)),
    binary main_v62 main_v63 main_v64 (mulf : (⟨S64x3x128x128, .f32⟩ : BufTy).Contents (Elt F) → (⟨S64x3x128x128, .f32⟩ : BufTy).Contents (Elt F) → (⟨S64x3x128x128, .f32⟩ : BufTy).Contents (Elt F)),
    unary main_v49 main_v65 (broadcastInDim S64x3x1x128x128 ![0, 1, 3, 4] bcast_S64x3x128x128_S64x3x1x128x128_0_1_3_4 : (⟨S64x3x128x128, .f32⟩ : BufTy).Contents (Elt F) → (⟨S64x3x1x128x128, .f32⟩ : BufTy).Contents (Elt F)),
    unary main_v54 main_v66 (broadcastInDim S64x3x1x128x128 ![0, 1, 3, 4] bcast_S64x3x128x128_S64x3x1x128x128_0_1_3_4 : (⟨S64x3x128x128, .f32⟩ : BufTy).Contents (Elt F) → (⟨S64x3x1x128x128, .f32⟩ : BufTy).Contents (Elt F)),
    unary main_v59 main_v67 (broadcastInDim S64x3x1x128x128 ![0, 1, 3, 4] bcast_S64x3x128x128_S64x3x1x128x128_0_1_3_4 : (⟨S64x3x128x128, .f32⟩ : BufTy).Contents (Elt F) → (⟨S64x3x1x128x128, .f32⟩ : BufTy).Contents (Elt F)),
    unary main_v64 main_v68 (broadcastInDim S64x3x1x128x128 ![0, 1, 3, 4] bcast_S64x3x128x128_S64x3x1x128x128_0_1_3_4 : (⟨S64x3x128x128, .f32⟩ : BufTy).Contents (Elt F) → (⟨S64x3x1x128x128, .f32⟩ : BufTy).Contents (Elt F)),
    nary ![main_v65, main_v66, main_v67, main_v68] main_v69 (fun u => concatenate S64x3x4x128x128 2 [⟨S64x3x1x128x128, u 0⟩, ⟨S64x3x1x128x128, u 1⟩, ⟨S64x3x1x128x128, u 2⟩, ⟨S64x3x1x128x128, u 3⟩] concatenates_S64x3x1x128x128_S64x3x1x128x128_S64x3x1x128x128_S64x3x1x128x128_S64x3x4x128x128_d2) ]

/-- Level 3's operations, in @main's order. -/
abbrev ops3 : List (HloOp τ sig (Elt F)) :=
  [ unary main_v69 main_v70 ((extractStridedSlice S64x3x1x128x128 ![0, 0, 0, 0, 0] · slices_S64x3x4x128x128_S64x3x1x128x128_0_0_0_0_0) : (⟨S64x3x4x128x128, .f32⟩ : BufTy).Contents (Elt F) → (⟨S64x3x1x128x128, .f32⟩ : BufTy).Contents (Elt F)),
    reshape main_v70 main_v71 rfl shapeCasts_S64x3x1x128x128_S64x3x128x128,
    reshape main_v71 main_v72 rfl shapeCasts_S64x3x128x128_S64x3x64x2x64x2,
    unary main_v72 main_v73 ((extractStridedSlice S64x3x64x1x64x1 ![0, 0, 0, 0, 0, 0] · slices_S64x3x64x2x64x2_S64x3x64x1x64x1_0_0_0_0_0_0) : (⟨S64x3x64x2x64x2, .f32⟩ : BufTy).Contents (Elt F) → (⟨S64x3x64x1x64x1, .f32⟩ : BufTy).Contents (Elt F)),
    reshape main_v73 main_v74 rfl shapeCasts_S64x3x64x1x64x1_S64x3x64x64,
    unary main_v72 main_v75 ((extractStridedSlice S64x3x64x1x64x1 ![0, 0, 0, 0, 0, 1] · slices_S64x3x64x2x64x2_S64x3x64x1x64x1_0_0_0_0_0_1) : (⟨S64x3x64x2x64x2, .f32⟩ : BufTy).Contents (Elt F) → (⟨S64x3x64x1x64x1, .f32⟩ : BufTy).Contents (Elt F)),
    reshape main_v75 main_v76 rfl shapeCasts_S64x3x64x1x64x1_S64x3x64x64,
    unary main_v72 main_v77 ((extractStridedSlice S64x3x64x1x64x1 ![0, 0, 0, 1, 0, 0] · slices_S64x3x64x2x64x2_S64x3x64x1x64x1_0_0_0_1_0_0) : (⟨S64x3x64x2x64x2, .f32⟩ : BufTy).Contents (Elt F) → (⟨S64x3x64x1x64x1, .f32⟩ : BufTy).Contents (Elt F)),
    reshape main_v77 main_v78 rfl shapeCasts_S64x3x64x1x64x1_S64x3x64x64,
    unary main_v72 main_v79 ((extractStridedSlice S64x3x64x1x64x1 ![0, 0, 0, 1, 0, 1] · slices_S64x3x64x2x64x2_S64x3x64x1x64x1_0_0_0_1_0_1) : (⟨S64x3x64x2x64x2, .f32⟩ : BufTy).Contents (Elt F) → (⟨S64x3x64x1x64x1, .f32⟩ : BufTy).Contents (Elt F)),
    reshape main_v79 main_v80 rfl shapeCasts_S64x3x64x1x64x1_S64x3x64x64,
    binary main_v74 main_v76 main_v81 (addf : (⟨S64x3x64x64, .f32⟩ : BufTy).Contents (Elt F) → (⟨S64x3x64x64, .f32⟩ : BufTy).Contents (Elt F) → (⟨S64x3x64x64, .f32⟩ : BufTy).Contents (Elt F)),
    binary main_v81 main_v78 main_v82 (addf : (⟨S64x3x64x64, .f32⟩ : BufTy).Contents (Elt F) → (⟨S64x3x64x64, .f32⟩ : BufTy).Contents (Elt F) → (⟨S64x3x64x64, .f32⟩ : BufTy).Contents (Elt F)),
    binary main_v82 main_v80 main_v83 (addf : (⟨S64x3x64x64, .f32⟩ : BufTy).Contents (Elt F) → (⟨S64x3x64x64, .f32⟩ : BufTy).Contents (Elt F) → (⟨S64x3x64x64, .f32⟩ : BufTy).Contents (Elt F)),
    nullary main_cst_7 (constant S_ .f32 0x3F000000#32),
    unary main_cst_7 main_v84 (broadcastInDim S64x3x64x64 ![] bcast_S_S64x3x64x64 : (⟨S_, .f32⟩ : BufTy).Contents (Elt F) → (⟨S64x3x64x64, .f32⟩ : BufTy).Contents (Elt F)),
    binary main_v83 main_v84 main_v85 (mulf : (⟨S64x3x64x64, .f32⟩ : BufTy).Contents (Elt F) → (⟨S64x3x64x64, .f32⟩ : BufTy).Contents (Elt F) → (⟨S64x3x64x64, .f32⟩ : BufTy).Contents (Elt F)),
    binary main_v74 main_v76 main_v86 (addf : (⟨S64x3x64x64, .f32⟩ : BufTy).Contents (Elt F) → (⟨S64x3x64x64, .f32⟩ : BufTy).Contents (Elt F) → (⟨S64x3x64x64, .f32⟩ : BufTy).Contents (Elt F)),
    binary main_v86 main_v78 main_v87 (subf : (⟨S64x3x64x64, .f32⟩ : BufTy).Contents (Elt F) → (⟨S64x3x64x64, .f32⟩ : BufTy).Contents (Elt F) → (⟨S64x3x64x64, .f32⟩ : BufTy).Contents (Elt F)),
    binary main_v87 main_v80 main_v88 (subf : (⟨S64x3x64x64, .f32⟩ : BufTy).Contents (Elt F) → (⟨S64x3x64x64, .f32⟩ : BufTy).Contents (Elt F) → (⟨S64x3x64x64, .f32⟩ : BufTy).Contents (Elt F)),
    nullary main_cst_8 (constant S_ .f32 0x3F000000#32),
    unary main_cst_8 main_v89 (broadcastInDim S64x3x64x64 ![] bcast_S_S64x3x64x64 : (⟨S_, .f32⟩ : BufTy).Contents (Elt F) → (⟨S64x3x64x64, .f32⟩ : BufTy).Contents (Elt F)),
    binary main_v88 main_v89 main_v90 (mulf : (⟨S64x3x64x64, .f32⟩ : BufTy).Contents (Elt F) → (⟨S64x3x64x64, .f32⟩ : BufTy).Contents (Elt F) → (⟨S64x3x64x64, .f32⟩ : BufTy).Contents (Elt F)),
    binary main_v74 main_v76 main_v91 (subf : (⟨S64x3x64x64, .f32⟩ : BufTy).Contents (Elt F) → (⟨S64x3x64x64, .f32⟩ : BufTy).Contents (Elt F) → (⟨S64x3x64x64, .f32⟩ : BufTy).Contents (Elt F)),
    binary main_v91 main_v78 main_v92 (addf : (⟨S64x3x64x64, .f32⟩ : BufTy).Contents (Elt F) → (⟨S64x3x64x64, .f32⟩ : BufTy).Contents (Elt F) → (⟨S64x3x64x64, .f32⟩ : BufTy).Contents (Elt F)),
    binary main_v92 main_v80 main_v93 (subf : (⟨S64x3x64x64, .f32⟩ : BufTy).Contents (Elt F) → (⟨S64x3x64x64, .f32⟩ : BufTy).Contents (Elt F) → (⟨S64x3x64x64, .f32⟩ : BufTy).Contents (Elt F)),
    nullary main_cst_9 (constant S_ .f32 0x3F000000#32),
    unary main_cst_9 main_v94 (broadcastInDim S64x3x64x64 ![] bcast_S_S64x3x64x64 : (⟨S_, .f32⟩ : BufTy).Contents (Elt F) → (⟨S64x3x64x64, .f32⟩ : BufTy).Contents (Elt F)),
    binary main_v93 main_v94 main_v95 (mulf : (⟨S64x3x64x64, .f32⟩ : BufTy).Contents (Elt F) → (⟨S64x3x64x64, .f32⟩ : BufTy).Contents (Elt F) → (⟨S64x3x64x64, .f32⟩ : BufTy).Contents (Elt F)),
    binary main_v74 main_v76 main_v96 (subf : (⟨S64x3x64x64, .f32⟩ : BufTy).Contents (Elt F) → (⟨S64x3x64x64, .f32⟩ : BufTy).Contents (Elt F) → (⟨S64x3x64x64, .f32⟩ : BufTy).Contents (Elt F)),
    binary main_v96 main_v78 main_v97 (subf : (⟨S64x3x64x64, .f32⟩ : BufTy).Contents (Elt F) → (⟨S64x3x64x64, .f32⟩ : BufTy).Contents (Elt F) → (⟨S64x3x64x64, .f32⟩ : BufTy).Contents (Elt F)),
    binary main_v97 main_v80 main_v98 (addf : (⟨S64x3x64x64, .f32⟩ : BufTy).Contents (Elt F) → (⟨S64x3x64x64, .f32⟩ : BufTy).Contents (Elt F) → (⟨S64x3x64x64, .f32⟩ : BufTy).Contents (Elt F)),
    nullary main_cst_10 (constant S_ .f32 0x3F000000#32),
    unary main_cst_10 main_v99 (broadcastInDim S64x3x64x64 ![] bcast_S_S64x3x64x64 : (⟨S_, .f32⟩ : BufTy).Contents (Elt F) → (⟨S64x3x64x64, .f32⟩ : BufTy).Contents (Elt F)),
    binary main_v98 main_v99 main_v100 (mulf : (⟨S64x3x64x64, .f32⟩ : BufTy).Contents (Elt F) → (⟨S64x3x64x64, .f32⟩ : BufTy).Contents (Elt F) → (⟨S64x3x64x64, .f32⟩ : BufTy).Contents (Elt F)),
    unary main_v85 main_v101 (broadcastInDim S64x3x1x64x64 ![0, 1, 3, 4] bcast_S64x3x64x64_S64x3x1x64x64_0_1_3_4 : (⟨S64x3x64x64, .f32⟩ : BufTy).Contents (Elt F) → (⟨S64x3x1x64x64, .f32⟩ : BufTy).Contents (Elt F)),
    unary main_v90 main_v102 (broadcastInDim S64x3x1x64x64 ![0, 1, 3, 4] bcast_S64x3x64x64_S64x3x1x64x64_0_1_3_4 : (⟨S64x3x64x64, .f32⟩ : BufTy).Contents (Elt F) → (⟨S64x3x1x64x64, .f32⟩ : BufTy).Contents (Elt F)),
    unary main_v95 main_v103 (broadcastInDim S64x3x1x64x64 ![0, 1, 3, 4] bcast_S64x3x64x64_S64x3x1x64x64_0_1_3_4 : (⟨S64x3x64x64, .f32⟩ : BufTy).Contents (Elt F) → (⟨S64x3x1x64x64, .f32⟩ : BufTy).Contents (Elt F)),
    unary main_v100 main_v104 (broadcastInDim S64x3x1x64x64 ![0, 1, 3, 4] bcast_S64x3x64x64_S64x3x1x64x64_0_1_3_4 : (⟨S64x3x64x64, .f32⟩ : BufTy).Contents (Elt F) → (⟨S64x3x1x64x64, .f32⟩ : BufTy).Contents (Elt F)),
    nary ![main_v101, main_v102, main_v103, main_v104] main_v105 (fun u => concatenate S64x3x4x64x64 2 [⟨S64x3x1x64x64, u 0⟩, ⟨S64x3x1x64x64, u 1⟩, ⟨S64x3x1x64x64, u 2⟩, ⟨S64x3x1x64x64, u 3⟩] concatenates_S64x3x1x64x64_S64x3x1x64x64_S64x3x1x64x64_S64x3x1x64x64_S64x3x4x64x64_d2) ]

/-- Level 4's operations, in @main's order. -/
abbrev ops4 : List (HloOp τ sig (Elt F)) :=
  [ unary main_v105 main_v106 ((extractStridedSlice S64x3x1x64x64 ![0, 0, 0, 0, 0] · slices_S64x3x4x64x64_S64x3x1x64x64_0_0_0_0_0) : (⟨S64x3x4x64x64, .f32⟩ : BufTy).Contents (Elt F) → (⟨S64x3x1x64x64, .f32⟩ : BufTy).Contents (Elt F)),
    reshape main_v106 main_v107 rfl shapeCasts_S64x3x1x64x64_S64x3x64x64,
    reshape main_v107 main_v108 rfl shapeCasts_S64x3x64x64_S64x3x32x2x32x2,
    unary main_v108 main_v109 ((extractStridedSlice S64x3x32x1x32x1 ![0, 0, 0, 0, 0, 0] · slices_S64x3x32x2x32x2_S64x3x32x1x32x1_0_0_0_0_0_0) : (⟨S64x3x32x2x32x2, .f32⟩ : BufTy).Contents (Elt F) → (⟨S64x3x32x1x32x1, .f32⟩ : BufTy).Contents (Elt F)),
    reshape main_v109 main_v110 rfl shapeCasts_S64x3x32x1x32x1_S64x3x32x32,
    unary main_v108 main_v111 ((extractStridedSlice S64x3x32x1x32x1 ![0, 0, 0, 0, 0, 1] · slices_S64x3x32x2x32x2_S64x3x32x1x32x1_0_0_0_0_0_1) : (⟨S64x3x32x2x32x2, .f32⟩ : BufTy).Contents (Elt F) → (⟨S64x3x32x1x32x1, .f32⟩ : BufTy).Contents (Elt F)),
    reshape main_v111 main_v112 rfl shapeCasts_S64x3x32x1x32x1_S64x3x32x32,
    unary main_v108 main_v113 ((extractStridedSlice S64x3x32x1x32x1 ![0, 0, 0, 1, 0, 0] · slices_S64x3x32x2x32x2_S64x3x32x1x32x1_0_0_0_1_0_0) : (⟨S64x3x32x2x32x2, .f32⟩ : BufTy).Contents (Elt F) → (⟨S64x3x32x1x32x1, .f32⟩ : BufTy).Contents (Elt F)),
    reshape main_v113 main_v114 rfl shapeCasts_S64x3x32x1x32x1_S64x3x32x32,
    unary main_v108 main_v115 ((extractStridedSlice S64x3x32x1x32x1 ![0, 0, 0, 1, 0, 1] · slices_S64x3x32x2x32x2_S64x3x32x1x32x1_0_0_0_1_0_1) : (⟨S64x3x32x2x32x2, .f32⟩ : BufTy).Contents (Elt F) → (⟨S64x3x32x1x32x1, .f32⟩ : BufTy).Contents (Elt F)),
    reshape main_v115 main_v116 rfl shapeCasts_S64x3x32x1x32x1_S64x3x32x32,
    binary main_v110 main_v112 main_v117 (addf : (⟨S64x3x32x32, .f32⟩ : BufTy).Contents (Elt F) → (⟨S64x3x32x32, .f32⟩ : BufTy).Contents (Elt F) → (⟨S64x3x32x32, .f32⟩ : BufTy).Contents (Elt F)),
    binary main_v117 main_v114 main_v118 (addf : (⟨S64x3x32x32, .f32⟩ : BufTy).Contents (Elt F) → (⟨S64x3x32x32, .f32⟩ : BufTy).Contents (Elt F) → (⟨S64x3x32x32, .f32⟩ : BufTy).Contents (Elt F)),
    binary main_v118 main_v116 main_v119 (addf : (⟨S64x3x32x32, .f32⟩ : BufTy).Contents (Elt F) → (⟨S64x3x32x32, .f32⟩ : BufTy).Contents (Elt F) → (⟨S64x3x32x32, .f32⟩ : BufTy).Contents (Elt F)),
    nullary main_cst_11 (constant S_ .f32 0x3F000000#32),
    unary main_cst_11 main_v120 (broadcastInDim S64x3x32x32 ![] bcast_S_S64x3x32x32 : (⟨S_, .f32⟩ : BufTy).Contents (Elt F) → (⟨S64x3x32x32, .f32⟩ : BufTy).Contents (Elt F)),
    binary main_v119 main_v120 main_v121 (mulf : (⟨S64x3x32x32, .f32⟩ : BufTy).Contents (Elt F) → (⟨S64x3x32x32, .f32⟩ : BufTy).Contents (Elt F) → (⟨S64x3x32x32, .f32⟩ : BufTy).Contents (Elt F)),
    binary main_v110 main_v112 main_v122 (addf : (⟨S64x3x32x32, .f32⟩ : BufTy).Contents (Elt F) → (⟨S64x3x32x32, .f32⟩ : BufTy).Contents (Elt F) → (⟨S64x3x32x32, .f32⟩ : BufTy).Contents (Elt F)),
    binary main_v122 main_v114 main_v123 (subf : (⟨S64x3x32x32, .f32⟩ : BufTy).Contents (Elt F) → (⟨S64x3x32x32, .f32⟩ : BufTy).Contents (Elt F) → (⟨S64x3x32x32, .f32⟩ : BufTy).Contents (Elt F)),
    binary main_v123 main_v116 main_v124 (subf : (⟨S64x3x32x32, .f32⟩ : BufTy).Contents (Elt F) → (⟨S64x3x32x32, .f32⟩ : BufTy).Contents (Elt F) → (⟨S64x3x32x32, .f32⟩ : BufTy).Contents (Elt F)),
    nullary main_cst_12 (constant S_ .f32 0x3F000000#32),
    unary main_cst_12 main_v125 (broadcastInDim S64x3x32x32 ![] bcast_S_S64x3x32x32 : (⟨S_, .f32⟩ : BufTy).Contents (Elt F) → (⟨S64x3x32x32, .f32⟩ : BufTy).Contents (Elt F)),
    binary main_v124 main_v125 main_v126 (mulf : (⟨S64x3x32x32, .f32⟩ : BufTy).Contents (Elt F) → (⟨S64x3x32x32, .f32⟩ : BufTy).Contents (Elt F) → (⟨S64x3x32x32, .f32⟩ : BufTy).Contents (Elt F)),
    binary main_v110 main_v112 main_v127 (subf : (⟨S64x3x32x32, .f32⟩ : BufTy).Contents (Elt F) → (⟨S64x3x32x32, .f32⟩ : BufTy).Contents (Elt F) → (⟨S64x3x32x32, .f32⟩ : BufTy).Contents (Elt F)),
    binary main_v127 main_v114 main_v128 (addf : (⟨S64x3x32x32, .f32⟩ : BufTy).Contents (Elt F) → (⟨S64x3x32x32, .f32⟩ : BufTy).Contents (Elt F) → (⟨S64x3x32x32, .f32⟩ : BufTy).Contents (Elt F)),
    binary main_v128 main_v116 main_v129 (subf : (⟨S64x3x32x32, .f32⟩ : BufTy).Contents (Elt F) → (⟨S64x3x32x32, .f32⟩ : BufTy).Contents (Elt F) → (⟨S64x3x32x32, .f32⟩ : BufTy).Contents (Elt F)),
    nullary main_cst_13 (constant S_ .f32 0x3F000000#32),
    unary main_cst_13 main_v130 (broadcastInDim S64x3x32x32 ![] bcast_S_S64x3x32x32 : (⟨S_, .f32⟩ : BufTy).Contents (Elt F) → (⟨S64x3x32x32, .f32⟩ : BufTy).Contents (Elt F)),
    binary main_v129 main_v130 main_v131 (mulf : (⟨S64x3x32x32, .f32⟩ : BufTy).Contents (Elt F) → (⟨S64x3x32x32, .f32⟩ : BufTy).Contents (Elt F) → (⟨S64x3x32x32, .f32⟩ : BufTy).Contents (Elt F)),
    binary main_v110 main_v112 main_v132 (subf : (⟨S64x3x32x32, .f32⟩ : BufTy).Contents (Elt F) → (⟨S64x3x32x32, .f32⟩ : BufTy).Contents (Elt F) → (⟨S64x3x32x32, .f32⟩ : BufTy).Contents (Elt F)),
    binary main_v132 main_v114 main_v133 (subf : (⟨S64x3x32x32, .f32⟩ : BufTy).Contents (Elt F) → (⟨S64x3x32x32, .f32⟩ : BufTy).Contents (Elt F) → (⟨S64x3x32x32, .f32⟩ : BufTy).Contents (Elt F)),
    binary main_v133 main_v116 main_v134 (addf : (⟨S64x3x32x32, .f32⟩ : BufTy).Contents (Elt F) → (⟨S64x3x32x32, .f32⟩ : BufTy).Contents (Elt F) → (⟨S64x3x32x32, .f32⟩ : BufTy).Contents (Elt F)),
    nullary main_cst_14 (constant S_ .f32 0x3F000000#32),
    unary main_cst_14 main_v135 (broadcastInDim S64x3x32x32 ![] bcast_S_S64x3x32x32 : (⟨S_, .f32⟩ : BufTy).Contents (Elt F) → (⟨S64x3x32x32, .f32⟩ : BufTy).Contents (Elt F)),
    binary main_v134 main_v135 main_v136 (mulf : (⟨S64x3x32x32, .f32⟩ : BufTy).Contents (Elt F) → (⟨S64x3x32x32, .f32⟩ : BufTy).Contents (Elt F) → (⟨S64x3x32x32, .f32⟩ : BufTy).Contents (Elt F)),
    unary main_v121 main_v137 (broadcastInDim S64x3x1x32x32 ![0, 1, 3, 4] bcast_S64x3x32x32_S64x3x1x32x32_0_1_3_4 : (⟨S64x3x32x32, .f32⟩ : BufTy).Contents (Elt F) → (⟨S64x3x1x32x32, .f32⟩ : BufTy).Contents (Elt F)),
    unary main_v126 main_v138 (broadcastInDim S64x3x1x32x32 ![0, 1, 3, 4] bcast_S64x3x32x32_S64x3x1x32x32_0_1_3_4 : (⟨S64x3x32x32, .f32⟩ : BufTy).Contents (Elt F) → (⟨S64x3x1x32x32, .f32⟩ : BufTy).Contents (Elt F)),
    unary main_v131 main_v139 (broadcastInDim S64x3x1x32x32 ![0, 1, 3, 4] bcast_S64x3x32x32_S64x3x1x32x32_0_1_3_4 : (⟨S64x3x32x32, .f32⟩ : BufTy).Contents (Elt F) → (⟨S64x3x1x32x32, .f32⟩ : BufTy).Contents (Elt F)),
    unary main_v136 main_v140 (broadcastInDim S64x3x1x32x32 ![0, 1, 3, 4] bcast_S64x3x32x32_S64x3x1x32x32_0_1_3_4 : (⟨S64x3x32x32, .f32⟩ : BufTy).Contents (Elt F) → (⟨S64x3x1x32x32, .f32⟩ : BufTy).Contents (Elt F)),
    nary ![main_v137, main_v138, main_v139, main_v140] main_v141 (fun u => concatenate S64x3x4x32x32 2 [⟨S64x3x1x32x32, u 0⟩, ⟨S64x3x1x32x32, u 1⟩, ⟨S64x3x1x32x32, u 2⟩, ⟨S64x3x1x32x32, u 3⟩] concatenates_S64x3x1x32x32_S64x3x1x32x32_S64x3x1x32x32_S64x3x1x32x32_S64x3x4x32x32_d2),
    unary main_v141 main_v142 ((extractStridedSlice S64x3x1x32x32 ![0, 0, 0, 0, 0] · slices_S64x3x4x32x32_S64x3x1x32x32_0_0_0_0_0) : (⟨S64x3x4x32x32, .f32⟩ : BufTy).Contents (Elt F) → (⟨S64x3x1x32x32, .f32⟩ : BufTy).Contents (Elt F)),
    reshape main_v142 main_v143 rfl shapeCasts_S64x3x1x32x32_S64x3x32x32 ]

/-- @main's 160 operations, in order. -/
abbrev ops : List (HloOp τ sig (Elt F)) := ops1 ++ (ops2 ++ (ops3 ++ ops4))

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., unary_bufs_sub .., unary_bufs_sub .., unary_bufs_sub .., unary_bufs_sub .., nary_bufs_sub ..⟩
theorem ops1_fresh : ∀ op ∈ (ops1 : List (HloOp τ sig (Elt F))), op.fresh = ∅ := by
  intro _ h; (repeat (cases h with | head => rfl | tail _ h => ?_)); exact nomatch h

theorem ops2_sub : (ops2 : List (HloOp τ sig (Elt F))).Forall fun op => op.bufs ⊆ tcRefs τ sig :=
  ⟨unary_bufs_sub .., reshape_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., unary_bufs_sub .., unary_bufs_sub .., unary_bufs_sub .., unary_bufs_sub .., nary_bufs_sub ..⟩
theorem ops2_fresh : ∀ op ∈ (ops2 : List (HloOp τ sig (Elt F))), op.fresh = ∅ := by
  intro _ h; (repeat (cases h with | head => rfl | tail _ h => ?_)); exact nomatch h

theorem ops3_sub : (ops3 : List (HloOp τ sig (Elt F))).Forall fun op => op.bufs ⊆ tcRefs τ sig :=
  ⟨unary_bufs_sub .., reshape_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., unary_bufs_sub .., unary_bufs_sub .., unary_bufs_sub .., unary_bufs_sub .., nary_bufs_sub ..⟩
theorem ops3_fresh : ∀ op ∈ (ops3 : List (HloOp τ sig (Elt F))), op.fresh = ∅ := by
  intro _ h; (repeat (cases h with | head => rfl | tail _ h => ?_)); exact nomatch h

theorem ops4_sub : (ops4 : List (HloOp τ sig (Elt F))).Forall fun op => op.bufs ⊆ tcRefs τ sig :=
  ⟨unary_bufs_sub .., reshape_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., unary_bufs_sub .., unary_bufs_sub .., unary_bufs_sub .., unary_bufs_sub .., nary_bufs_sub .., unary_bufs_sub .., reshape_bufs_sub ..⟩
theorem ops4_fresh : ∀ op ∈ (ops4 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig := by
  refine List.forall_iff_forall_mem.mpr fun op h => ?_
  rcases List.mem_append.mp h with h | h
  · exact List.forall_iff_forall_mem.mp ops1_sub op h
  rcases List.mem_append.mp h with h | h
  · exact List.forall_iff_forall_mem.mp ops2_sub op h
  rcases List.mem_append.mp h with h | h
  · exact List.forall_iff_forall_mem.mp ops3_sub op h
  · exact List.forall_iff_forall_mem.mp ops4_sub op h

theorem ops_fresh : ∀ op ∈ (ops : List (HloOp τ sig (Elt F))), op.fresh = ∅ := by
  intro op h
  rcases List.mem_append.mp h with h | h
  · exact ops1_fresh op h
  rcases List.mem_append.mp h with h | h
  · exact ops2_fresh op h
  rcases List.mem_append.mp h with h | h
  · exact ops3_fresh op h
  · exact ops4_fresh op h

/-- The contents after two lines of operations, one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## One level at a time, from any contents -/

variable (V : Valuation τ sig (Elt Ideal))

/-- Level 1's operations leave a Haar level of the argument in `main_v33`. -/
theorem level1_result : after (ops1 (F := Ideal)) V (Proc.devRef .tc main_v33) = Haar.Levels.level1 (V (Proc.devRef .tc main_arg0)) := by
  dsimp only [ops1]; after_results_simp <;> rfl

/-- Level 2's operations leave in `main_v69` a Haar level of plane 0 of what `main_v33` holds. -/
theorem level2_result : after (ops2 (F := Ideal)) V (Proc.devRef .tc main_v69)
    = Haar.batchLevel Haar.Levels.batchFacts2 (Haar.batchPlane0 (by decide) (by decide) (V (Proc.devRef .tc main_v33))) := by
  dsimp only [ops2]; after_results_simp <;> rfl

/-- Level 3's operations leave in `main_v105` a Haar level of plane 0 of what `main_v69` holds. -/
theorem level3_result : after (ops3 (F := Ideal)) V (Proc.devRef .tc main_v105)
    = Haar.batchLevel Haar.Levels.batchFacts3 (Haar.batchPlane0 (by decide) (by decide) (V (Proc.devRef .tc main_v69))) := by
  dsimp only [ops3]; after_results_simp <;> rfl

/-- Level 4's operations leave in `main_v141` a Haar level of plane 0 of what `main_v105` holds. -/
theorem level4_result : after (ops4 (F := Ideal)) V (Proc.devRef .tc main_v141)
    = Haar.batchLevel Haar.Levels.batchFacts4 (Haar.batchPlane0 (by decide) (by decide) (V (Proc.devRef .tc main_v105))) := by
  dsimp only [ops4]; after_results_simp <;> rfl

/-- Level 1's operations do not write `main_arg0`. -/
theorem level1_keeps_main_arg0 : after (ops1 (F := Ideal)) V (Proc.devRef .tc main_arg0) = V (Proc.devRef .tc main_arg0) := by
  dsimp only [ops1]; after_results_simp

/-- Level 2's operations do not write `main_arg0`. -/
theorem level2_keeps_main_arg0 : after (ops2 (F := Ideal)) V (Proc.devRef .tc main_arg0) = V (Proc.devRef .tc main_arg0) := by
  dsimp only [ops2]; after_results_simp

/-- Level 2's operations do not write `main_v33`. -/
theorem level2_keeps_main_v33 : after (ops2 (F := Ideal)) V (Proc.devRef .tc main_v33) = V (Proc.devRef .tc main_v33) := by
  dsimp only [ops2]; after_results_simp

/-- Level 3's operations do not write `main_arg0`. -/
theorem level3_keeps_main_arg0 : after (ops3 (F := Ideal)) V (Proc.devRef .tc main_arg0) = V (Proc.devRef .tc main_arg0) := by
  dsimp only [ops3]; after_results_simp

/-- Level 3's operations do not write `main_v33`. -/
theorem level3_keeps_main_v33 : after (ops3 (F := Ideal)) V (Proc.devRef .tc main_v33) = V (Proc.devRef .tc main_v33) := by
  dsimp only [ops3]; after_results_simp

/-- Level 3's operations do not write `main_v69`. -/
theorem level3_keeps_main_v69 : after (ops3 (F := Ideal)) V (Proc.devRef .tc main_v69) = V (Proc.devRef .tc main_v69) := by
  dsimp only [ops3]; after_results_simp

/-- Level 4's operations do not write `main_arg0`. -/
theorem level4_keeps_main_arg0 : after (ops4 (F := Ideal)) V (Proc.devRef .tc main_arg0) = V (Proc.devRef .tc main_arg0) := by
  dsimp only [ops4]; after_results_simp

/-- Level 4's operations do not write `main_v33`. -/
theorem level4_keeps_main_v33 : after (ops4 (F := Ideal)) V (Proc.devRef .tc main_v33) = V (Proc.devRef .tc main_v33) := by
  dsimp only [ops4]; after_results_simp

/-- Level 4's operations do not write `main_v69`. -/
theorem level4_keeps_main_v69 : after (ops4 (F := Ideal)) V (Proc.devRef .tc main_v69) = V (Proc.devRef .tc main_v69) := by
  dsimp only [ops4]; after_results_simp

/-- Level 4's operations do not write `main_v105`. -/
theorem level4_keeps_main_v105 : after (ops4 (F := Ideal)) V (Proc.devRef .tc main_v105) = V (Proc.devRef .tc main_v105) := by
  dsimp only [ops4]; after_results_simp

/-! ## The four results -/

theorem result1 : after (ops (F := Ideal)) V (Proc.devRef .tc main_v33) = Haar.Levels.level1 (V (Proc.devRef .tc main_arg0)) := by
  show after (ops1 (F := Ideal) ++ (ops2 ++ (ops3 ++ ops4))) V _ = _
  rw [after_append, after_append, after_append, level4_keeps_main_v33, level3_keeps_main_v33, level2_keeps_main_v33, level1_result]

theorem result2 : after (ops (F := Ideal)) V (Proc.devRef .tc main_v69) = Haar.Levels.level2 (V (Proc.devRef .tc main_arg0)) := by
  show after (ops1 (F := Ideal) ++ (ops2 ++ (ops3 ++ ops4))) V _ = _
  rw [after_append, after_append, after_append, level4_keeps_main_v69, level3_keeps_main_v69, level2_result, level1_result]
  rfl

theorem result3 : after (ops (F := Ideal)) V (Proc.devRef .tc main_v105) = Haar.Levels.level3 (V (Proc.devRef .tc main_arg0)) := by
  show after (ops1 (F := Ideal) ++ (ops2 ++ (ops3 ++ ops4))) V _ = _
  rw [after_append, after_append, after_append, level4_keeps_main_v105, level3_result, level2_result, level1_result]
  rfl

theorem result4 : after (ops (F := Ideal)) V (Proc.devRef .tc main_v141) = Haar.Levels.level4 (V (Proc.devRef .tc main_arg0)) := by
  show after (ops1 (F := Ideal) ++ (ops2 ++ (ops3 ++ ops4))) V _ = _
  rw [after_append, after_append, after_append, level4_result, level3_result, level2_result, level1_result]
  rfl

theorem kept_arg : after (ops (F := Ideal)) V (Proc.devRef .tc main_arg0) = V (Proc.devRef .tc main_arg0) := by
  show after (ops1 (F := Ideal) ++ (ops2 ++ (ops3 ++ ops4))) V _ = _
  rw [after_append, after_append, after_append, level4_keeps_main_arg0, level3_keeps_main_arg0, level2_keeps_main_arg0, level1_keeps_main_arg0]

/-! ## The run -/

/-- Every weakly fair execution of the reference terminates with its four results at the four levels of the
    transform of its argument, the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v33) = Haar.Levels.level1 (m ((c.tc : Thread nD τ).loc main_arg0))
      ∧ r.2.mem ((c.tc : Thread nD τ).loc main_v69) = Haar.Levels.level2 (m ((c.tc : Thread nD τ).loc main_arg0))
      ∧ r.2.mem ((c.tc : Thread nD τ).loc main_v105) = Haar.Levels.level3 (m ((c.tc : Thread nD τ).loc main_arg0))
      ∧ r.2.mem ((c.tc : Thread nD τ).loc main_v141) = Haar.Levels.level4 (m ((c.tc : Thread nD τ).loc main_arg0))
      ∧ r.2.mem ((c.tc : Thread nD τ).loc main_arg0) = m ((c.tc : Thread nD τ).loc main_arg0) :=
  (θ_run defs _ _).mono (fun _ h c => ⟨(h c main_v33).trans (result1 _), (h c main_v69).trans (result2 _),
      (h c main_v105).trans (result3 _), (h c main_v141).trans (result4 _), (h c main_arg0).trans (kept_arg _)⟩)
    (run_seq scopedRefs_eq scopedSems_eq defs main (fun _ => ops (F := Ideal)) main_eq (fun _ => ops_sub) m ρ (fun _ => ops_fresh))

end Cert.ReferenceIdeal.HandRun

end
-- ==== Proof.lean ====
/-
  The four-level two-dimensional Haar transform of a batch of images [64, 3, 512, 512]: a device program of four
  pipelined calls against its plain array reference, equal at the extended reals.

  One level cuts every image into 2×2 patches (a b over c d) and writes four planes of half the extent:
  (a+b+c+d)·½, (a+b−c−d)·½, (a−b+c−d)·½, (a−b−c+d)·½. Level l+1 is a level of plane 0 of level l; the four levels
  are the results. The reference does this on the batch as it stands. The device program flattens batch and
  channel to 192 images, and per level runs a pipelined call that takes the images block by block, each block's
  body computing the level of its block; between calls the host reshapes a call's result into the returned layout
  and cuts plane 0 out for the next call.

  Both programs apply the same additions, subtractions and the same factor in the same order to the same four
  entries; they differ only in how the arrays are laid out and cut. So the proof is bookkeeping of indices, and
  uses no law of arithmetic and no finiteness of the input:

  * Proof/LibHaar.lean reads one level at an index in both spellings, for any extents, and shows that flattening
    commutes with a level and with taking plane 0;
  * Proof/Level0 … Level3 show, per call, that the blocks' levels tile the level of the whole stack;
  * Proof/KernelRun.lean names what the device program's run leaves in the four returned arrays, and
    Proof/KernelChain.lean computes it: the four levels of the argument (`Haar.Levels.level1` … `level4`);
  * Proof/RefRun.lean reads the reference's run level by level: its results are those four levels by definition.
-/
import proofs.«113170_j5841155522677_1_alg».proof.Defs
import proofs.«113170_j5841155522677_1_alg».proof.Proof.Gen.Kernel
import proofs.«113170_j5841155522677_1_alg».proof.Proof.Gen.Kernel.Frame
import proofs.«113170_j5841155522677_1_alg».proof.Proof.Gen.KernelIdeal
import proofs.«113170_j5841155522677_1_alg».proof.Proof.Gen.KernelIdeal.Frame
import proofs.«113170_j5841155522677_1_alg».proof.Proof.Gen.ReferenceIdeal
import proofs.«113170_j5841155522677_1_alg».proof.Proof.Gen.Pre_finite_inputs
import proofs.«113170_j5841155522677_1_alg».proof.Proof.KernelRun
import proofs.«113170_j5841155522677_1_alg».proof.Proof.KernelChain
import proofs.«113170_j5841155522677_1_alg».proof.Proof.RefRun
import Idealize.ShloMosaic.Adequacy
import Idealize.ShloMosaic.Init

noncomputable section

namespace Cert.Proof

open Idealize.ShloMosaic Idealize.SL.Sem

/-- At the extended reals both programs end with the four levels of the transform of the argument in their four
    results: the device program by its run and the chain of its calls, the reference by its run read level by level; and the two
    arguments agree. -/
theorem algebraic : Cert.algebraic_KernelIdeal_ReferenceIdeal := by
  intro m ρ m' ρ' _ hagree
  refine ⟨fun c => Haar.Levels.level1 (m ((c.tc : Thread Cert.KernelIdeal.nD Cert.KernelIdeal.τ).loc Cert.KernelIdeal.main_arg0)),
    fun c => Haar.Levels.level2 (m ((c.tc : Thread Cert.KernelIdeal.nD Cert.KernelIdeal.τ).loc Cert.KernelIdeal.main_arg0)),
    fun c => Haar.Levels.level3 (m ((c.tc : Thread Cert.KernelIdeal.nD Cert.KernelIdeal.τ).loc Cert.KernelIdeal.main_arg0)),
    fun c => Haar.Levels.level4 (m ((c.tc : Thread Cert.KernelIdeal.nD Cert.KernelIdeal.τ).loc Cert.KernelIdeal.main_arg0)), ?_, ?_⟩
  · refine (θ_run Cert.KernelIdeal.defs _ _).mono (fun r h c => ?_) (Cert.KernelIdeal.Results.run (F := Ideal) m ρ)
    obtain ⟨h1, h2, h3, h4, h5⟩ := h c
    obtain ⟨e1, e2, e3, e4⟩ := Cert.KernelIdeal.Chain.returned m ρ c
    exact ⟨h1.trans e1, h2.trans e2, h3.trans e3, h4.trans e4, h5⟩
  · refine (θ_run Cert.ReferenceIdeal.defs _ _).mono (fun r h c => ?_) (Cert.ReferenceIdeal.HandRun.run m' ρ')
    obtain ⟨h1, h2, h3, h4, h5⟩ := h c
    have ha := hagree c
    exact ⟨h1.trans (congrArg Haar.Levels.level1 ha), h2.trans (congrArg Haar.Levels.level2 ha),
      h3.trans (congrArg Haar.Levels.level3 ha), h4.trans (congrArg Haar.Levels.level4 ha), h5⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2.2) (Cert.ReferenceIdeal.HandRun.run m ρ),
  trivial,
  algebraic⟩

end Cert.Proof

end
